-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v8_1)) (v1 : (c : Dev Cert.KernelIdeal.nD) → Buf (Elt Ideal) ((c.tc : Thread Cert.KernelIdeal.nD Cert.KernelIdeal.τ).loc Cert.KernelIdeal.main_v44)) (v2 : (c : Dev Cert.KernelIdeal.nD) → Buf (Elt Ideal) ((c.tc : Thread Cert.KernelIdeal.nD Cert.KernelIdeal.τ).loc Cert.KernelIdeal.main_v8_0)) (v3 : (c : Dev Cert.KernelIdeal.nD) → Buf (Elt Ideal) ((c.tc : Thread Cert.KernelIdeal.nD Cert.KernelIdeal.τ).loc Cert.KernelIdeal.main_v41)) (v4 : (c : Dev Cert.KernelIdeal.nD) → Buf (Elt Ideal) ((c.tc : Thread Cert.KernelIdeal.nD Cert.KernelIdeal.τ).loc Cert.KernelIdeal.main_v38)) (v5 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_1) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_v8_0) = v2 c
          ∧ r.2.mem ((c.tc : Thread Cert.KernelIdeal.nD Cert.KernelIdeal.τ).loc Cert.KernelIdeal.main_v41) = v3 c
          ∧ r.2.mem ((c.tc : Thread Cert.KernelIdeal.nD Cert.KernelIdeal.τ).loc Cert.KernelIdeal.main_v38) = v4 c
          ∧ r.2.mem ((c.tc : Thread Cert.KernelIdeal.nD Cert.KernelIdeal.τ).loc Cert.KernelIdeal.main_v74) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_v51) = v4 c
          ∧ r.2.mem ((c.tc : Thread Cert.ReferenceIdeal.nD Cert.ReferenceIdeal.τ).loc Cert.ReferenceIdeal.main_v99) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S2x524288 : Shape := ⟨2, ![2, 524288]⟩
abbrev S256x128 : Shape := ⟨2, ![256, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S8192x128 : Shape := ⟨2, ![8192, 128]⟩
abbrev S128x8192 : Shape := ⟨2, ![128, 8192]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S8192x128 : S_.BroadcastsInDim S8192x128 (![] : Fin 0 → Fin S8192x128.rank)
  reducesTo_S8192x128_S_d0_1 : S8192x128.ReducesTo [0, 1] S_
  bcast_S_S128x8192 : S_.BroadcastsInDim S128x8192 (![] : Fin 0 → Fin S128x8192.rank)
  reducesTo_S128x8192_S_d0_1 : S128x8192.ReducesTo [0, 1] S_
  bcast_S_S8192 : S_.BroadcastsInDim S8192 (![] : Fin 0 → Fin S8192.rank)
  reducesTo_S8192_S_d0 : S8192.ReducesTo [0] S_

variable [Facts]

def fn_part5 {F : FTy → Type} [FloatOps F] (main_v83 : IVec S_ 1) (main_v84 : FVec F S8192 .f32) (main_cst_32 : FVec F S_ .f32) : IVec S_ 1 :=
  let main_v85 : FVec F S8192 .f32 := broadcastInDim S8192 ![] bcast_S_S8192 main_cst_32
  let main_v86 : IVec S8192 1 := cmpf .olt main_v84 main_v85
  let main_c_33 : IVec S_ 1 := constantI S_ 1 1#1
  let main_v87 : IVec S_ 1 := (fun x v => Host.reduce IntOp.andi x v reducesTo_S8192_S_d0 h_S_) main_v86 main_c_33
  let main_v88 : IVec S_ 1 := andi main_v83 main_v87
  main_v88

def fn_part4 {F : FTy → Type} [FloatOps F] (main_arg15 : FVec F S128x128 .f32) (main_arg16 : FVec F S128 .f32) (main_arg17 : FVec F S128x8192 .f32) (main_arg18 : FVec F S8192 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x8192 .f32 := Host.absf main_arg17
  let main_cst_30 : FVec F S_ .f32 := constant S_ .f32 0x7F800000#32
  let main_v80 : FVec F S128x8192 .f32 := broadcastInDim S128x8192 ![] bcast_S_S128x8192 main_cst_30
  let main_v81 : IVec S128x8192 1 := cmpf .olt main_v79 main_v80
  let main_c_31 : IVec S_ 1 := constantI S_ 1 1#1
  let main_v82 : IVec S_ 1 := (fun x v => Host.reduce IntOp.andi x v reducesTo_S128x8192_S_d0_1 h_S_) main_v81 main_c_31
  let main_v83 : IVec S_ 1 := andi main_v78 main_v82
  let main_v84 : FVec F S8192 .f32 := Host.absf main_arg18
  let main_cst_32 : FVec F S_ .f32 := constant S_ .f32 0x7F800000#32
  fn_part5 (F := F) main_v83 main_v84 main_cst_32

def fn_part3 {F : FTy → Type} [FloatOps F] (main_arg12 : FVec F S128 .f32) (main_arg13 : FVec F S128x128 .f32) (main_arg14 : FVec F S128 .f32) (main_arg15 : FVec F S128x128 .f32) (main_arg16 : FVec F S128 .f32) (main_arg17 : FVec F S128x8192 .f32) (main_arg18 : FVec F S8192 .f32) (main_v48 : IVec S_ 1) (main_v49 : FVec F S8192x128 .f32) (main_v50 : FVec F S8192x128 .f32) : IVec S_ 1 :=
  let main_v51 : IVec S8192x128 1 := cmpf .olt main_v49 main_v50
  let main_c_19 : IVec S_ 1 := constantI S_ 1 1#1
  let main_v52 : IVec S_ 1 := (fun x v => Host.reduce IntOp.andi x v reducesTo_S8192x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_v63 main_v67

def fn_part2 {F : FTy → Type} [FloatOps F] (main_arg8 : FVec F S128 .f32) (main_arg9 : FVec F S128x256 .f32) (main_arg10 : FVec F S256 .f32) (main_arg11 : FVec F S8192x128 .f32) (main_arg12 : FVec F S128 .f32) (main_arg13 : FVec F S128x128 .f32) (main_arg14 : FVec F S128 .f32) (main_arg15 : FVec F S128x128 .f32) (main_arg16 : FVec F S128 .f32) (main_arg17 : FVec F S128x8192 .f32) (main_arg18 : FVec F S8192 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x256 .f32 := Host.absf main_arg9
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S8192x128 .f32 := Host.absf main_arg11
  let main_cst_18 : FVec F S_ .f32 := constant S_ .f32 0x7F800000#32
  let main_v50 : FVec F S8192x128 .f32 := broadcastInDim S8192x128 ![] bcast_S_S8192x128 main_cst_18
  fn_part3 (F := F) main_arg12 main_arg13 main_arg14 main_arg15 main_arg16 main_arg17 main_arg18 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x256 .f32) (main_arg10 : FVec F S256 .f32) (main_arg11 : FVec F S8192x128 .f32) (main_arg12 : FVec F S128 .f32) (main_arg13 : FVec F S128x128 .f32) (main_arg14 : FVec F S128 .f32) (main_arg15 : FVec F S128x128 .f32) (main_arg16 : FVec F S128 .f32) (main_arg17 : FVec F S128x8192 .f32) (main_arg18 : FVec F S8192 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S8192x256 .f32) (main_arg1 : FVec F S8192x8192 .f32) (main_arg2 : IVec S2x524288 32) (main_arg3 : FVec F S256x128 .f32) (main_arg4 : FVec F S128 .f32) (main_arg5 : FVec F S128x128 .f32) (main_arg6 : FVec F S128 .f32) (main_arg7 : FVec F S128x128 .f32) (main_arg8 : FVec F S128 .f32) (main_arg9 : FVec F S128x256 .f32) (main_arg10 : FVec F S256 .f32) (main_arg11 : FVec F S8192x128 .f32) (main_arg12 : FVec F S128 .f32) (main_arg13 : FVec F S128x128 .f32) (main_arg14 : FVec F S128 .f32) (main_arg15 : FVec F S128x128 .f32) (main_arg16 : FVec F S128 .f32) (main_arg17 : FVec F S128x8192 .f32) (main_arg18 : FVec F S8192 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S8192x256 : Shape := ⟨2, ![8192, 256]⟩
abbrev S8192x8192 : Shape := ⟨2, ![8192, 8192]⟩
abbrev S2x524288 : Shape := ⟨2, ![2, 524288]⟩
abbrev S256x128 : Shape := ⟨2, ![256, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S8192x128 : Shape := ⟨2, ![8192, 128]⟩
abbrev S128x8192 : Shape := ⟨2, ![128, 8192]⟩
abbrev S8192 : Shape := ⟨1, ![8192]⟩
abbrev S1x524288 : Shape := ⟨2, ![1, 524288]⟩
abbrev S524288 : Shape := ⟨1, ![524288]⟩
abbrev S1x128 : Shape := ⟨2, ![1, 128]⟩
abbrev S1x256 : Shape := ⟨2, ![1, 256]⟩
abbrev S2048x256 : Shape := ⟨2, ![2048, 256]⟩
abbrev S2048x128 : Shape := ⟨2, ![2048, 128]⟩
abbrev S_ : Shape := ⟨0, ![]⟩
abbrev S524288x1 : Shape := ⟨2, ![524288, 1]⟩
abbrev S524288x128 : Shape := ⟨2, ![524288, 128]⟩
abbrev S1024x2048 : Shape := ⟨2, ![1024, 2048]⟩
abbrev S1024x128 : Shape := ⟨2, ![1024, 128]⟩
abbrev S1x8192 : Shape := ⟨2, ![1, 8192]⟩
abbrev S128x2048 : Shape := ⟨2, ![128, 2048]⟩
abbrev S1x2048 : Shape := ⟨2, ![1, 2048]⟩

abbrev nBuf : Space → Nat
  | .hbm => 121
  | .vmem => 34
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S2x524288, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x256, .f32⟩
  | .hbm, ⟨10, _⟩ => ⟨S256, .f32⟩
  | .hbm, ⟨11, _⟩ => ⟨S8192x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x8192, .f32⟩
  | .hbm, ⟨18, _⟩ => ⟨S8192, .f32⟩
  | .hbm, ⟨19, _⟩ => ⟨S1x524288, .i32⟩
  | .hbm, ⟨20, _⟩ => ⟨S524288, .i32⟩
  | .hbm, ⟨21, _⟩ => ⟨S1x524288, .i32⟩
  | .hbm, ⟨22, _⟩ => ⟨S524288, .i32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x256, .f32⟩
  | .hbm, ⟨27, _⟩ => ⟨S8192x128, .f32⟩
  | .hbm, ⟨28, _⟩ => ⟨S8192x256, .f32⟩
  | .hbm, ⟨29, _⟩ => ⟨S_, .i32⟩
  | .hbm, ⟨30, _⟩ => ⟨S524288, .i32⟩
  | .hbm, ⟨31, _⟩ => ⟨S524288, .i1⟩
  | .hbm, ⟨32, _⟩ => ⟨S_, .i32⟩
  | .hbm, ⟨33, _⟩ => ⟨S524288, .i32⟩
  | .hbm, ⟨34, _⟩ => ⟨S524288, .i32⟩
  | .hbm, ⟨35, _⟩ => ⟨S524288, .i32⟩
  | .hbm, ⟨36, _⟩ => ⟨S524288x1, .i32⟩
  | .hbm, ⟨37, _⟩ => ⟨S524288x128, .f32⟩
  | .hbm, ⟨38, _⟩ => ⟨S_, .i32⟩
  | .hbm, ⟨39, _⟩ => ⟨S524288, .i32⟩
  | .hbm, ⟨40, _⟩ => ⟨S524288, .i1⟩
  | .hbm, ⟨41, _⟩ => ⟨S_, .i32⟩
  | .hbm, ⟨42, _⟩ => ⟨S524288, .i32⟩
  | .hbm, ⟨43, _⟩ => ⟨S524288, .i32⟩
  | .hbm, ⟨44, _⟩ => ⟨S524288, .i32⟩
  | .hbm, ⟨45, _⟩ => ⟨S524288x1, .i32⟩
  | .hbm, ⟨46, _⟩ => ⟨S524288x128, .f32⟩
  | .hbm, ⟨47, _⟩ => ⟨S524288x128, .f32⟩
  | .hbm, ⟨48, _⟩ => ⟨S524288x128, .f32⟩
  | .hbm, ⟨49, _⟩ => ⟨S_, .f32⟩
  | .hbm, ⟨50, _⟩ => ⟨S524288, .f32⟩
  | .hbm, ⟨51, _⟩ => ⟨S_, .f32⟩
  | .hbm, ⟨52, _⟩ => ⟨S8192, .f32⟩
  | .hbm, ⟨53, _⟩ => ⟨S524288x1, .i32⟩
  | .hbm, ⟨54, _⟩ => ⟨S8192, .f32⟩
  | .hbm, ⟨55, _⟩ => ⟨S_, .f32⟩
  | .hbm, ⟨56, _⟩ => ⟨S524288, .f32⟩
  | .hbm, ⟨57, _⟩ => ⟨S_, .f32⟩
  | .hbm, ⟨58, _⟩ => ⟨S8192, .f32⟩
  | .hbm, ⟨59, _⟩ => ⟨S524288x1, .i32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .i1⟩
  | .hbm, ⟨64, _⟩ => ⟨S_, .f32⟩
  | .hbm, ⟨65, _⟩ => ⟨S8192, .f32⟩
  | .hbm, ⟨66, _⟩ => ⟨S8192, .f32⟩
  | .hbm, ⟨67, _⟩ => ⟨S8192, .f32⟩
  | .hbm, ⟨68, _⟩ => ⟨S_, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S1x128, .f32⟩
  | .hbm, ⟨73, _⟩ => ⟨S1x128, .f32⟩
  | .hbm, ⟨74, _⟩ => ⟨S8192x128, .f32⟩
  | .hbm, ⟨75, _⟩ => ⟨S1x128, .f32⟩
  | .hbm, ⟨76, _⟩ => ⟨S1x8192, .f32⟩
  | .hbm, ⟨77, _⟩ => ⟨S8192x8192, .f32⟩
  | .hbm, ⟨78, _⟩ => ⟨S_, .i32⟩
  | .hbm, ⟨79, _⟩ => ⟨S524288, .i32⟩
  | .hbm, ⟨80, _⟩ => ⟨S524288, .i1⟩
  | .hbm, ⟨81, _⟩ => ⟨S_, .i32⟩
  | .hbm, ⟨82, _⟩ => ⟨S524288, .i32⟩
  | .hbm, ⟨83, _⟩ => ⟨S524288, .i32⟩
  | .hbm, ⟨84, _⟩ => ⟨S524288, .i32⟩
  | .hbm, ⟨85, _⟩ => ⟨S524288x1, .i32⟩
  | .hbm, ⟨86, _⟩ => ⟨S524288x128, .f32⟩
  | .hbm, ⟨87, _⟩ => ⟨S_, .i32⟩
  | .hbm, ⟨88, _⟩ => ⟨S524288, .i32⟩
  | .hbm, ⟨89, _⟩ => ⟨S524288, .i1⟩
  | .hbm, ⟨90, _⟩ => ⟨S_, .i32⟩
  | .hbm, ⟨91, _⟩ => ⟨S524288, .i32⟩
  | .hbm, ⟨92, _⟩ => ⟨S524288, .i32⟩
  | .hbm, ⟨93, _⟩ => ⟨S524288, .i32⟩
  | .hbm, ⟨94, _⟩ => ⟨S524288x1, .i32⟩
  | .hbm, ⟨95, _⟩ => ⟨S524288x128, .f32⟩
  | .hbm, ⟨96, _⟩ => ⟨S524288x128, .f32⟩
  | .hbm, ⟨97, _⟩ => ⟨S524288x128, .f32⟩
  | .hbm, ⟨98, _⟩ => ⟨S_, .f32⟩
  | .hbm, ⟨99, _⟩ => ⟨S524288, .f32⟩
  | .hbm, ⟨100, _⟩ => ⟨S_, .f32⟩
  | .hbm, ⟨101, _⟩ => ⟨S8192, .f32⟩
  | .hbm, ⟨102, _⟩ => ⟨S524288x1, .i32⟩
  | .hbm, ⟨103, _⟩ => ⟨S8192, .f32⟩
  | .hbm, ⟨104, _⟩ => ⟨S_, .f32⟩
  | .hbm, ⟨105, _⟩ => ⟨S524288, .f32⟩
  | .hbm, ⟨106, _⟩ => ⟨S_, .f32⟩
  | .hbm, ⟨107, _⟩ => ⟨S8192, .f32⟩
  | .hbm, ⟨108, _⟩ => ⟨S524288x1, .i32⟩
  | .hbm, ⟨109, _⟩ => ⟨S8192, .f32⟩
  | .hbm, ⟨110, _⟩ => ⟨S_, .f32⟩
  | .hbm, ⟨111, _⟩ => ⟨S8192, .f32⟩
  | .hbm, ⟨112, _⟩ => ⟨S8192, .i1⟩
  | .hbm, ⟨113, _⟩ => ⟨S_, .f32⟩
  | .hbm, ⟨114, _⟩ => ⟨S8192, .f32⟩
  | .hbm, ⟨115, _⟩ => ⟨S8192, .f32⟩
  | .hbm, ⟨116, _⟩ => ⟨S8192, .f32⟩
  | .hbm, ⟨117, _⟩ => ⟨S_, .f32⟩
  | .hbm, ⟨118, _⟩ => ⟨S_, .f32⟩
  | .hbm, ⟨119, _⟩ => ⟨S8192, .f32⟩
  | .hbm, ⟨120, _⟩ => ⟨S8192, .f32⟩
  | .local _ .vmem, ⟨0, _⟩ => ⟨S2048x256, .f32⟩
  | .local _ .vmem, ⟨1, _⟩ => ⟨S2048x256, .f32⟩
  | .local _ .vmem, ⟨2, _⟩ => ⟨S256x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x256, .f32⟩
  | .local _ .vmem, ⟨9, _⟩ => ⟨S1x256, .f32⟩
  | .local _ .vmem, ⟨10, _⟩ => ⟨S2048x128, .f32⟩
  | .local _ .vmem, ⟨11, _⟩ => ⟨S2048x128, .f32⟩
  | .local _ .vmem, ⟨12, _⟩ => ⟨S2048x256, .f32⟩
  | .local _ .vmem, ⟨13, _⟩ => ⟨S2048x256, .f32⟩
  | .local _ .vmem, ⟨14, _⟩ => ⟨S1024x2048, .f32⟩
  | .local _ .vmem, ⟨15, _⟩ => ⟨S1024x2048, .f32⟩
  | .local _ .vmem, ⟨16, _⟩ => ⟨S2048x128, .f32⟩
  | .local _ .vmem, ⟨17, _⟩ => ⟨S2048x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | .local _ .vmem, ⟨25, _⟩ => ⟨S1024x128, .f32⟩
  | .local _ .vmem, ⟨26, _⟩ => ⟨S128x128, .f32⟩
  | .local _ .vmem, ⟨27, _⟩ => ⟨S1x128, .f32⟩
  | .local _ .vmem, ⟨28, _⟩ => ⟨S128x2048, .f32⟩
  | .local _ .vmem, ⟨29, _⟩ => ⟨S128x2048, .f32⟩
  | .local _ .vmem, ⟨30, _⟩ => ⟨S1x2048, .f32⟩
  | .local _ .vmem, ⟨31, _⟩ => ⟨S1x2048, .f32⟩
  | .local _ .vmem, ⟨32, _⟩ => ⟨S1024x2048, .f32⟩
  | .local _ .vmem, ⟨33, _⟩ => ⟨S1024x2048, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8_0 : Ref sig .tc := ⟨.hbm, 27, rfl⟩
abbrev main_v8_1 : Ref sig .tc := ⟨.hbm, 28, rfl⟩
abbrev main_c : Ref sig .tc := ⟨.hbm, 29, rfl⟩
abbrev main_v9 : Ref sig .tc := ⟨.hbm, 30, rfl⟩
abbrev main_v10 : Ref sig .tc := ⟨.hbm, 31, rfl⟩
abbrev main_c_0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_1 : Ref sig .tc := ⟨.hbm, 38, rfl⟩
abbrev main_v16 : Ref sig .tc := ⟨.hbm, 39, rfl⟩
abbrev main_v17 : Ref sig .tc := ⟨.hbm, 40, rfl⟩
abbrev main_c_2 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst : Ref sig .tc := ⟨.hbm, 49, rfl⟩
abbrev main_v25 : Ref sig .tc := ⟨.hbm, 50, rfl⟩
abbrev main_cst_3 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_4 : Ref sig .tc := ⟨.hbm, 55, rfl⟩
abbrev main_v29 : Ref sig .tc := ⟨.hbm, 56, rfl⟩
abbrev main_cst_5 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_6 : Ref sig .tc := ⟨.hbm, 61, rfl⟩
abbrev main_v33 : Ref sig .tc := ⟨.hbm, 62, rfl⟩
abbrev main_v34 : Ref sig .tc := ⟨.hbm, 63, rfl⟩
abbrev main_cst_7 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_8 : Ref sig .tc := ⟨.hbm, 68, rfl⟩
abbrev main_call0_v0 : Ref sig .tc := ⟨.hbm, 69, rfl⟩
abbrev main_call0_v1 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_9 : Ref sig .tc := ⟨.hbm, 78, rfl⟩
abbrev main_v45 : Ref sig .tc := ⟨.hbm, 79, rfl⟩
abbrev main_v46 : Ref sig .tc := ⟨.hbm, 80, rfl⟩
abbrev main_c_10 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_11 : Ref sig .tc := ⟨.hbm, 87, rfl⟩
abbrev main_v52 : Ref sig .tc := ⟨.hbm, 88, rfl⟩
abbrev main_v53 : Ref sig .tc := ⟨.hbm, 89, rfl⟩
abbrev main_c_12 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_13 : Ref sig .tc := ⟨.hbm, 98, rfl⟩
abbrev main_v61 : Ref sig .tc := ⟨.hbm, 99, rfl⟩
abbrev main_cst_14 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_15 : Ref sig .tc := ⟨.hbm, 104, rfl⟩
abbrev main_v65 : Ref sig .tc := ⟨.hbm, 105, rfl⟩
abbrev main_cst_16 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_cst_17 : Ref sig .tc := ⟨.hbm, 110, rfl⟩
abbrev main_v69 : Ref sig .tc := ⟨.hbm, 111, rfl⟩
abbrev main_v70 : Ref sig .tc := ⟨.hbm, 112, rfl⟩
abbrev main_cst_18 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_19 : Ref sig .tc := ⟨.hbm, 117, rfl⟩
abbrev main_call1_v0 : Ref sig .tc := ⟨.hbm, 118, rfl⟩
abbrev main_call1_v1 : Ref sig .tc := ⟨.hbm, 119, rfl⟩
abbrev main_v74 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc1_scratch0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem3_0 : DmaSem sig := 27
abbrev cc2_sem3_1 : DmaSem sig := 28
abbrev cc2_sem4_0 : DmaSem sig := 29
abbrev cc2_sem4_1 : DmaSem sig := 30
abbrev cc2_sem5_0 : DmaSem sig := 31
abbrev cc2_sem5_1 : DmaSem sig := 32

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S128x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S1024x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  shapeCasts_S128_S1x128 : S128.ShapeCasts S1x128
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x128_S128x128_0_0 : ∀ a, (![0, 0] : Fin 2 → Nat) a + S128x128.size a ≤ S128x128.size a
  h_S128x128 : 0 < S128x128.numel
  inb_S2048x128_S2048x128_0_0 : ∀ a, (![0, 0] : Fin 2 → Nat) a + S2048x128.size a ≤ S2048x128.size a
  h_S2048x128 : 0 < S2048x128.numel
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  bcast_S_S524288 : S_.BroadcastsInDim S524288 (![] : Fin 0 → Fin S524288.rank)
  bcast_S524288_S524288x1_0 : S524288.BroadcastsInDim S524288x1 (![0] : Fin 1 → Fin S524288x1.rank)
  reducesTo_S524288x128_S524288_d1 : S524288x128.ReducesTo [1] S524288
  h_S_ : 0 < S_.numel
  bcast_S_S8192 : S_.BroadcastsInDim S8192 (![] : Fin 0 → Fin S8192.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  broadcasts_S1x128_S1024x128 : S1x128.Broadcasts S1024x128
  shapeCasts_S8192_S1x8192 : S8192.ShapeCasts S1x8192
  inb_S128x2048_S128x2048_0_0 : ∀ a, (![0, 0] : Fin 2 → Nat) a + S128x2048.size a ≤ S128x2048.size a
  h_S128x2048 : 0 < S128x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S2048x256_S256x128_S2048x128_1_0_0_1_n_n_wf : DotDims.WF S2048x256 S256x128 S2048x128 [1] [0] [0] [1] [] []
  dot_S2048x128_S128x128_S2048x128_1_0_0_1_n_n_wf : DotDims.WF S2048x128 S128x128 S2048x128 [1] [0] [0] [1] [] []
  dot_S2048x128_S128x256_S2048x256_1_0_0_1_n_n_wf : DotDims.WF S2048x128 S128x256 S2048x256 [1] [0] [0] [1] [] []
  gather_S8192x128_S524288x1_S524288x128_1_0_n_n_0_1_1128_wf : GatherDims.WF S8192x128 S524288x1 S524288x128 [1] [0] [] [0] [] 1 ![1, 128]
  scatter_S8192_S524288x1_S524288_n_0_0_1_wf : ScatterDims.WF S8192 S524288x1 S524288 [] [0] [0] 1
  dot_S1024x2048_S2048x128_S1024x128_1_0_0_1_n_n_wf : DotDims.WF S1024x2048 S2048x128 S1024x128 [1] [0] [0] [1] [] []
  dot_S1024x128_S128x128_S1024x128_1_0_0_1_n_n_wf : DotDims.WF S1024x128 S128x128 S1024x128 [1] [0] [0] [1] [] []
  dot_S1024x128_S128x2048_S1024x2048_1_0_0_1_n_n_wf : DotDims.WF S1024x128 S128x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .f32 = 32 ∨ (Rect.block (s := S128x256) S128x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x128.size a ≤ S8192x128.size a
  hwx0_9 : ∀ i : grid0.Coords, EltTy.bits .f32 = 32 ∨ (Rect.block (s := S8192x128) S2048x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x256.size a ≤ S8192x256.size a
  hwx0_10 : ∀ i : grid0.Coords, EltTy.bits .f32 = 32 ∨ (Rect.block (s := S8192x256) S2048x256.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .f32 = 32 ∨ (Rect.block (s := S8192x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S8192x128.size a
  hwx1_5 : ∀ i : grid1.Coords, EltTy.bits .f32 = 32 ∨ (Rect.block (s := S8192x128) S1024x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S8192x128.size a
  hwx2_0 : ∀ i : grid2.Coords, EltTy.bits .f32 = 32 ∨ (Rect.block (s := S8192x128) S1024x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S128x2048.size a ≤ S128x8192.size a
  hwx2_3 : ∀ i : grid2.Coords, EltTy.bits .f32 = 32 ∨ (Rect.block (s := S128x8192) S128x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x2048.size a ≤ S1x8192.size a
  hwx2_4 : ∀ i : grid2.Coords, EltTy.bits .f32 = 32 ∨ (Rect.block (s := S1x8192) S1x2048.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x2048.size a ≤ S8192x8192.size a
  hwx2_5 : ∀ i : grid2.Coords, EltTy.bits .f32 = 32 ∨ (Rect.block (s := S8192x8192) S1024x2048.size (cc2_transform_5 i) (hinb2_5 i)).WholeWords (EltTy.packing .f32)

variable [Facts₀]

def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def gather_S8192x128_S524288x1_S524288x128_1_0_n_n_0_1_1128 : GatherDims S8192x128 S524288x1 S524288x128 where
  offsetDims := [1]
  collapsedSliceDims := [0]
  operandBatchingDims := []
  startIndicesBatchingDims := []
  startIndexMap := [0]
  indexVectorDim := 1
  sliceSizes := ![1, 128]
  wf := gather_S8192x128_S524288x1_S524288x128_1_0_n_n_0_1_1128_wf
def scatter_S8192_S524288x1_S524288_n_0_0_1 : ScatterDims S8192 S524288x1 S524288 where
  updateWindowDims := []
  insertedWindowDims := [0]
  scatterDimsToOperandDims := [0]
  indexVectorDim := 1
  wf := scatter_S8192_S524288x1_S524288_n_0_0_1_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8_0) S2048x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v8_1) S2048x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S1024x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v41) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg15) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg17) S128x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v43) S1x2048.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v44) S1024x2048.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S8192x256 : Shape := ⟨2, ![8192, 256]⟩
abbrev S8192x8192 : Shape := ⟨2, ![8192, 8192]⟩
abbrev S2x524288 : Shape := ⟨2, ![2, 524288]⟩
abbrev S256x128 : Shape := ⟨2, ![256, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S8192x128 : Shape := ⟨2, ![8192, 128]⟩
abbrev S128x8192 : Shape := ⟨2, ![128, 8192]⟩
abbrev S8192 : Shape := ⟨1, ![8192]⟩
abbrev S1x524288 : Shape := ⟨2, ![1, 524288]⟩
abbrev S524288 : Shape := ⟨1, ![524288]⟩
abbrev S1x128 : Shape := ⟨2, ![1, 128]⟩
abbrev S_ : Shape := ⟨0, ![]⟩
abbrev S1x256 : Shape := ⟨2, ![1, 256]⟩
abbrev S524288x1 : Shape := ⟨2, ![524288, 1]⟩
abbrev S524288x128 : Shape := ⟨2, ![524288, 128]⟩
abbrev S1x8192 : Shape := ⟨2, ![1, 8192]⟩

abbrev nBuf : Space → Nat
  | .hbm => 153
  | .vmem => 0
  | .smem => 0
  | _ => 0

abbrev hbmTy0_0 (i : Nat) : BufTy := match i % 128 with
  | 0 => ⟨S8192x256, .f32⟩
  | 1 => ⟨S8192x8192, .f32⟩
  | 2 => ⟨S2x524288, .i32⟩
  | 3 => ⟨S256x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x256, .f32⟩
  | 10 => ⟨S256, .f32⟩
  | 11 => ⟨S8192x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x8192, .f32⟩
  | 18 => ⟨S8192, .f32⟩
  | 19 => ⟨S1x524288, .i32⟩
  | 20 => ⟨S524288, .i32⟩
  | 21 => ⟨S1x524288, .i32⟩
  | 22 => ⟨S524288, .i32⟩
  | 23 => ⟨S8192x128, .f32⟩
  | 24 => ⟨S1x128, .f32⟩
  | 25 => ⟨S8192x128, .f32⟩
  | 26 => ⟨S8192x128, .f32⟩
  | 27 => ⟨S_, .f32⟩
  | 28 => ⟨S8192x128, .f32⟩
  | 29 => ⟨S8192x128, .f32⟩
  | 30 => ⟨S8192x128, .f32⟩
  | 31 => ⟨S1x128, .f32⟩
  | 32 => ⟨S8192x128, .f32⟩
  | 33 => ⟨S8192x128, .f32⟩
  | 34 => ⟨S8192x128, .f32⟩
  | 35 => ⟨S1x128, .f32⟩
  | 36 => ⟨S8192x128, .f32⟩
  | 37 => ⟨S8192x128, .f32⟩
  | 38 => ⟨S_, .f32⟩
  | 39 => ⟨S8192x128, .f32⟩
  | 40 => ⟨S8192x128, .f32⟩
  | 41 => ⟨S8192x256, .f32⟩
  | 42 => ⟨S1x256, .f32⟩
  | 43 => ⟨S8192x256, .f32⟩
  | 44 => ⟨S8192x256, .f32⟩
  | 45 => ⟨S_, .i32⟩
  | 46 => ⟨S524288, .i32⟩
  | 47 => ⟨S524288, .i1⟩
  | 48 => ⟨S_, .i32⟩
  | 49 => ⟨S524288, .i32⟩
  | 50 => ⟨S524288, .i32⟩
  | 51 => ⟨S524288, .i32⟩
  | 52 => ⟨S524288x1, .i32⟩
  | 53 => ⟨S524288x128, .f32⟩
  | 54 => ⟨S_, .i32⟩
  | 55 => ⟨S524288, .i32⟩
  | 56 => ⟨S524288, .i1⟩
  | 57 => ⟨S_, .i32⟩
  | 58 => ⟨S524288, .i32⟩
  | 59 => ⟨S524288, .i32⟩
  | 60 => ⟨S524288, .i32⟩
  | 61 => ⟨S524288x1, .i32⟩
  | 62 => ⟨S524288x128, .f32⟩
  | 63 => ⟨S524288x128, .f32⟩
  | 64 => ⟨S524288x128, .f32⟩
  | 65 => ⟨S_, .f32⟩
  | 66 => ⟨S524288, .f32⟩
  | 67 => ⟨S_, .f32⟩
  | 68 => ⟨S8192, .f32⟩
  | 69 => ⟨S524288x1, .i32⟩
  | 70 => ⟨S8192, .f32⟩
  | 71 => ⟨S_, .f32⟩
  | 72 => ⟨S524288, .f32⟩
  | 73 => ⟨S_, .f32⟩
  | 74 => ⟨S8192, .f32⟩
  | 75 => ⟨S524288x1, .i32⟩
  | 76 => ⟨S8192, .f32⟩
  | 77 => ⟨S_, .f32⟩
  | 78 => ⟨S8192, .f32⟩
  | 79 => ⟨S8192, .i1⟩
  | 80 => ⟨S_, .f32⟩
  | 81 => ⟨S8192, .f32⟩
  | 82 => ⟨S8192, .f32⟩
  | 83 => ⟨S8192, .f32⟩
  | 84 => ⟨S_, .f32⟩
  | 85 => ⟨S_, .f32⟩
  | 86 => ⟨S8192, .f32⟩
  | 87 => ⟨S8192, .f32⟩
  | 88 => ⟨S8192x128, .f32⟩
  | 89 => ⟨S1x128, .f32⟩
  | 90 => ⟨S8192x128, .f32⟩
  | 91 => ⟨S8192x128, .f32⟩
  | 92 => ⟨S_, .f32⟩
  | 93 => ⟨S8192x128, .f32⟩
  | 94 => ⟨S8192x128, .f32⟩
  | 95 => ⟨S8192x128, .f32⟩
  | 96 => ⟨S1x128, .f32⟩
  | 97 => ⟨S8192x128, .f32⟩
  | 98 => ⟨S8192x128, .f32⟩
  | 99 => ⟨S8192x128, .f32⟩
  | 100 => ⟨S1x128, .f32⟩
  | 101 => ⟨S8192x128, .f32⟩
  | 102 => ⟨S8192x128, .f32⟩
  | 103 => ⟨S_, .f32⟩
  | 104 => ⟨S8192x128, .f32⟩
  | 105 => ⟨S8192x128, .f32⟩
  | 106 => ⟨S8192x8192, .f32⟩
  | 107 => ⟨S1x8192, .f32⟩
  | 108 => ⟨S8192x8192, .f32⟩
  | 109 => ⟨S8192x8192, .f32⟩
  | 110 => ⟨S_, .i32⟩
  | 111 => ⟨S524288, .i32⟩
  | 112 => ⟨S524288, .i1⟩
  | 113 => ⟨S_, .i32⟩
  | 114 => ⟨S524288, .i32⟩
  | 115 => ⟨S524288, .i32⟩
  | 116 => ⟨S524288, .i32⟩
  | 117 => ⟨S524288x1, .i32⟩
  | 118 => ⟨S524288x128, .f32⟩
  | 119 => ⟨S_, .i32⟩
  | 120 => ⟨S524288, .i32⟩
  | 121 => ⟨S524288, .i1⟩
  | 122 => ⟨S_, .i32⟩
  | 123 => ⟨S524288, .i32⟩
  | 124 => ⟨S524288, .i32⟩
  | 125 => ⟨S524288, .i32⟩
  | 126 => ⟨S524288x1, .i32⟩
  | 127 => ⟨S524288x128, .f32⟩
  | _ => ⟨S8192x256, .f32⟩

abbrev hbmTy0_1 (i : Nat) : BufTy := match i % 128 with
  | 0 => ⟨S524288x128, .f32⟩
  | 1 => ⟨S524288x128, .f32⟩
  | 2 => ⟨S_, .f32⟩
  | 3 => ⟨S524288, .f32⟩
  | 4 => ⟨S_, .f32⟩
  | 5 => ⟨S8192, .f32⟩
  | 6 => ⟨S524288x1, .i32⟩
  | 7 => ⟨S8192, .f32⟩
  | 8 => ⟨S_, .f32⟩
  | 9 => ⟨S524288, .f32⟩
  | 10 => ⟨S_, .f32⟩
  | 11 => ⟨S8192, .f32⟩
  | 12 => ⟨S524288x1, .i32⟩
  | 13 => ⟨S8192, .f32⟩
  | 14 => ⟨S_, .f32⟩
  | 15 => ⟨S8192, .f32⟩
  | 16 => ⟨S8192, .i1⟩
  | 17 => ⟨S_, .f32⟩
  | 18 => ⟨S8192, .f32⟩
  | 19 => ⟨S8192, .f32⟩
  | 20 => ⟨S8192, .f32⟩
  | 21 => ⟨S_, .f32⟩
  | 22 => ⟨S_, .f32⟩
  | 23 => ⟨S8192, .f32⟩
  | 24 => ⟨S8192, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_call0_cst : Ref sig .tc := ⟨.hbm, 27, rfl⟩
abbrev main_call0_v0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_call1_cst : Ref sig .tc := ⟨.hbm, 38, rfl⟩
abbrev main_call1_v0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c : Ref sig .tc := ⟨.hbm, 45, rfl⟩
abbrev main_v22 : Ref sig .tc := ⟨.hbm, 46, rfl⟩
abbrev main_v23 : Ref sig .tc := ⟨.hbm, 47, rfl⟩
abbrev main_c_0 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_1 : Ref sig .tc := ⟨.hbm, 54, rfl⟩
abbrev main_v29 : Ref sig .tc := ⟨.hbm, 55, rfl⟩
abbrev main_v30 : Ref sig .tc := ⟨.hbm, 56, rfl⟩
abbrev main_c_2 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst : Ref sig .tc := ⟨.hbm, 65, rfl⟩
abbrev main_v38 : Ref sig .tc := ⟨.hbm, 66, rfl⟩
abbrev main_cst_3 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_4 : Ref sig .tc := ⟨.hbm, 71, rfl⟩
abbrev main_v42 : Ref sig .tc := ⟨.hbm, 72, rfl⟩
abbrev main_cst_5 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_6 : Ref sig .tc := ⟨.hbm, 77, rfl⟩
abbrev main_v46 : Ref sig .tc := ⟨.hbm, 78, rfl⟩
abbrev main_v47 : Ref sig .tc := ⟨.hbm, 79, rfl⟩
abbrev main_cst_7 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_8 : Ref sig .tc := ⟨.hbm, 84, rfl⟩
abbrev main_call2_v0 : Ref sig .tc := ⟨.hbm, 85, rfl⟩
abbrev main_call2_v1 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_call3_cst : Ref sig .tc := ⟨.hbm, 92, rfl⟩
abbrev main_call3_v0 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_call4_cst : Ref sig .tc := ⟨.hbm, 103, rfl⟩
abbrev main_call4_v0 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_c_9 : Ref sig .tc := ⟨.hbm, 110, rfl⟩
abbrev main_v70 : Ref sig .tc := ⟨.hbm, 111, rfl⟩
abbrev main_v71 : Ref sig .tc := ⟨.hbm, 112, rfl⟩
abbrev main_c_10 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_c_11 : Ref sig .tc := ⟨.hbm, 119, rfl⟩
abbrev main_v77 : Ref sig .tc := ⟨.hbm, 120, rfl⟩
abbrev main_v78 : Ref sig .tc := ⟨.hbm, 121, rfl⟩
abbrev main_c_12 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_cst_13 : Ref sig .tc := ⟨.hbm, 130, rfl⟩
abbrev main_v86 : Ref sig .tc := ⟨.hbm, 131, rfl⟩
abbrev main_cst_14 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_cst_15 : Ref sig .tc := ⟨.hbm, 136, rfl⟩
abbrev main_v90 : Ref sig .tc := ⟨.hbm, 137, rfl⟩
abbrev main_cst_16 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_cst_17 : Ref sig .tc := ⟨.hbm, 142, rfl⟩
abbrev main_v94 : Ref sig .tc := ⟨.hbm, 143, rfl⟩
abbrev main_v95 : Ref sig .tc := ⟨.hbm, 144, rfl⟩
abbrev main_cst_18 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_cst_19 : Ref sig .tc := ⟨.hbm, 149, rfl⟩
abbrev main_call5_v0 : Ref sig .tc := ⟨.hbm, 150, rfl⟩
abbrev main_call5_v1 : Ref sig .tc := ⟨.hbm, 151, rfl⟩
abbrev main_v99 : Ref sig .tc := ⟨.hbm, 152, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S524288 : S_.BroadcastsInDim S524288 (![] : Fin 0 → Fin S524288.rank)
  bcast_S524288_S524288x1_0 : S524288.BroadcastsInDim S524288x1 (![0] : Fin 1 → Fin S524288x1.rank)
  reducesTo_S524288x128_S524288_d1 : S524288x128.ReducesTo [1] S524288
  h_S_ : 0 < S_.numel
  bcast_S_S8192 : S_.BroadcastsInDim S8192 (![] : Fin 0 → Fin S8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x256_S256x128_S8192x128_1_0_0_1_n_n_wf : DotDims.WF S8192x256 S256x128 S8192x128 [1] [0] [0] [1] [] []
  dot_S8192x128_S128x128_S8192x128_1_0_0_1_n_n_wf : DotDims.WF S8192x128 S128x128 S8192x128 [1] [0] [0] [1] [] []
  dot_S8192x128_S128x256_S8192x256_1_0_0_1_n_n_wf : DotDims.WF S8192x128 S128x256 S8192x256 [1] [0] [0] [1] [] []
  gather_S8192x128_S524288x1_S524288x128_1_0_n_n_0_1_1128_wf : GatherDims.WF S8192x128 S524288x1 S524288x128 [1] [0] [] [0] [] 1 ![1, 128]
  scatter_S8192_S524288x1_S524288_n_0_0_1_wf : ScatterDims.WF S8192 S524288x1 S524288 [] [0] [0] 1
  dot_S8192x8192_S8192x128_S8192x128_1_0_0_1_n_n_wf : DotDims.WF S8192x8192 S8192x128 S8192x128 [1] [0] [0] [1] [] []
  dot_S8192x128_S128x8192_S8192x8192_1_0_0_1_n_n_wf : DotDims.WF S8192x128 S128x8192 S8192x8192 [1] [0] [0] [1] [] []

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def gather_S8192x128_S524288x1_S524288x128_1_0_n_n_0_1_1128 : GatherDims S8192x128 S524288x1 S524288x128 where
  offsetDims := [1]
  collapsedSliceDims := [0]
  operandBatchingDims := []
  startIndicesBatchingDims := []
  startIndexMap := [0]
  indexVectorDim := 1
  sliceSizes := ![1, 128]
  wf := gather_S8192x128_S524288x1_S524288x128_1_0_n_n_0_1_1128_wf
def scatter_S8192_S524288x1_S524288_n_0_0_1 : ScatterDims S8192 S524288x1 S524288 where
  updateWindowDims := []
  insertedWindowDims := [0]
  scatterDimsToOperandDims := [0]
  indexVectorDim := 1
  wf := scatter_S8192_S524288x1_S524288_n_0_0_1_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KB.Rects.lean ====
/-
  The whole-buffer rectangles the three kernel bodies load and store through: offset zero on both axes, the buffer's
  own sizes.
-/
import proofs.«147646_j43310450213578_1_alg».proof.Proof.Gen.Kernel.Launch

noncomputable section

namespace Cert.Kernel.Hand

open Cert.Kernel Cert.Kernel.Gen
open Idealize.ShloMosaic

abbrev r_S2048x256 : Rect S2048x256 := Rect.unit (s := S2048x256) ![0, 0] S2048x256.size inb_S2048x256_S2048x256_0_0
abbrev r_S256x128 : Rect S256x128 := Rect.unit (s := S256x128) ![0, 0] S256x128.size inb_S256x128_S256x128_0_0
abbrev r_S1x128 : Rect S1x128 := Rect.unit (s := S1x128) ![0, 0] S1x128.size inb_S1x128_S1x128_0_0
abbrev r_S128x128 : Rect S128x128 := Rect.unit (s := S128x128) ![0, 0] S128x128.size inb_S128x128_S128x128_0_0
abbrev r_S128x256 : Rect S128x256 := Rect.unit (s := S128x256) ![0, 0] S128x256.size inb_S128x256_S128x256_0_0
abbrev r_S1x256 : Rect S1x256 := Rect.unit (s := S1x256) ![0, 0] S1x256.size inb_S1x256_S1x256_0_0
abbrev r_S2048x128 : Rect S2048x128 := Rect.unit (s := S2048x128) ![0, 0] S2048x128.size inb_S2048x128_S2048x128_0_0
abbrev r_S1024x2048 : Rect S1024x2048 := Rect.unit (s := S1024x2048) ![0, 0] S1024x2048.size inb_S1024x2048_S1024x2048_0_0
abbrev r_S1024x128 : Rect S1024x128 := Rect.unit (s := S1024x128) ![0, 0] S1024x128.size inb_S1024x128_S1024x128_0_0
abbrev r_S128x2048 : Rect S128x2048 := Rect.unit (s := S128x2048) ![0, 0] S128x2048.size inb_S128x2048_S128x2048_0_0
abbrev r_S1x2048 : Rect S1x2048 := Rect.unit (s := S1x2048) ![0, 0] S1x2048.size inb_S1x2048_S1x2048_0_0

end Cert.Kernel.Hand

end
-- ==== Proof.KB.Region0.lean ====
/-
  The first kernel region (the encoder and decoder of the first auto-encoder). At grid point i the body reads rows
  2048·i … 2048·i+2047 of the input, the four weight matrices and four bias rows whole, stores the code
  relu(x · W1 + b1) · W2 + b2 into block i of the first result and, from that code, relu(code · W3 + b3) · W4 + b4
  into block i of the second. Nothing is kept between points: what the body leaves in each output's staging buffer
  is one function of the input blocks, and the pipeline's invariant is the untouched scoped rest.
-/
import proofs.«147646_j43310450213578_1_alg».proof.Proof.Gen.Kernel.Launch
import proofs.«147646_j43310450213578_1_alg».proof.Proof.KB.Rects
import proofs.«147646_j43310450213578_1_alg».proof.Proof.Gen.Kernel.Skeleton
import proofs.«147646_j43310450213578_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks at a point, read off the arrays as the region finds them -/

/-- Window `w`'s block at point `t` of the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block at every point, fetched there or not: where the
    pipeline does not fetch, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds the window's block at every point, fetched there or not: where the
    pipeline does not fetch, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds the window's block at every point, fetched there or not: where the
    pipeline does not fetch, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds the window's block at every point, fetched there or not: where the
    pipeline does not fetch, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds the window's block at every point, fetched there or not: where the
    pipeline does not fetch, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds the window's block at every point, fetched there or not: where the
    pipeline does not fetch, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds the window's block at every point, fetched there or not: where the
    pipeline does not fetch, the block index has not moved. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's staging buffer holds the window's block at every point, fetched there or not: where the
    pipeline does not fetch, the block index has not moved. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's staging buffer holds the window's block at every point, fetched there or not: where the
    pipeline does not fetch, the block index has not moved. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store goes through a whole staging buffer -/

/-! ## What the body leaves in each output window's buffer -/

/-- Output window 9's buffer after the body, from the input windows' blocks: its one whole-buffer store's payload. -/
def out0_9 (x0 : Vec F S2048x256 .f32) (x1 : Vec F S256x128 .f32) (x2 : Vec F S1x128 .f32) (x3 : Vec F S128x128 .f32) (x4 : Vec F S1x128 .f32) (x5 : Vec F S128x128 .f32) (x6 : Vec F S1x128 .f32) (x7 : Vec F S128x256 .f32) (x8 : Vec F S1x256 .f32) : Vec F S2048x128 .f32 :=
  View.canon [⟨r_S2048x128, k0_pay2 (View.ld x0 r_S2048x256) (View.ld x1 r_S256x128) (View.ld x2 r_S1x128) (View.ld x3 r_S128x128) (View.ld x4 r_S1x128)⟩]

/-- The store covers the buffer. -/
theorem cover0_9 (p0 : Vec F S2048x128 .f32) (y : S2048x128.Idx) :
    ∃ pc ∈ ([⟨r_S2048x128, p0⟩] : List (View.Piece (Elt F) S2048x128 .f32)), y ∈ pc.1.set :=
  View.cover_of_tiled [⟨r_S2048x128, p0⟩] S2048x128.size (by rfl) y

/-- Output window 10's buffer after the body, from the input windows' blocks: its one whole-buffer store's payload. -/
def out0_10 (x0 : Vec F S2048x256 .f32) (x1 : Vec F S256x128 .f32) (x2 : Vec F S1x128 .f32) (x3 : Vec F S128x128 .f32) (x4 : Vec F S1x128 .f32) (x5 : Vec F S128x128 .f32) (x6 : Vec F S1x128 .f32) (x7 : Vec F S128x256 .f32) (x8 : Vec F S1x256 .f32) : Vec F S2048x256 .f32 :=
  View.canon [⟨r_S2048x256, k0_pay1 (k0_pay3 (View.ld x0 r_S2048x256) (View.ld x1 r_S256x128) (View.ld x2 r_S1x128) (View.ld x3 r_S128x128) (View.ld x4 r_S1x128) (View.ld x5 r_S128x128) (View.ld x6 r_S1x128) (View.ld x7 r_S128x256)) (View.ld x8 r_S1x256)⟩]

/-- The store covers the buffer. -/
theorem cover0_10 (p0 : Vec F S2048x256 .f32) (y : S2048x256.Idx) :
    ∃ pc ∈ ([⟨r_S2048x256, p0⟩] : List (View.Piece (Elt F) S2048x256 .f32)), y ∈ pc.1.set :=
  View.cover_of_tiled [⟨r_S2048x256, p0⟩] S2048x256.size (by rfl) y

/-! ## The body's triple -/

set_option maxHeartbeats 1000000 in
/-- The body on whole staging memrefs, the inputs' at read contents `x_w` and the outputs' at anything, runs to the
    continuation holding the inputs' as they were and each output's at its function of the inputs'. -/
theorem sound_kernel0 (c : Dev nD) (E : Set ℕ) (i : grid0.Coords) (a0 : Memref sig .tc .vmem S2048x256 .f32) (ha0 : a0.IsWhole) (a1 : Memref sig .tc .vmem S256x128 .f32) (ha1 : a1.IsWhole) (a2 : Memref sig .tc .vmem S1x128 .f32) (ha2 : a2.IsWhole) (a3 : Memref sig .tc .vmem S128x128 .f32) (ha3 : a3.IsWhole) (a4 : Memref sig .tc .vmem S1x128 .f32) (ha4 : a4.IsWhole) (a5 : Memref sig .tc .vmem S128x128 .f32) (ha5 : a5.IsWhole) (a6 : Memref sig .tc .vmem S1x128 .f32) (ha6 : a6.IsWhole) (a7 : Memref sig .tc .vmem S128x256 .f32) (ha7 : a7.IsWhole) (a8 : Memref sig .tc .vmem S1x256 .f32) (ha8 : a8.IsWhole) (a9 : Memref sig .tc .vmem S2048x128 .f32) (ha9 : a9.IsWhole) (a10 : Memref sig .tc .vmem S2048x256 .f32) (ha10 : a10.IsWhole)
    (x0 : Vec F S2048x256 .f32) (x1 : Vec F S256x128 .f32) (x2 : Vec F S1x128 .f32) (x3 : Vec F S128x128 .f32) (x4 : Vec F S1x128 .f32) (x5 : Vec F S128x128 .f32) (x6 : Vec F S1x128 .f32) (x7 : Vec F S128x256 .f32) (x8 : Vec F S1x256 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (out0_9 x0 x1 x2 x3 x4 x5 x6 x7 x8) ∗ owns (c : Thread nD τ) a10 fullShare (out0_10 x0 x1 x2 x3 x4 x5 x6 x7 x8)) -∗ K ⟨⟩))
      ⊢ wp frame (wpE (defs₀ (F := F)) Variants.none c none) E (cc0__ae_ad_kernel i a0 ha0 a1 ha1 a2 ha2 a3 ha3 a4 ha4 a5 ha5 a6 ha6 a7 ha7 a8 ha8 a9 ha9 a10 ha10) K := by
  simp only [cc0__ae_ad_kernel_eq_skeleton]; unfold cc0__ae_ad_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover0_9 _)
  iexists _; isplitr
  swap; · iexact H10
  ipureintro
  exact View.read_writes_eq_canon _ _ _ (cover0_10 _)

/-! ## The pipeline's proof data -/

/-- The arrays as the region finds them; after the body at point `t` each input's buffer at its block and each output's at
    its function of the input blocks; the invariant the untouched scoped rest and generator register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Region1.lean ====
/-
  The second kernel region (the encoder of the second auto-encoder), a sum over column blocks kept in a scratch
  accumulator. The grid is 8 row blocks × 4 column blocks, the column block running fastest. At point (i, k) the body
  clears the accumulator when k = 0, adds the product of block (i, k) of the input with row block k of the first
  weight matrix to it, and when k = 3 stores relu(accumulator + b1) · W2 + b2 into row block i of the result; at the
  other points it leaves the result's staging buffer alone, and that buffer is written back only after k = 3.
  So the accumulator after point t is a recursion on t (restarted at every k = 0), the invariant carries it from
  point to point, and the result's block is a function of the accumulator at the row block's last point.
-/
import proofs.«147646_j43310450213578_1_alg».proof.Proof.Gen.Kernel.Launch
import proofs.«147646_j43310450213578_1_alg».proof.Proof.KB.Rects
import proofs.«147646_j43310450213578_1_alg».proof.Proof.Gen.Kernel.Skeleton
import proofs.«147646_j43310450213578_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks at a point, read off the arrays as the region finds them -/

/-- Window `w`'s block at point `t` of the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the window's block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds the window's block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds the window's block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds the window's block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds the window's block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and every store goes through a whole buffer -/

/-- The accumulator, a scoped buffer of the kernel's own that no window stages. -/
abbrev scM1 : Memref sig .tc .vmem S1024x128 .f32 := Memref.whole cc1_scratch0

theorem zero2 : (![0, 0] : Fin 2 → ℕ) = fun _ => 0 := by
  funext a; match a with | ⟨0, _⟩ => rfl | ⟨1, _⟩ => rfl

/-- A store through the whole buffer, made last, reads back as its payload whatever was stored before. -/
theorem read_writes_head_whole {S : Shape} {e : EltTy} {κ : Kind} {sp : Space} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

/-! ## The two conditions of the body, decided over the grid -/

/-- The first branch is taken exactly at the first column block, -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- the second exactly at the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The result's window is live exactly where the body stores into it, and written back only there. -/
theorem liveAt1_5 : ∀ t : Fin cfg1.N, cond1_1 (grid1.coords t) → cfg1.idle 5 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel

/-! ## What the body leaves in the accumulator and in the result's buffer -/

/-- The accumulator after a point that clears it first: the block product added to zero. -/
def accA (x0 : Vec F S1024x2048 .f32) (x1 : Vec F S2048x128 .f32) : Vec F S1024x128 .f32 :=
  k1_pay2 (View.ld x0 r_S1024x2048) (View.ld x1 r_S2048x128) (k1_pay1 (F := F))
/-- The accumulator after any other point: the block product added to what the point found there. -/
def accB (x0 : Vec F S1024x2048 .f32) (x1 : Vec F S2048x128 .f32) (xs : Vec F S1024x128 .f32) : Vec F S1024x128 .f32 :=
  k1_pay2 (View.ld x0 r_S1024x2048) (View.ld x1 r_S2048x128) (View.ld xs r_S1024x128)
/-- The result's buffer after a last column block: the second layer applied to the finished accumulator. -/
def outC (x2 : Vec F S1x128 .f32) (x3 : Vec F S128x128 .f32) (x4 : Vec F S1x128 .f32) (acc : Vec F S1024x128 .f32) : Vec F S1024x128 .f32 :=
  k1_pay3 acc (View.ld x2 r_S1x128) (View.ld x3 r_S128x128) (View.ld x4 r_S1x128)

/-! ## The body's triple, case by case -/

set_option maxHeartbeats 1000000 in
/-- First column block: the accumulator, found at anything, ends at `accA` of the two blocks; the other buffers are not touched. -/
theorem sound_kernel1_A (c : Dev nD) (E : Set ℕ) (i : grid1.Coords) (a0 : Memref sig .tc .vmem S1024x2048 .f32) (ha0 : a0.IsWhole) (a1 : Memref sig .tc .vmem S2048x128 .f32) (ha1 : a1.IsWhole) (a2 : Memref sig .tc .vmem S1x128 .f32) (ha2 : a2.IsWhole) (a3 : Memref sig .tc .vmem S128x128 .f32) (ha3 : a3.IsWhole) (a4 : Memref sig .tc .vmem S1x128 .f32) (ha4 : a4.IsWhole) (a5 : Memref sig .tc .vmem S1024x128 .f32) (ha5 : a5.IsWhole)
    (hc0 : cond1_0 i) (hc1 : ¬cond1_1 i)
    (x0 : Vec F S1024x2048 .f32) (x1 : Vec F S2048x128 .f32) (K : PUnit → sProp 𝕄) :
    iprop(owns (c : Thread nD τ) a0 fullShare x0 ∗ owns (c : Thread nD τ) a1 fullShare x1 ∗ (∃ d, owns (c : Thread nD τ) scM1 fullShare d)
        ∗ (iprop(owns (c : Thread nD τ) a0 fullShare x0 ∗ owns (c : Thread nD τ) a1 fullShare x1 ∗ owns (c : Thread nD τ) scM1 fullShare (accA x0 x1)) -∗ K ⟨⟩))
      ⊢ wp frame (wpE (defs₀ (F := F)) Variants.none c none) E (cc1__se_kernel i a0 ha0 a1 ha1 a2 ha2 a3 ha3 a4 ha4 a5 ha5 scM1 (Memref.isWhole_whole _)) K := by
  haveI : Fact (cond1_0 i) := ⟨hc0⟩
  haveI : Fact (¬cond1_1 i) := ⟨hc1⟩
  simp only [cc1__se_kernel_eq_skeleton]; unfold cc1__se_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [read_writes_head_whole _ _ zero2]
  unfold accA
  sl_unfold_run_names
  rw [View.readCov_unit_zero _ zero2]
  rfl

set_option maxHeartbeats 1000000 in
/-- A middle column block: the accumulator, found at `xs`, ends at `accB` of the two blocks and `xs`. -/
theorem sound_kernel1_B (c : Dev nD) (E : Set ℕ) (i : grid1.Coords) (a0 : Memref sig .tc .vmem S1024x2048 .f32) (ha0 : a0.IsWhole) (a1 : Memref sig .tc .vmem S2048x128 .f32) (ha1 : a1.IsWhole) (a2 : Memref sig .tc .vmem S1x128 .f32) (ha2 : a2.IsWhole) (a3 : Memref sig .tc .vmem S128x128 .f32) (ha3 : a3.IsWhole) (a4 : Memref sig .tc .vmem S1x128 .f32) (ha4 : a4.IsWhole) (a5 : Memref sig .tc .vmem S1024x128 .f32) (ha5 : a5.IsWhole)
    (hc0 : ¬cond1_0 i) (hc1 : ¬cond1_1 i)
    (x0 : Vec F S1024x2048 .f32) (x1 : Vec F S2048x128 .f32) (xs : Vec F S1024x128 .f32) (K : PUnit → sProp 𝕄) :
    iprop(owns (c : Thread nD τ) a0 fullShare x0 ∗ owns (c : Thread nD τ) a1 fullShare x1 ∗ owns (c : Thread nD τ) scM1 fullShare xs
        ∗ (iprop(owns (c : Thread nD τ) a0 fullShare x0 ∗ owns (c : Thread nD τ) a1 fullShare x1 ∗ owns (c : Thread nD τ) scM1 fullShare (accB x0 x1 xs)) -∗ K ⟨⟩))
      ⊢ wp frame (wpE (defs₀ (F := F)) Variants.none c none) E (cc1__se_kernel i a0 ha0 a1 ha1 a2 ha2 a3 ha3 a4 ha4 a5 ha5 scM1 (Memref.isWhole_whole _)) K := by
  haveI : Fact (¬cond1_0 i) := ⟨hc0⟩
  haveI : Fact (¬cond1_1 i) := ⟨hc1⟩
  simp only [cc1__se_kernel_eq_skeleton]; unfold cc1__se_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [read_writes_head_whole _ _ zero2]
  unfold accB
  sl_unfold_run_names
  rfl

set_option maxHeartbeats 1000000 in
/-- Last column block: the accumulator ends at `accB` as before, and the result's buffer, found at anything, at `outC` of
    the second layer's operands and that accumulator. -/
theorem sound_kernel1_C (c : Dev nD) (E : Set ℕ) (i : grid1.Coords) (a0 : Memref sig .tc .vmem S1024x2048 .f32) (ha0 : a0.IsWhole) (a1 : Memref sig .tc .vmem S2048x128 .f32) (ha1 : a1.IsWhole) (a2 : Memref sig .tc .vmem S1x128 .f32) (ha2 : a2.IsWhole) (a3 : Memref sig .tc .vmem S128x128 .f32) (ha3 : a3.IsWhole) (a4 : Memref sig .tc .vmem S1x128 .f32) (ha4 : a4.IsWhole) (a5 : Memref sig .tc .vmem S1024x128 .f32) (ha5 : a5.IsWhole)
    (hc0 : ¬cond1_0 i) (hc1 : cond1_1 i)
    (x0 : Vec F S1024x2048 .f32) (x1 : Vec F S2048x128 .f32) (x2 : Vec F S1x128 .f32) (x3 : Vec F S128x128 .f32) (x4 : Vec F S1x128 .f32)
    (xs : Vec F S1024x128 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ owns (c : Thread nD τ) scM1 fullShare xs
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (outC x2 x3 x4 (accB x0 x1 xs))
            ∗ owns (c : Thread nD τ) scM1 fullShare (accB x0 x1 xs)) -∗ K ⟨⟩))
      ⊢ wp frame (wpE (defs₀ (F := F)) Variants.none c none) E (cc1__se_kernel i a0 ha0 a1 ha1 a2 ha2 a3 ha3 a4 ha4 a5 ha5 scM1 (Memref.isWhole_whole _)) K := by
  haveI : Fact (¬cond1_0 i) := ⟨hc0⟩
  haveI : Fact (cond1_1 i) := ⟨hc1⟩
  simp only [cc1__se_kernel_eq_skeleton]; unfold cc1__se_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_writes_head_whole _ _ zero2]
    unfold outC accB
    sl_unfold_run_names
    rw [View.readCov_unit_zero _ zero2]
    rfl
  iexists _; isplitr
  swap; · iexact HS
  ipureintro
  sl_unfold_run_names
  rw [read_writes_head_whole _ _ zero2]
  unfold accB
  rfl

/-! ## The accumulator point by point -/

/-- What the accumulator holds after the body at position `n`: restarted from zero at every first column block,
    otherwise the block product added to what the point before left. -/
def accAt (c : Dev nD) : (n : ℕ) → n < cfg1.N → Vec F S1024x128 .f32
  | 0, hn => accA (iblk1 V c 0 ⟨0, hn⟩) (iblk1 V c 1 ⟨0, hn⟩)
  | n + 1, hn =>
    if (n + 1) % 4 = 0 then accA (iblk1 V c 0 ⟨n + 1, hn⟩) (iblk1 V c 1 ⟨n + 1, hn⟩)
    else accB (iblk1 V c 0 ⟨n + 1, hn⟩) (iblk1 V c 1 ⟨n + 1, hn⟩) (accAt c n (Nat.lt_of_succ_lt hn))

theorem accAt_first (c : Dev nD) (t : Fin cfg1.N) (h0 : t.val % 4 = 0) :
    accAt V c t.val t.isLt = accA (iblk1 V c 0 t) (iblk1 V c 1 t) := by
  obtain ⟨n, hn⟩ := t
  cases n with
  | zero => rfl
  | succ n => exact if_pos h0

theorem accAt_next (c : Dev nD) (t : Fin cfg1.N) (h0 : ¬t.val % 4 = 0) :
    accAt V c t.val t.isLt
      = accB (iblk1 V c 0 t) (iblk1 V c 1 t) (accAt V c (t.val - 1) (Nat.lt_of_le_of_lt (Nat.sub_le _ _) t.isLt)) := by
  obtain ⟨n, hn⟩ := t
  cases n with
  | zero => exact absurd (Nat.zero_mod _) h0
  | succ n => exact if_neg h0

/-! ## The region's invariant: the accumulator carried from point to point -/

/-- Before the first point the untouched scoped rest; after point `n` the accumulator at `accAt n`, the other scoped
    buffers at anything, the generator register at some state. -/
def PhiS (c : Dev nD) : (n : ℕ) → n ≤ cfg1.N → sProp 𝕄
  | 0, _ => Pipeline.ΦA spec1 c
  | n + 1, hn => iprop(iprop(owns (c : Thread nD τ) scM1 fullShare (accAt V c n hn) ∗ Pipeline.scopedRestBut (Ix := Unit) (Name := ℕ) (U := UR sig nD τ) (Lvl := ℕ) (Val := Elt F) spec1 c [cc1_scratch0]) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1 fullShare (accAt V c n hn) ∗ Pipeline.scopedRestBut (Ix := Unit) (Name := ℕ) (U := UR sig nD τ) (Lvl := ℕ) (Val := Elt F) spec1 c [cc1_scratch0]) ∗ (∃ r, prngReg c r)) := rfl

theorem PhiS_pos (c : Dev nD) (n : ℕ) (h : n ≤ cfg1.N) (hz : n ≠ 0) :
    PhiS V c n h = iprop(iprop(owns (c : Thread nD τ) scM1 fullShare (accAt V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The untouched scoped rest with the accumulator split out, owned at some contents. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The pipeline's proof data -/

/-- The arrays as the region finds them; after the body each input's buffer at its block and the result's at `outC` of the
    accumulator there (consulted only at a last column block: elsewhere the window is idle and not written back); the
    invariant `PhiS`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outC (iblk1 V c 2 t) (iblk1 V c 3 t) (iblk1 V c 4 t) (accAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = outC (iblk1 V c 2 t) (iblk1 V c 3 t) (iblk1 V c 4 t) (accAt V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- Before any point the invariant holds the accumulator at SOME contents beside the other scoped buffers. -/
theorem Phi_some (c : Dev nD) (t : Fin cfg1.N) :
    (dat1 V c).Φ t.castSucc ⊢ iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  rw [PhiS_castSucc]
  by_cases hz : t.val = 0
  · rw [PhiS_zero V c _ _ hz, PhiA1_eq]
  · rw [PhiS_pos V c _ _ hz]
    iintro ⟨⟨HS, Hr⟩, Hg⟩
    isplitl [HS Hr]
    · isplitl [HS]
      · iexists _; iexact HS
      iexact Hr
    iexact Hg

/-- What the launch hands the region is the invariant before the first point, -/
theorem hin1 (c : Dev nD) : Pipeline.ΦA spec1 c ⊢ (dat1 V c).Φ 0 := by
  rw [show (dat1 V c).Φ 0 = PhiS V c 0 (Nat.zero_le _) from rfl, PhiS_zero V c 0 _ rfl]

/-- and after the last point the invariant gives it back: the accumulator's contents are forgotten. -/
theorem hout1 (c : Dev nD) : (dat1 V c).Φ (Fin.last cfg1.N) ⊢ Pipeline.ΦA spec1 c := by
  have hN : cfg1.N = 32 := N_1
  rw [show (dat1 V c).Φ (Fin.last cfg1.N) = PhiS V c (Fin.last cfg1.N).val (Nat.le_of_lt_succ (Fin.last cfg1.N).isLt) from rfl,
    PhiS_pos V c _ _ (by rw [Fin.val_last]; omega), PhiA1_eq]
  iintro ⟨⟨HS, Hr⟩, Hg⟩
  isplitl [HS Hr]
  · isplitl [HS]
    · iexists _; iexact HS
    iexact Hr
  iexact Hg

/-! ## The body obligation, at a generic point -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 2000000 in
/-- The body at any point: the closed forms say which of the three cases the point is in; the invariant hands the body
    the accumulator (at anything where the body clears it first, at what the point before left elsewhere) and takes
    it back at this point's contents; where the result's window is idle its buffer passes through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  have hN : t.val < 32 := lt_of_lt_of_eq t.isLt (show cfg1.N = 32 from N_1)
  by_cases h0 : t.val % 4 = 0
  · have hc0 : cond1_0 (grid1.coords t) := (hcond1_0 t).mpr h0
    have hc1 : ¬cond1_1 (grid1.coords t) := fun h => by have := (hcond1_1 t).mp h; omega
    rw [Dat.leavesExact_idle (dat1 V c) 5 t (idleAt1_5 t hc1) (noFlush1_5 t hc1), accAt_first V c t h0]
    iintro ⟨HΦ, Ho, ⟨%d0, H0⟩, ⟨%d1, H1⟩, ⟨%d2, H2⟩, ⟨%d3, H3⟩, ⟨%d4, H4⟩, H5⟩
    ihave HΦ' := (Phi_some V c t) $$ HΦ
    icases HΦ' with ⟨⟨HS, Hr⟩, Hg⟩
    iapply (sound_kernel1_A c Set.univ _ _ _ _ _ _ _ _ _ _ _ _ _ hc0 hc1 (iblk1 V c 0 t) (iblk1 V c 1 t) _)
    isplitl [H0]; · iexact H0
    isplitl [H1]; · iexact H1
    isplitl [HS]; · iexact HS
    iintro ⟨H0, H1, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc0 : ¬cond1_0 (grid1.coords t) := fun h => h0 ((hcond1_0 t).mp h)
    have hz : t.val ≠ 0 := fun e => h0 (by rw [e])
    rw [PhiS_castSucc V c t, PhiS_pos V c _ _ hz]
    by_cases h1 : t.val % 4 = 3
    · have hc1 : cond1_1 (grid1.coords t) := (hcond1_1 t).mpr h1
      rw [show (dat1 V c).leavesExact 5 t = owns (c : Thread nD τ) (st1_5 t) fullShare ((dat1 V c).after 5 t) from by
        unfold Dat.leavesExact; rw [liveAt1_5 t hc1], after1_5, accAt_next V c t h0]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (sound_kernel1_C c Set.univ _ _ _ _ _ _ _ _ _ _ _ _ _ hc0 hc1 (iblk1 V c 0 t) (iblk1 V c 1 t) (iblk1 V c 2 t) (iblk1 V c 3 t) (iblk1 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond1_1 (grid1.coords t) := fun h => h1 ((hcond1_1 t).mp h)
      rw [Dat.leavesExact_idle (dat1 V c) 5 t (idleAt1_5 t hc1) (noFlush1_5 t hc1), accAt_next V c t h0]
      iintro ⟨⟨⟨HS, Hr⟩, Hg⟩, Ho, ⟨%d0, H0⟩, ⟨%d1, H1⟩, ⟨%d2, H2⟩, ⟨%d3, H3⟩, ⟨%d4, H4⟩, H5⟩
      iapply (sound_kernel1_B c Set.univ _ _ _ _ _ _ _ _ _ _ _ _ _ hc0 hc1 (iblk1 V c 0 t) (iblk1 V c 1 t) _ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Region2.lean ====
/-
  The third kernel region (the decoder of the second auto-encoder). At grid point (i, j) the body reads rows
  1024·i … 1024·i+1023 of the hidden array, the first weight matrix and bias row whole, columns 2048·j … 2048·j+2047
  of the second weight matrix and bias row, and stores relu(h · W1 + b1) · W2 + b2 into block (i, j) of the result.
  Nothing is kept between points: what the body leaves in the output's staging buffer is one function of the input
  blocks, and the pipeline's invariant is the untouched scoped rest.
-/
import proofs.«147646_j43310450213578_1_alg».proof.Proof.Gen.Kernel.Launch
import proofs.«147646_j43310450213578_1_alg».proof.Proof.KB.Rects
import proofs.«147646_j43310450213578_1_alg».proof.Proof.Gen.Kernel.Skeleton
import proofs.«147646_j43310450213578_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks at a point, read off the arrays as the region finds them -/

/-- Window `w`'s block at point `t` of the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds the window's block at every point, fetched there or not: where the
    pipeline does not fetch, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds the window's block at every point, fetched there or not: where the
    pipeline does not fetch, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds the window's block at every point, fetched there or not: where the
    pipeline does not fetch, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds the window's block at every point, fetched there or not: where the
    pipeline does not fetch, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds the window's block at every point, fetched there or not: where the
    pipeline does not fetch, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store go through the whole staging buffer -/

/-! ## What the body leaves in the output window's buffer -/

/-- The output buffer after the body, from the input windows' blocks: the one whole-buffer store's payload. -/
def out2_5 (x0 : Vec F S1024x128 .f32) (x1 : Vec F S128x128 .f32) (x2 : Vec F S1x128 .f32) (x3 : Vec F S128x2048 .f32) (x4 : Vec F S1x2048 .f32) : Vec F S1024x2048 .f32 :=
  View.canon [⟨r_S1024x2048, k2_pay1 (View.ld x0 r_S1024x128) (View.ld x1 r_S128x128) (View.ld x2 r_S1x128) (View.ld x3 r_S128x2048) (View.ld x4 r_S1x2048)⟩]

/-- The store covers the buffer. -/
theorem cover2_5 (p0 : Vec F S1024x2048 .f32) (y : S1024x2048.Idx) :
    ∃ pc ∈ ([⟨r_S1024x2048, p0⟩] : List (View.Piece (Elt F) S1024x2048 .f32)), y ∈ pc.1.set :=
  View.cover_of_tiled [⟨r_S1024x2048, p0⟩] S1024x2048.size (by rfl) y

/-! ## The body's triple -/

set_option maxHeartbeats 1000000 in
/-- The body on whole staging memrefs, the inputs' at read contents `x_w` and the output's at anything, runs to the
    continuation holding the inputs' as they were and the output's at `out2_5` of the inputs'. -/
theorem sound_kernel2 (c : Dev nD) (E : Set ℕ) (i : grid2.Coords) (a0 : Memref sig .tc .vmem S1024x128 .f32) (ha0 : a0.IsWhole) (a1 : Memref sig .tc .vmem S128x128 .f32) (ha1 : a1.IsWhole) (a2 : Memref sig .tc .vmem S1x128 .f32) (ha2 : a2.IsWhole) (a3 : Memref sig .tc .vmem S128x2048 .f32) (ha3 : a3.IsWhole) (a4 : Memref sig .tc .vmem S1x2048 .f32) (ha4 : a4.IsWhole) (a5 : Memref sig .tc .vmem S1024x2048 .f32) (ha5 : a5.IsWhole)
    (x0 : Vec F S1024x128 .f32) (x1 : Vec F S128x128 .f32) (x2 : Vec F S1x128 .f32) (x3 : Vec F S128x2048 .f32) (x4 : Vec F S1x2048 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out2_5 x0 x1 x2 x3 x4)) -∗ K ⟨⟩))
      ⊢ wp frame (wpE (defs₀ (F := F)) Variants.none c none) E (cc2__sd_kernel i a0 ha0 a1 ha1 a2 ha2 a3 ha3 a4 ha4 a5 ha5) K := by
  simp only [cc2__sd_kernel_eq_skeleton]; unfold cc2__sd_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The arrays as the region finds them; after the body at point `t` each input's buffer at its block and the output's at
    `out2_5` of the input blocks; the invariant the untouched scoped rest and generator register; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Run.lean ====
/-
  The whole program as a chain of ten items — host stretches and the three kernel regions — each entered from the
  buffer contents the one before it left. Between items a core holds every unscoped buffer at a named valuation:
  the launch memory, then each host stretch's operations applied, then, across a region, the region's arrays at what
  its write-backs leave. Every weakly fair execution runs to the end and the final memory holds every unscoped buffer
  at the last of these valuations; the arguments, and each result, are then read off it.
-/
import proofs.«147646_j43310450213578_1_alg».proof.Proof.KB.Region0
import proofs.«147646_j43310450213578_1_alg».proof.Proof.KB.Region1
import proofs.«147646_j43310450213578_1_alg».proof.Proof.KB.Region2
import proofs.«147646_j43310450213578_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch, -/
abbrev W0 : Dev nD → Valuation τ sig (Elt F) := fun c b => m (c, b)
/-- after the first host stretch (the first region's entry), -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b

/-- At the region's exit: its arrays at what the pipeline leaves (the inputs as entered, each result's write-backs folded),
    every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF2 (c : Dev nD) (w : Fin cfg0.W) : (dat0 (E1 m) c).arrAt w cfg0.N = E2 m c (Pipeline.arrRef spec0 w) :=
  (W2_arr m c w).symm
theorem hrest2 (c : Dev nD) : ∀ b, b ∉ Finset.univ.image (Pipeline.arrRef spec0) → E2 m c b = E1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev E5 : (c : Dev nD) → (b : Ref sig .tc) → Buf (Elt F) ((c : Thread nD τ).loc b) := fun c b => W5 m c b

/-- At the region's exit: its arrays at what the pipeline leaves (the inputs as entered, each result's write-backs folded),
    every other buffer as entered. -/
def W6 (c : Dev nD) : Valuation τ sig (Elt F) :=
  Pipeline.withArrays spec1 c (W5 m c) fun w => (dat1 (E5 m) c).arrAt w cfg1.N
theorem W6_arr (c : Dev nD) (w : Fin cfg1.W) :
    W6 m c (Proc.devRef .tc (Pipeline.arrRef spec1 w)) = (dat1 (E5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev E6 : (c : Dev nD) → (b : Ref sig .tc) → Buf (Elt F) ((c : Thread nD τ).loc b) := fun c b => W6 m c b
theorem hF6 (c : Dev nD) (w : Fin cfg1.W) : (dat1 (E5 m) c).arrAt w cfg1.N = E6 m c (Pipeline.arrRef spec1 w) :=
  (W6_arr m c w).symm
theorem hrest6 (c : Dev nD) : ∀ b, b ∉ Finset.univ.image (Pipeline.arrRef spec1) → E6 m c b = E5 m c b :=
  fun b hb => W6_of_ne m c b fun w e => hb (Finset.mem_image.mpr ⟨w, Finset.mem_univ _, e⟩)

abbrev W7 : Dev nD → Valuation τ sig (Elt F) := fun c => StableHlo.after hostOps2 (W6 m c)
abbrev E7 : (c : Dev nD) → (b : Ref sig .tc) → Buf (Elt F) ((c : Thread nD τ).loc b) := fun c b => W7 m c b

/-- At the region's exit: its arrays at what the pipeline leaves (the inputs as entered, each result's write-backs folded),
    every other buffer as entered. -/
def W8 (c : Dev nD) : Valuation τ sig (Elt F) :=
  Pipeline.withArrays spec2 c (W7 m c) fun w => (dat2 (E7 m) c).arrAt w cfg2.N
theorem W8_arr (c : Dev nD) (w : Fin cfg2.W) :
    W8 m c (Proc.devRef .tc (Pipeline.arrRef spec2 w)) = (dat2 (E7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev E8 : (c : Dev nD) → (b : Ref sig .tc) → Buf (Elt F) ((c : Thread nD τ).loc b) := fun c b => W8 m c b
theorem hF8 (c : Dev nD) (w : Fin cfg2.W) : (dat2 (E7 m) c).arrAt w cfg2.N = E8 m c (Pipeline.arrRef spec2 w) :=
  (W8_arr m c w).symm
theorem hrest8 (c : Dev nD) : ∀ b, b ∉ Finset.univ.image (Pipeline.arrRef spec2) → E8 m c b = E7 m c b :=
  fun b hb => W8_of_ne m c b fun w e => hb (Finset.mem_image.mpr ⟨w, Finset.mem_univ _, e⟩)

abbrev W9 : Dev nD → Valuation τ sig (Elt F) := fun c => StableHlo.after hostOps3 (W8 m c)
abbrev W10 : Dev nD → Valuation τ sig (Elt F) := fun c => StableHlo.after hostOps3_1 (W9 m c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E5 m) c
  | ⟨2, _⟩ => fun c => dat2 (E7 m) c
abbrev 𝒱₀ : Variants := Variants.none
abbrev L : GSem nD τ sig → Finset Unit := fun _ => ∅
abbrev lv : GSem nD τ sig → Unit → ℕ := fun _ _ => 0
/-- What rides beside the buffers through every item: the generator register at some state and the core's dues, at nothing. -/
abbrev R (c : Dev nD) : sProp 𝕄 := iprop((∃ r, prngReg c r) ∗ ∃ W, owes (c : Thread nD τ) (0 : CellTallies nD τ sig Unit) W)
/-- A host stretch as an item: its operations over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m c) ∗ ∃ r, prngReg c r)

/-! ## The regions as items -/

set_option backward.isDefEq.respectTransparency.types false in
/-- Region 0 over the thread state: entered from every unscoped buffer at `W1`, left at `W2`; its arrays split out of
    the unscoped buffers and put back at their exit contents; the generator register into the invariant and out. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`; its arrays split out of
    the unscoped buffers and put back at their exit contents; the generator register into the invariant and out. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (E5 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W7`, left at `W8`; its arrays split out of
    the unscoped buffers and put back at their exit contents; the generator register into the invariant and out. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (E7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E7 m c) (E8 m c) ((pdats m 2 c).arrAt · cfg2.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as items, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)),
    .region (reg2 m),
    .host (hseg hostOps3 hostOps3_sub hostOps3_fresh (W8 m)),
    .host (hseg hostOps3_1 hostOps3_1_sub hostOps3_1_fresh (W9 m)) ]

/-- The last item's exit state, regrouped: the buffers and the generator register, beside the core's dues. -/
theorem hlast (c : Dev nD) :
    (iprop(StableHlo.held (c : Thread nD τ) (Pipeline.ucRefs τ sig) (W10 m c) ∗ R c) : sProp 𝕄)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

theorem main_run (c : Dev nD) : main (F := F) c = Pipeline.Seg.run (segs m) := (main_chain c).trans (by chain_rfl)

set_option backward.isDefEq.respectTransparency.types false in
/-- Every weakly fair execution from `m` with zero counters terminates, nothing faulting, and the final memory holds every
    unscoped buffer of every core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun c => hlast m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h => h)

end Cert.Kernel.Hand

end
-- ==== Proof.KB.Frame.lean ====
/-
  No item of the program writes an argument: a host stretch writes only its own result buffers, and a kernel region
  changes only its result arrays (an array it reads through an input window is left as entered). So a buffer outside all
  of those holds its launch contents at the last boundary, and the frame claim's post follows from the run.
-/
import proofs.«147646_j43310450213578_1_alg».proof.Proof.KB.Run

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-! ## What each item leaves unchanged -/

theorem W1_keep (c : Dev nD) (b : Ref sig .tc) (h : b ∉ hostOps0_W) : W1 m c (Proc.devRef .tc b) = W0 m c (Proc.devRef .tc b) :=
  StableHlo.after_of_writes_sub hostOps0 _ hostOps0_writes h
theorem W3_keep (c : Dev nD) (b : Ref sig .tc) (h : b ∉ hostOps1_W) : W3 m c (Proc.devRef .tc b) = W2 m c (Proc.devRef .tc b) :=
  StableHlo.after_of_writes_sub hostOps1 _ hostOps1_writes h
theorem W4_keep (c : Dev nD) (b : Ref sig .tc) (h : b ∉ hostOps1_1_W) : W4 m c (Proc.devRef .tc b) = W3 m c (Proc.devRef .tc b) :=
  StableHlo.after_of_writes_sub hostOps1_1 _ hostOps1_1_writes h
theorem W5_keep (c : Dev nD) (b : Ref sig .tc) (h : b ∉ hostOps1_2_W) : W5 m c (Proc.devRef .tc b) = W4 m c (Proc.devRef .tc b) :=
  StableHlo.after_of_writes_sub hostOps1_2 _ hostOps1_2_writes h
theorem W7_keep (c : Dev nD) (b : Ref sig .tc) (h : b ∉ hostOps2_W) : W7 m c (Proc.devRef .tc b) = W6 m c (Proc.devRef .tc b) :=
  StableHlo.after_of_writes_sub hostOps2 _ hostOps2_writes h
theorem W9_keep (c : Dev nD) (b : Ref sig .tc) (h : b ∉ hostOps3_W) : W9 m c (Proc.devRef .tc b) = W8 m c (Proc.devRef .tc b) :=
  StableHlo.after_of_writes_sub hostOps3 _ hostOps3_writes h
theorem W10_keep (c : Dev nD) (b : Ref sig .tc) (h : b ∉ hostOps3_1_W) : W10 m c (Proc.devRef .tc b) = W9 m c (Proc.devRef .tc b) :=
  StableHlo.after_of_writes_sub hostOps3_1 _ hostOps3_1_writes h

/-- The first region changes only its two result arrays. -/
theorem W2_keep (c : Dev nD) (b : Ref sig .tc) (h0 : b ≠ main_v8_0) (h1 : b ≠ main_v8_1) :
    W2 m c (Proc.devRef .tc b) = W1 m c (Proc.devRef .tc b) := by
  by_cases h : ∃ w, Pipeline.arrRef spec0 w = b
  · obtain ⟨w, rfl⟩ := h
    have hin : (cfg0.win w).isOut = false :=
      (by decide : ∀ w : Fin 11, Pipeline.arrRef spec0 w ≠ main_v8_0 → Pipeline.arrRef spec0 w ≠ main_v8_1 → (cfg0.win w).isOut = false) w h0 h1
    exact (W2_arr m c w).trans (((dat0 (E1 m) c).arrAt_in w hin _).trans (A_eq0 (E1 m) c w))
  · exact W2_of_ne m c b (fun w e => h ⟨w, e⟩)

/-- The second region changes only its result array. -/
theorem W6_keep (c : Dev nD) (b : Ref sig .tc) (h0 : b ≠ main_v41) :
    W6 m c (Proc.devRef .tc b) = W5 m c (Proc.devRef .tc b) := by
  by_cases h : ∃ w, Pipeline.arrRef spec1 w = b
  · obtain ⟨w, rfl⟩ := h
    have hin : (cfg1.win w).isOut = false :=
      (by decide : ∀ w : Fin 6, Pipeline.arrRef spec1 w ≠ main_v41 → (cfg1.win w).isOut = false) w h0
    exact (W6_arr m c w).trans (((dat1 (E5 m) c).arrAt_in w hin _).trans (A_eq1 (E5 m) c w))
  · exact W6_of_ne m c b (fun w e => h ⟨w, e⟩)

/-- The third region changes only its result array. -/
theorem W8_keep (c : Dev nD) (b : Ref sig .tc) (h0 : b ≠ main_v44) :
    W8 m c (Proc.devRef .tc b) = W7 m c (Proc.devRef .tc b) := by
  by_cases h : ∃ w, Pipeline.arrRef spec2 w = b
  · obtain ⟨w, rfl⟩ := h
    have hin : (cfg2.win w).isOut = false :=
      (by decide : ∀ w : Fin 6, Pipeline.arrRef spec2 w ≠ main_v44 → (cfg2.win w).isOut = false) w h0
    exact (W8_arr m c w).trans (((dat2 (E7 m) c).arrAt_in w hin _).trans (A_eq2 (E7 m) c w))
  · exact W8_of_ne m c b (fun w e => h ⟨w, e⟩)

/-- A buffer no item writes holds its launch contents at the last boundary. -/
theorem W10_launch (c : Dev nD) (b : Ref sig .tc) (h0 : b ∉ hostOps0_W) (h1 : b ∉ hostOps1_W) (h11 : b ∉ hostOps1_1_W)
    (h12 : b ∉ hostOps1_2_W) (h2 : b ∉ hostOps2_W) (h3 : b ∉ hostOps3_W) (h31 : b ∉ hostOps3_1_W)
    (hr : b ∉ ([main_v8_0, main_v8_1, main_v41, main_v44] : List (Ref sig .tc))) :
    W10 m c (Proc.devRef .tc b) = m ((c : Thread nD τ).loc b) := by
  have e0 : b ≠ main_v8_0 := fun e => hr (by rw [e]; decide)
  have e1 : b ≠ main_v8_1 := fun e => hr (by rw [e]; decide)
  have e2 : b ≠ main_v41 := fun e => hr (by rw [e]; decide)
  have e3 : b ≠ main_v44 := fun e => hr (by rw [e]; decide)
  rw [W10_keep m c b h31, W9_keep m c b h3, W8_keep m c b e3, W7_keep m c b h2, W6_keep m c b e2, W5_keep m c b h12,
    W4_keep m c b h11, W3_keep m c b h1, W2_keep m c b e0 e1, W1_keep m c b h0]

/-! ## The frame -/

/-- Every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨
    (h c _ (mem_uc main_arg0 (by decide))).trans (W10_launch m c main_arg0 (by decide) (by decide) (by decide) (by decide) (by decide) (by decide) (by decide) (by decide)),
    (h c _ (mem_uc main_arg1 (by decide))).trans (W10_launch m c main_arg1 (by decide) (by decide) (by decide) (by decide) (by decide) (by decide) (by decide) (by decide)),
    (h c _ (mem_uc main_arg2 (by decide))).trans (W10_launch m c main_arg2 (by decide) (by decide) (by decide) (by decide) (by decide) (by decide) (by decide) (by decide)),
    (h c _ (mem_uc main_arg3 (by decide))).trans (W10_launch m c main_arg3 (by decide) (by decide) (by decide) (by decide) (by decide) (by decide) (by decide) (by decide)),
    (h c _ (mem_uc main_arg4 (by decide))).trans (W10_launch m c main_arg4 (by decide) (by decide) (by decide) (by decide) (by decide) (by decide) (by decide) (by decide)),
    (h c _ (mem_uc main_arg5 (by decide))).trans (W10_launch m c main_arg5 (by decide) (by decide) (by decide) (by decide) (by decide) (by decide) (by decide) (by decide)),
    (h c _ (mem_uc main_arg6 (by decide))).trans (W10_launch m c main_arg6 (by decide) (by decide) (by decide) (by decide) (by decide) (by decide) (by decide) (by decide)),
    (h c _ (mem_uc main_arg7 (by decide))).trans (W10_launch m c main_arg7 (by decide) (by decide) (by decide) (by decide) (by decide) (by decide) (by decide) (by decide)),
    (h c _ (mem_uc main_arg8 (by decide))).trans (W10_launch m c main_arg8 (by decide) (by decide) (by decide) (by decide) (by decide) (by decide) (by decide) (by decide)),
    (h c _ (mem_uc main_arg9 (by decide))).trans (W10_launch m c main_arg9 (by decide) (by decide) (by decide) (by decide) (by decide) (by decide) (by decide) (by decide)),
    (h c _ (mem_uc main_arg10 (by decide))).trans (W10_launch m c main_arg10 (by decide) (by decide) (by decide) (by decide) (by decide) (by decide) (by decide) (by decide)),
    (h c _ (mem_uc main_arg11 (by decide))).trans (W10_launch m c main_arg11 (by decide) (by decide) (by decide) (by decide) (by decide) (by decide) (by decide) (by decide)),
    (h c _ (mem_uc main_arg12 (by decide))).trans (W10_launch m c main_arg12 (by decide) (by decide) (by decide) (by decide) (by decide) (by decide) (by decide) (by decide)),
    (h c _ (mem_uc main_arg13 (by decide))).trans (W10_launch m c main_arg13 (by decide) (by decide) (by decide) (by decide) (by decide) (by decide) (by decide) (by decide)),
    (h c _ (mem_uc main_arg14 (by decide))).trans (W10_launch m c main_arg14 (by decide) (by decide) (by decide) (by decide) (by decide) (by decide) (by decide) (by decide)),
    (h c _ (mem_uc main_arg15 (by decide))).trans (W10_launch m c main_arg15 (by decide) (by decide) (by decide) (by decide) (by decide) (by decide) (by decide) (by decide)),
    (h c _ (mem_uc main_arg16 (by decide))).trans (W10_launch m c main_arg16 (by decide) (by decide) (by decide) (by decide) (by decide) (by decide) (by decide) (by decide)),
    (h c _ (mem_uc main_arg17 (by decide))).trans (W10_launch m c main_arg17 (by decide) (by decide) (by decide) (by decide) (by decide) (by decide) (by decide) (by decide)),
    (h c _ (mem_uc main_arg18 (by decide))).trans (W10_launch m c main_arg18 (by decide) (by decide) (by decide) (by decide) (by decide) (by decide) (by decide) (by decide))⟩)
    (run m ρ)

end Cert.Kernel.Hand

end
-- ==== Proof.KI.Rects.lean ====
/-
  The whole-buffer rectangles the three kernel bodies load and store through: offset zero on both axes, the buffer's
  own sizes.
-/
import proofs.«147646_j43310450213578_1_alg».proof.Proof.Gen.KernelIdeal.Launch

noncomputable section

namespace Cert.KernelIdeal.Hand

open Cert.KernelIdeal Cert.KernelIdeal.Gen
open Idealize.ShloMosaic

abbrev r_S2048x256 : Rect S2048x256 := Rect.unit (s := S2048x256) ![0, 0] S2048x256.size inb_S2048x256_S2048x256_0_0
abbrev r_S256x128 : Rect S256x128 := Rect.unit (s := S256x128) ![0, 0] S256x128.size inb_S256x128_S256x128_0_0
abbrev r_S1x128 : Rect S1x128 := Rect.unit (s := S1x128) ![0, 0] S1x128.size inb_S1x128_S1x128_0_0
abbrev r_S128x128 : Rect S128x128 := Rect.unit (s := S128x128) ![0, 0] S128x128.size inb_S128x128_S128x128_0_0
abbrev r_S128x256 : Rect S128x256 := Rect.unit (s := S128x256) ![0, 0] S128x256.size inb_S128x256_S128x256_0_0
abbrev r_S1x256 : Rect S1x256 := Rect.unit (s := S1x256) ![0, 0] S1x256.size inb_S1x256_S1x256_0_0
abbrev r_S2048x128 : Rect S2048x128 := Rect.unit (s := S2048x128) ![0, 0] S2048x128.size inb_S2048x128_S2048x128_0_0
abbrev r_S1024x2048 : Rect S1024x2048 := Rect.unit (s := S1024x2048) ![0, 0] S1024x2048.size inb_S1024x2048_S1024x2048_0_0
abbrev r_S1024x128 : Rect S1024x128 := Rect.unit (s := S1024x128) ![0, 0] S1024x128.size inb_S1024x128_S1024x128_0_0
abbrev r_S128x2048 : Rect S128x2048 := Rect.unit (s := S128x2048) ![0, 0] S128x2048.size inb_S128x2048_S128x2048_0_0
abbrev r_S1x2048 : Rect S1x2048 := Rect.unit (s := S1x2048) ![0, 0] S1x2048.size inb_S1x2048_S1x2048_0_0

end Cert.KernelIdeal.Hand

end
-- ==== Proof.KI.Region0.lean ====
/-
  The first kernel region (the encoder and decoder of the first auto-encoder). At grid point i the body reads rows
  2048·i … 2048·i+2047 of the input, the four weight matrices and four bias rows whole, stores the code
  relu(x · W1 + b1) · W2 + b2 into block i of the first result and, from that code, relu(code · W3 + b3) · W4 + b4
  into block i of the second. Nothing is kept between points: what the body leaves in each output's staging buffer
  is one function of the input blocks, and the pipeline's invariant is the untouched scoped rest.
-/
import proofs.«147646_j43310450213578_1_alg».proof.Proof.Gen.KernelIdeal.Launch
import proofs.«147646_j43310450213578_1_alg».proof.Proof.KI.Rects
import proofs.«147646_j43310450213578_1_alg».proof.Proof.Gen.KernelIdeal.Skeleton
import proofs.«147646_j43310450213578_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks at a point, read off the arrays as the region finds them -/

/-- Window `w`'s block at point `t` of the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block at every point, fetched there or not: where the
    pipeline does not fetch, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds the window's block at every point, fetched there or not: where the
    pipeline does not fetch, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds the window's block at every point, fetched there or not: where the
    pipeline does not fetch, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds the window's block at every point, fetched there or not: where the
    pipeline does not fetch, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds the window's block at every point, fetched there or not: where the
    pipeline does not fetch, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds the window's block at every point, fetched there or not: where the
    pipeline does not fetch, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's staging buffer holds the window's block at every point, fetched there or not: where the
    pipeline does not fetch, the block index has not moved. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's staging buffer holds the window's block at every point, fetched there or not: where the
    pipeline does not fetch, the block index has not moved. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's staging buffer holds the window's block at every point, fetched there or not: where the
    pipeline does not fetch, the block index has not moved. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store goes through a whole staging buffer -/

/-! ## What the body leaves in each output window's buffer -/

/-- Output window 9's buffer after the body, from the input windows' blocks: its one whole-buffer store's payload. -/
def out0_9 (x0 : Vec F S2048x256 .f32) (x1 : Vec F S256x128 .f32) (x2 : Vec F S1x128 .f32) (x3 : Vec F S128x128 .f32) (x4 : Vec F S1x128 .f32) (x5 : Vec F S128x128 .f32) (x6 : Vec F S1x128 .f32) (x7 : Vec F S128x256 .f32) (x8 : Vec F S1x256 .f32) : Vec F S2048x128 .f32 :=
  View.canon [⟨r_S2048x128, k0_pay2 (View.ld x0 r_S2048x256) (View.ld x1 r_S256x128) (View.ld x2 r_S1x128) (View.ld x3 r_S128x128) (View.ld x4 r_S1x128)⟩]

/-- The store covers the buffer. -/
theorem cover0_9 (p0 : Vec F S2048x128 .f32) (y : S2048x128.Idx) :
    ∃ pc ∈ ([⟨r_S2048x128, p0⟩] : List (View.Piece (Elt F) S2048x128 .f32)), y ∈ pc.1.set :=
  View.cover_of_tiled [⟨r_S2048x128, p0⟩] S2048x128.size (by rfl) y

/-- Output window 10's buffer after the body, from the input windows' blocks: its one whole-buffer store's payload. -/
def out0_10 (x0 : Vec F S2048x256 .f32) (x1 : Vec F S256x128 .f32) (x2 : Vec F S1x128 .f32) (x3 : Vec F S128x128 .f32) (x4 : Vec F S1x128 .f32) (x5 : Vec F S128x128 .f32) (x6 : Vec F S1x128 .f32) (x7 : Vec F S128x256 .f32) (x8 : Vec F S1x256 .f32) : Vec F S2048x256 .f32 :=
  View.canon [⟨r_S2048x256, k0_pay1 (k0_pay3 (View.ld x0 r_S2048x256) (View.ld x1 r_S256x128) (View.ld x2 r_S1x128) (View.ld x3 r_S128x128) (View.ld x4 r_S1x128) (View.ld x5 r_S128x128) (View.ld x6 r_S1x128) (View.ld x7 r_S128x256)) (View.ld x8 r_S1x256)⟩]

/-- The store covers the buffer. -/
theorem cover0_10 (p0 : Vec F S2048x256 .f32) (y : S2048x256.Idx) :
    ∃ pc ∈ ([⟨r_S2048x256, p0⟩] : List (View.Piece (Elt F) S2048x256 .f32)), y ∈ pc.1.set :=
  View.cover_of_tiled [⟨r_S2048x256, p0⟩] S2048x256.size (by rfl) y

/-! ## The body's triple -/

set_option maxHeartbeats 1000000 in
/-- The body on whole staging memrefs, the inputs' at read contents `x_w` and the outputs' at anything, runs to the
    continuation holding the inputs' as they were and each output's at its function of the inputs'. -/
theorem sound_kernel0 (c : Dev nD) (E : Set ℕ) (i : grid0.Coords) (a0 : Memref sig .tc .vmem S2048x256 .f32) (ha0 : a0.IsWhole) (a1 : Memref sig .tc .vmem S256x128 .f32) (ha1 : a1.IsWhole) (a2 : Memref sig .tc .vmem S1x128 .f32) (ha2 : a2.IsWhole) (a3 : Memref sig .tc .vmem S128x128 .f32) (ha3 : a3.IsWhole) (a4 : Memref sig .tc .vmem S1x128 .f32) (ha4 : a4.IsWhole) (a5 : Memref sig .tc .vmem S128x128 .f32) (ha5 : a5.IsWhole) (a6 : Memref sig .tc .vmem S1x128 .f32) (ha6 : a6.IsWhole) (a7 : Memref sig .tc .vmem S128x256 .f32) (ha7 : a7.IsWhole) (a8 : Memref sig .tc .vmem S1x256 .f32) (ha8 : a8.IsWhole) (a9 : Memref sig .tc .vmem S2048x128 .f32) (ha9 : a9.IsWhole) (a10 : Memref sig .tc .vmem S2048x256 .f32) (ha10 : a10.IsWhole)
    (x0 : Vec F S2048x256 .f32) (x1 : Vec F S256x128 .f32) (x2 : Vec F S1x128 .f32) (x3 : Vec F S128x128 .f32) (x4 : Vec F S1x128 .f32) (x5 : Vec F S128x128 .f32) (x6 : Vec F S1x128 .f32) (x7 : Vec F S128x256 .f32) (x8 : Vec F S1x256 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ (∃ d, owns (c : Thread nD τ) a10 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (out0_9 x0 x1 x2 x3 x4 x5 x6 x7 x8) ∗ owns (c : Thread nD τ) a10 fullShare (out0_10 x0 x1 x2 x3 x4 x5 x6 x7 x8)) -∗ K ⟨⟩))
      ⊢ wp frame (wpE (defs₀ (F := F)) Variants.none c none) E (cc0__ae_ad_kernel i a0 ha0 a1 ha1 a2 ha2 a3 ha3 a4 ha4 a5 ha5 a6 ha6 a7 ha7 a8 ha8 a9 ha9 a10 ha10) K := by
  simp only [cc0__ae_ad_kernel_eq_skeleton]; unfold cc0__ae_ad_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover0_9 _)
  iexists _; isplitr
  swap; · iexact H10
  ipureintro
  exact View.read_writes_eq_canon _ _ _ (cover0_10 _)

/-! ## The pipeline's proof data -/

/-- The arrays as the region finds them; after the body at point `t` each input's buffer at its block and each output's at
    its function of the input blocks; the invariant the untouched scoped rest and generator register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  The second kernel region (the encoder of the second auto-encoder), a sum over column blocks kept in a scratch
  accumulator. The grid is 8 row blocks × 4 column blocks, the column block running fastest. At point (i, k) the body
  clears the accumulator when k = 0, adds the product of block (i, k) of the input with row block k of the first
  weight matrix to it, and when k = 3 stores relu(accumulator + b1) · W2 + b2 into row block i of the result; at the
  other points it leaves the result's staging buffer alone, and that buffer is written back only after k = 3.
  So the accumulator after point t is a recursion on t (restarted at every k = 0), the invariant carries it from
  point to point, and the result's block is a function of the accumulator at the row block's last point.
-/
import proofs.«147646_j43310450213578_1_alg».proof.Proof.Gen.KernelIdeal.Launch
import proofs.«147646_j43310450213578_1_alg».proof.Proof.KI.Rects
import proofs.«147646_j43310450213578_1_alg».proof.Proof.Gen.KernelIdeal.Skeleton
import proofs.«147646_j43310450213578_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks at a point, read off the arrays as the region finds them -/

/-- Window `w`'s block at point `t` of the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the window's block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds the window's block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds the window's block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds the window's block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds the window's block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and every store goes through a whole buffer -/

/-- The accumulator, a scoped buffer of the kernel's own that no window stages. -/
abbrev scM1 : Memref sig .tc .vmem S1024x128 .f32 := Memref.whole cc1_scratch0

theorem zero2 : (![0, 0] : Fin 2 → ℕ) = fun _ => 0 := by
  funext a; match a with | ⟨0, _⟩ => rfl | ⟨1, _⟩ => rfl

/-- A store through the whole buffer, made last, reads back as its payload whatever was stored before. -/
theorem read_writes_head_whole {S : Shape} {e : EltTy} {κ : Kind} {sp : Space} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

/-! ## The two conditions of the body, decided over the grid -/

/-- The first branch is taken exactly at the first column block, -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- the second exactly at the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The result's window is live exactly where the body stores into it, and written back only there. -/
theorem liveAt1_5 : ∀ t : Fin cfg1.N, cond1_1 (grid1.coords t) → cfg1.idle 5 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel

/-! ## What the body leaves in the accumulator and in the result's buffer -/

/-- The accumulator after a point that clears it first: the block product added to zero. -/
def accA (x0 : Vec F S1024x2048 .f32) (x1 : Vec F S2048x128 .f32) : Vec F S1024x128 .f32 :=
  k1_pay2 (View.ld x0 r_S1024x2048) (View.ld x1 r_S2048x128) (k1_pay1 (F := F))
/-- The accumulator after any other point: the block product added to what the point found there. -/
def accB (x0 : Vec F S1024x2048 .f32) (x1 : Vec F S2048x128 .f32) (xs : Vec F S1024x128 .f32) : Vec F S1024x128 .f32 :=
  k1_pay2 (View.ld x0 r_S1024x2048) (View.ld x1 r_S2048x128) (View.ld xs r_S1024x128)
/-- The result's buffer after a last column block: the second layer applied to the finished accumulator. -/
def outC (x2 : Vec F S1x128 .f32) (x3 : Vec F S128x128 .f32) (x4 : Vec F S1x128 .f32) (acc : Vec F S1024x128 .f32) : Vec F S1024x128 .f32 :=
  k1_pay3 acc (View.ld x2 r_S1x128) (View.ld x3 r_S128x128) (View.ld x4 r_S1x128)

/-! ## The body's triple, case by case -/

set_option maxHeartbeats 1000000 in
/-- First column block: the accumulator, found at anything, ends at `accA` of the two blocks; the other buffers are not touched. -/
theorem sound_kernel1_A (c : Dev nD) (E : Set ℕ) (i : grid1.Coords) (a0 : Memref sig .tc .vmem S1024x2048 .f32) (ha0 : a0.IsWhole) (a1 : Memref sig .tc .vmem S2048x128 .f32) (ha1 : a1.IsWhole) (a2 : Memref sig .tc .vmem S1x128 .f32) (ha2 : a2.IsWhole) (a3 : Memref sig .tc .vmem S128x128 .f32) (ha3 : a3.IsWhole) (a4 : Memref sig .tc .vmem S1x128 .f32) (ha4 : a4.IsWhole) (a5 : Memref sig .tc .vmem S1024x128 .f32) (ha5 : a5.IsWhole)
    (hc0 : cond1_0 i) (hc1 : ¬cond1_1 i)
    (x0 : Vec F S1024x2048 .f32) (x1 : Vec F S2048x128 .f32) (K : PUnit → sProp 𝕄) :
    iprop(owns (c : Thread nD τ) a0 fullShare x0 ∗ owns (c : Thread nD τ) a1 fullShare x1 ∗ (∃ d, owns (c : Thread nD τ) scM1 fullShare d)
        ∗ (iprop(owns (c : Thread nD τ) a0 fullShare x0 ∗ owns (c : Thread nD τ) a1 fullShare x1 ∗ owns (c : Thread nD τ) scM1 fullShare (accA x0 x1)) -∗ K ⟨⟩))
      ⊢ wp frame (wpE (defs₀ (F := F)) Variants.none c none) E (cc1__se_kernel i a0 ha0 a1 ha1 a2 ha2 a3 ha3 a4 ha4 a5 ha5 scM1 (Memref.isWhole_whole _)) K := by
  haveI : Fact (cond1_0 i) := ⟨hc0⟩
  haveI : Fact (¬cond1_1 i) := ⟨hc1⟩
  simp only [cc1__se_kernel_eq_skeleton]; unfold cc1__se_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [read_writes_head_whole _ _ zero2]
  unfold accA
  sl_unfold_run_names
  rw [View.readCov_unit_zero _ zero2]
  rfl

set_option maxHeartbeats 1000000 in
/-- A middle column block: the accumulator, found at `xs`, ends at `accB` of the two blocks and `xs`. -/
theorem sound_kernel1_B (c : Dev nD) (E : Set ℕ) (i : grid1.Coords) (a0 : Memref sig .tc .vmem S1024x2048 .f32) (ha0 : a0.IsWhole) (a1 : Memref sig .tc .vmem S2048x128 .f32) (ha1 : a1.IsWhole) (a2 : Memref sig .tc .vmem S1x128 .f32) (ha2 : a2.IsWhole) (a3 : Memref sig .tc .vmem S128x128 .f32) (ha3 : a3.IsWhole) (a4 : Memref sig .tc .vmem S1x128 .f32) (ha4 : a4.IsWhole) (a5 : Memref sig .tc .vmem S1024x128 .f32) (ha5 : a5.IsWhole)
    (hc0 : ¬cond1_0 i) (hc1 : ¬cond1_1 i)
    (x0 : Vec F S1024x2048 .f32) (x1 : Vec F S2048x128 .f32) (xs : Vec F S1024x128 .f32) (K : PUnit → sProp 𝕄) :
    iprop(owns (c : Thread nD τ) a0 fullShare x0 ∗ owns (c : Thread nD τ) a1 fullShare x1 ∗ owns (c : Thread nD τ) scM1 fullShare xs
        ∗ (iprop(owns (c : Thread nD τ) a0 fullShare x0 ∗ owns (c : Thread nD τ) a1 fullShare x1 ∗ owns (c : Thread nD τ) scM1 fullShare (accB x0 x1 xs)) -∗ K ⟨⟩))
      ⊢ wp frame (wpE (defs₀ (F := F)) Variants.none c none) E (cc1__se_kernel i a0 ha0 a1 ha1 a2 ha2 a3 ha3 a4 ha4 a5 ha5 scM1 (Memref.isWhole_whole _)) K := by
  haveI : Fact (¬cond1_0 i) := ⟨hc0⟩
  haveI : Fact (¬cond1_1 i) := ⟨hc1⟩
  simp only [cc1__se_kernel_eq_skeleton]; unfold cc1__se_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [read_writes_head_whole _ _ zero2]
  unfold accB
  sl_unfold_run_names
  rfl

set_option maxHeartbeats 1000000 in
/-- Last column block: the accumulator ends at `accB` as before, and the result's buffer, found at anything, at `outC` of
    the second layer's operands and that accumulator. -/
theorem sound_kernel1_C (c : Dev nD) (E : Set ℕ) (i : grid1.Coords) (a0 : Memref sig .tc .vmem S1024x2048 .f32) (ha0 : a0.IsWhole) (a1 : Memref sig .tc .vmem S2048x128 .f32) (ha1 : a1.IsWhole) (a2 : Memref sig .tc .vmem S1x128 .f32) (ha2 : a2.IsWhole) (a3 : Memref sig .tc .vmem S128x128 .f32) (ha3 : a3.IsWhole) (a4 : Memref sig .tc .vmem S1x128 .f32) (ha4 : a4.IsWhole) (a5 : Memref sig .tc .vmem S1024x128 .f32) (ha5 : a5.IsWhole)
    (hc0 : ¬cond1_0 i) (hc1 : cond1_1 i)
    (x0 : Vec F S1024x2048 .f32) (x1 : Vec F S2048x128 .f32) (x2 : Vec F S1x128 .f32) (x3 : Vec F S128x128 .f32) (x4 : Vec F S1x128 .f32)
    (xs : Vec F S1024x128 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ owns (c : Thread nD τ) scM1 fullShare xs
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (outC x2 x3 x4 (accB x0 x1 xs))
            ∗ owns (c : Thread nD τ) scM1 fullShare (accB x0 x1 xs)) -∗ K ⟨⟩))
      ⊢ wp frame (wpE (defs₀ (F := F)) Variants.none c none) E (cc1__se_kernel i a0 ha0 a1 ha1 a2 ha2 a3 ha3 a4 ha4 a5 ha5 scM1 (Memref.isWhole_whole _)) K := by
  haveI : Fact (¬cond1_0 i) := ⟨hc0⟩
  haveI : Fact (cond1_1 i) := ⟨hc1⟩
  simp only [cc1__se_kernel_eq_skeleton]; unfold cc1__se_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_writes_head_whole _ _ zero2]
    unfold outC accB
    sl_unfold_run_names
    rw [View.readCov_unit_zero _ zero2]
    rfl
  iexists _; isplitr
  swap; · iexact HS
  ipureintro
  sl_unfold_run_names
  rw [read_writes_head_whole _ _ zero2]
  unfold accB
  rfl

/-! ## The accumulator point by point -/

/-- What the accumulator holds after the body at position `n`: restarted from zero at every first column block,
    otherwise the block product added to what the point before left. -/
def accAt (c : Dev nD) : (n : ℕ) → n < cfg1.N → Vec F S1024x128 .f32
  | 0, hn => accA (iblk1 V c 0 ⟨0, hn⟩) (iblk1 V c 1 ⟨0, hn⟩)
  | n + 1, hn =>
    if (n + 1) % 4 = 0 then accA (iblk1 V c 0 ⟨n + 1, hn⟩) (iblk1 V c 1 ⟨n + 1, hn⟩)
    else accB (iblk1 V c 0 ⟨n + 1, hn⟩) (iblk1 V c 1 ⟨n + 1, hn⟩) (accAt c n (Nat.lt_of_succ_lt hn))

theorem accAt_first (c : Dev nD) (t : Fin cfg1.N) (h0 : t.val % 4 = 0) :
    accAt V c t.val t.isLt = accA (iblk1 V c 0 t) (iblk1 V c 1 t) := by
  obtain ⟨n, hn⟩ := t
  cases n with
  | zero => rfl
  | succ n => exact if_pos h0

theorem accAt_next (c : Dev nD) (t : Fin cfg1.N) (h0 : ¬t.val % 4 = 0) :
    accAt V c t.val t.isLt
      = accB (iblk1 V c 0 t) (iblk1 V c 1 t) (accAt V c (t.val - 1) (Nat.lt_of_le_of_lt (Nat.sub_le _ _) t.isLt)) := by
  obtain ⟨n, hn⟩ := t
  cases n with
  | zero => exact absurd (Nat.zero_mod _) h0
  | succ n => exact if_neg h0

/-! ## The region's invariant: the accumulator carried from point to point -/

/-- Before the first point the untouched scoped rest; after point `n` the accumulator at `accAt n`, the other scoped
    buffers at anything, the generator register at some state. -/
def PhiS (c : Dev nD) : (n : ℕ) → n ≤ cfg1.N → sProp 𝕄
  | 0, _ => Pipeline.ΦA spec1 c
  | n + 1, hn => iprop(iprop(owns (c : Thread nD τ) scM1 fullShare (accAt V c n hn) ∗ Pipeline.scopedRestBut (Ix := Unit) (Name := ℕ) (U := UR sig nD τ) (Lvl := ℕ) (Val := Elt F) spec1 c [cc1_scratch0]) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1 fullShare (accAt V c n hn) ∗ Pipeline.scopedRestBut (Ix := Unit) (Name := ℕ) (U := UR sig nD τ) (Lvl := ℕ) (Val := Elt F) spec1 c [cc1_scratch0]) ∗ (∃ r, prngReg c r)) := rfl

theorem PhiS_pos (c : Dev nD) (n : ℕ) (h : n ≤ cfg1.N) (hz : n ≠ 0) :
    PhiS V c n h = iprop(iprop(owns (c : Thread nD τ) scM1 fullShare (accAt V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The untouched scoped rest with the accumulator split out, owned at some contents. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The pipeline's proof data -/

/-- The arrays as the region finds them; after the body each input's buffer at its block and the result's at `outC` of the
    accumulator there (consulted only at a last column block: elsewhere the window is idle and not written back); the
    invariant `PhiS`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outC (iblk1 V c 2 t) (iblk1 V c 3 t) (iblk1 V c 4 t) (accAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = outC (iblk1 V c 2 t) (iblk1 V c 3 t) (iblk1 V c 4 t) (accAt V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- Before any point the invariant holds the accumulator at SOME contents beside the other scoped buffers. -/
theorem Phi_some (c : Dev nD) (t : Fin cfg1.N) :
    (dat1 V c).Φ t.castSucc ⊢ iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  rw [PhiS_castSucc]
  by_cases hz : t.val = 0
  · rw [PhiS_zero V c _ _ hz, PhiA1_eq]
  · rw [PhiS_pos V c _ _ hz]
    iintro ⟨⟨HS, Hr⟩, Hg⟩
    isplitl [HS Hr]
    · isplitl [HS]
      · iexists _; iexact HS
      iexact Hr
    iexact Hg

/-- What the launch hands the region is the invariant before the first point, -/
theorem hin1 (c : Dev nD) : Pipeline.ΦA spec1 c ⊢ (dat1 V c).Φ 0 := by
  rw [show (dat1 V c).Φ 0 = PhiS V c 0 (Nat.zero_le _) from rfl, PhiS_zero V c 0 _ rfl]

/-- and after the last point the invariant gives it back: the accumulator's contents are forgotten. -/
theorem hout1 (c : Dev nD) : (dat1 V c).Φ (Fin.last cfg1.N) ⊢ Pipeline.ΦA spec1 c := by
  have hN : cfg1.N = 32 := N_1
  rw [show (dat1 V c).Φ (Fin.last cfg1.N) = PhiS V c (Fin.last cfg1.N).val (Nat.le_of_lt_succ (Fin.last cfg1.N).isLt) from rfl,
    PhiS_pos V c _ _ (by rw [Fin.val_last]; omega), PhiA1_eq]
  iintro ⟨⟨HS, Hr⟩, Hg⟩
  isplitl [HS Hr]
  · isplitl [HS]
    · iexists _; iexact HS
    iexact Hr
  iexact Hg

/-! ## The body obligation, at a generic point -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 2000000 in
/-- The body at any point: the closed forms say which of the three cases the point is in; the invariant hands the body
    the accumulator (at anything where the body clears it first, at what the point before left elsewhere) and takes
    it back at this point's contents; where the result's window is idle its buffer passes through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  have hN : t.val < 32 := lt_of_lt_of_eq t.isLt (show cfg1.N = 32 from N_1)
  by_cases h0 : t.val % 4 = 0
  · have hc0 : cond1_0 (grid1.coords t) := (hcond1_0 t).mpr h0
    have hc1 : ¬cond1_1 (grid1.coords t) := fun h => by have := (hcond1_1 t).mp h; omega
    rw [Dat.leavesExact_idle (dat1 V c) 5 t (idleAt1_5 t hc1) (noFlush1_5 t hc1), accAt_first V c t h0]
    iintro ⟨HΦ, Ho, ⟨%d0, H0⟩, ⟨%d1, H1⟩, ⟨%d2, H2⟩, ⟨%d3, H3⟩, ⟨%d4, H4⟩, H5⟩
    ihave HΦ' := (Phi_some V c t) $$ HΦ
    icases HΦ' with ⟨⟨HS, Hr⟩, Hg⟩
    iapply (sound_kernel1_A c Set.univ _ _ _ _ _ _ _ _ _ _ _ _ _ hc0 hc1 (iblk1 V c 0 t) (iblk1 V c 1 t) _)
    isplitl [H0]; · iexact H0
    isplitl [H1]; · iexact H1
    isplitl [HS]; · iexact HS
    iintro ⟨H0, H1, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc0 : ¬cond1_0 (grid1.coords t) := fun h => h0 ((hcond1_0 t).mp h)
    have hz : t.val ≠ 0 := fun e => h0 (by rw [e])
    rw [PhiS_castSucc V c t, PhiS_pos V c _ _ hz]
    by_cases h1 : t.val % 4 = 3
    · have hc1 : cond1_1 (grid1.coords t) := (hcond1_1 t).mpr h1
      rw [show (dat1 V c).leavesExact 5 t = owns (c : Thread nD τ) (st1_5 t) fullShare ((dat1 V c).after 5 t) from by
        unfold Dat.leavesExact; rw [liveAt1_5 t hc1], after1_5, accAt_next V c t h0]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (sound_kernel1_C c Set.univ _ _ _ _ _ _ _ _ _ _ _ _ _ hc0 hc1 (iblk1 V c 0 t) (iblk1 V c 1 t) (iblk1 V c 2 t) (iblk1 V c 3 t) (iblk1 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond1_1 (grid1.coords t) := fun h => h1 ((hcond1_1 t).mp h)
      rw [Dat.leavesExact_idle (dat1 V c) 5 t (idleAt1_5 t hc1) (noFlush1_5 t hc1), accAt_next V c t h0]
      iintro ⟨⟨⟨HS, Hr⟩, Hg⟩, Ho, ⟨%d0, H0⟩, ⟨%d1, H1⟩, ⟨%d2, H2⟩, ⟨%d3, H3⟩, ⟨%d4, H4⟩, H5⟩
      iapply (sound_kernel1_B c Set.univ _ _ _ _ _ _ _ _ _ _ _ _ _ hc0 hc1 (iblk1 V c 0 t) (iblk1 V c 1 t) _ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/-
  The third kernel region (the decoder of the second auto-encoder). At grid point (i, j) the body reads rows
  1024·i … 1024·i+1023 of the hidden array, the first weight matrix and bias row whole, columns 2048·j … 2048·j+2047
  of the second weight matrix and bias row, and stores relu(h · W1 + b1) · W2 + b2 into block (i, j) of the result.
  Nothing is kept between points: what the body leaves in the output's staging buffer is one function of the input
  blocks, and the pipeline's invariant is the untouched scoped rest.
-/
import proofs.«147646_j43310450213578_1_alg».proof.Proof.Gen.KernelIdeal.Launch
import proofs.«147646_j43310450213578_1_alg».proof.Proof.KI.Rects
import proofs.«147646_j43310450213578_1_alg».proof.Proof.Gen.KernelIdeal.Skeleton
import proofs.«147646_j43310450213578_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks at a point, read off the arrays as the region finds them -/

/-- Window `w`'s block at point `t` of the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds the window's block at every point, fetched there or not: where the
    pipeline does not fetch, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds the window's block at every point, fetched there or not: where the
    pipeline does not fetch, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds the window's block at every point, fetched there or not: where the
    pipeline does not fetch, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds the window's block at every point, fetched there or not: where the
    pipeline does not fetch, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds the window's block at every point, fetched there or not: where the
    pipeline does not fetch, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store go through the whole staging buffer -/

/-! ## What the body leaves in the output window's buffer -/

/-- The output buffer after the body, from the input windows' blocks: the one whole-buffer store's payload. -/
def out2_5 (x0 : Vec F S1024x128 .f32) (x1 : Vec F S128x128 .f32) (x2 : Vec F S1x128 .f32) (x3 : Vec F S128x2048 .f32) (x4 : Vec F S1x2048 .f32) : Vec F S1024x2048 .f32 :=
  View.canon [⟨r_S1024x2048, k2_pay1 (View.ld x0 r_S1024x128) (View.ld x1 r_S128x128) (View.ld x2 r_S1x128) (View.ld x3 r_S128x2048) (View.ld x4 r_S1x2048)⟩]

/-- The store covers the buffer. -/
theorem cover2_5 (p0 : Vec F S1024x2048 .f32) (y : S1024x2048.Idx) :
    ∃ pc ∈ ([⟨r_S1024x2048, p0⟩] : List (View.Piece (Elt F) S1024x2048 .f32)), y ∈ pc.1.set :=
  View.cover_of_tiled [⟨r_S1024x2048, p0⟩] S1024x2048.size (by rfl) y

/-! ## The body's triple -/

set_option maxHeartbeats 1000000 in
/-- The body on whole staging memrefs, the inputs' at read contents `x_w` and the output's at anything, runs to the
    continuation holding the inputs' as they were and the output's at `out2_5` of the inputs'. -/
theorem sound_kernel2 (c : Dev nD) (E : Set ℕ) (i : grid2.Coords) (a0 : Memref sig .tc .vmem S1024x128 .f32) (ha0 : a0.IsWhole) (a1 : Memref sig .tc .vmem S128x128 .f32) (ha1 : a1.IsWhole) (a2 : Memref sig .tc .vmem S1x128 .f32) (ha2 : a2.IsWhole) (a3 : Memref sig .tc .vmem S128x2048 .f32) (ha3 : a3.IsWhole) (a4 : Memref sig .tc .vmem S1x2048 .f32) (ha4 : a4.IsWhole) (a5 : Memref sig .tc .vmem S1024x2048 .f32) (ha5 : a5.IsWhole)
    (x0 : Vec F S1024x128 .f32) (x1 : Vec F S128x128 .f32) (x2 : Vec F S1x128 .f32) (x3 : Vec F S128x2048 .f32) (x4 : Vec F S1x2048 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out2_5 x0 x1 x2 x3 x4)) -∗ K ⟨⟩))
      ⊢ wp frame (wpE (defs₀ (F := F)) Variants.none c none) E (cc2__sd_kernel i a0 ha0 a1 ha1 a2 ha2 a3 ha3 a4 ha4 a5 ha5) K := by
  simp only [cc2__sd_kernel_eq_skeleton]; unfold cc2__sd_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The arrays as the region finds them; after the body at point `t` each input's buffer at its block and the output's at
    `out2_5` of the input blocks; the invariant the untouched scoped rest and generator register; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The whole program as a chain of ten items — host stretches and the three kernel regions — each entered from the
  buffer contents the one before it left. Between items a core holds every unscoped buffer at a named valuation:
  the launch memory, then each host stretch's operations applied, then, across a region, the region's arrays at what
  its write-backs leave. Every weakly fair execution runs to the end and the final memory holds every unscoped buffer
  at the last of these valuations; the arguments, and each result, are then read off it.
-/
import proofs.«147646_j43310450213578_1_alg».proof.Proof.KI.Region0
import proofs.«147646_j43310450213578_1_alg».proof.Proof.KI.Region1
import proofs.«147646_j43310450213578_1_alg».proof.Proof.KI.Region2
import proofs.«147646_j43310450213578_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch, -/
abbrev W0 : Dev nD → Valuation τ sig (Elt F) := fun c b => m (c, b)
/-- after the first host stretch (the first region's entry), -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b

/-- At the region's exit: its arrays at what the pipeline leaves (the inputs as entered, each result's write-backs folded),
    every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF2 (c : Dev nD) (w : Fin cfg0.W) : (dat0 (E1 m) c).arrAt w cfg0.N = E2 m c (Pipeline.arrRef spec0 w) :=
  (W2_arr m c w).symm
theorem hrest2 (c : Dev nD) : ∀ b, b ∉ Finset.univ.image (Pipeline.arrRef spec0) → E2 m c b = E1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev E5 : (c : Dev nD) → (b : Ref sig .tc) → Buf (Elt F) ((c : Thread nD τ).loc b) := fun c b => W5 m c b

/-- At the region's exit: its arrays at what the pipeline leaves (the inputs as entered, each result's write-backs folded),
    every other buffer as entered. -/
def W6 (c : Dev nD) : Valuation τ sig (Elt F) :=
  Pipeline.withArrays spec1 c (W5 m c) fun w => (dat1 (E5 m) c).arrAt w cfg1.N
theorem W6_arr (c : Dev nD) (w : Fin cfg1.W) :
    W6 m c (Proc.devRef .tc (Pipeline.arrRef spec1 w)) = (dat1 (E5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev E6 : (c : Dev nD) → (b : Ref sig .tc) → Buf (Elt F) ((c : Thread nD τ).loc b) := fun c b => W6 m c b
theorem hF6 (c : Dev nD) (w : Fin cfg1.W) : (dat1 (E5 m) c).arrAt w cfg1.N = E6 m c (Pipeline.arrRef spec1 w) :=
  (W6_arr m c w).symm
theorem hrest6 (c : Dev nD) : ∀ b, b ∉ Finset.univ.image (Pipeline.arrRef spec1) → E6 m c b = E5 m c b :=
  fun b hb => W6_of_ne m c b fun w e => hb (Finset.mem_image.mpr ⟨w, Finset.mem_univ _, e⟩)

abbrev W7 : Dev nD → Valuation τ sig (Elt F) := fun c => StableHlo.after hostOps2 (W6 m c)
abbrev E7 : (c : Dev nD) → (b : Ref sig .tc) → Buf (Elt F) ((c : Thread nD τ).loc b) := fun c b => W7 m c b

/-- At the region's exit: its arrays at what the pipeline leaves (the inputs as entered, each result's write-backs folded),
    every other buffer as entered. -/
def W8 (c : Dev nD) : Valuation τ sig (Elt F) :=
  Pipeline.withArrays spec2 c (W7 m c) fun w => (dat2 (E7 m) c).arrAt w cfg2.N
theorem W8_arr (c : Dev nD) (w : Fin cfg2.W) :
    W8 m c (Proc.devRef .tc (Pipeline.arrRef spec2 w)) = (dat2 (E7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev E8 : (c : Dev nD) → (b : Ref sig .tc) → Buf (Elt F) ((c : Thread nD τ).loc b) := fun c b => W8 m c b
theorem hF8 (c : Dev nD) (w : Fin cfg2.W) : (dat2 (E7 m) c).arrAt w cfg2.N = E8 m c (Pipeline.arrRef spec2 w) :=
  (W8_arr m c w).symm
theorem hrest8 (c : Dev nD) : ∀ b, b ∉ Finset.univ.image (Pipeline.arrRef spec2) → E8 m c b = E7 m c b :=
  fun b hb => W8_of_ne m c b fun w e => hb (Finset.mem_image.mpr ⟨w, Finset.mem_univ _, e⟩)

abbrev W9 : Dev nD → Valuation τ sig (Elt F) := fun c => StableHlo.after hostOps3 (W8 m c)
abbrev W10 : Dev nD → Valuation τ sig (Elt F) := fun c => StableHlo.after hostOps3_1 (W9 m c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E5 m) c
  | ⟨2, _⟩ => fun c => dat2 (E7 m) c
abbrev 𝒱₀ : Variants := Variants.none
abbrev L : GSem nD τ sig → Finset Unit := fun _ => ∅
abbrev lv : GSem nD τ sig → Unit → ℕ := fun _ _ => 0
/-- What rides beside the buffers through every item: the generator register at some state and the core's dues, at nothing. -/
abbrev R (c : Dev nD) : sProp 𝕄 := iprop((∃ r, prngReg c r) ∗ ∃ W, owes (c : Thread nD τ) (0 : CellTallies nD τ sig Unit) W)
/-- A host stretch as an item: its operations over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m c) ∗ ∃ r, prngReg c r)

/-! ## The regions as items -/

set_option backward.isDefEq.respectTransparency.types false in
/-- Region 0 over the thread state: entered from every unscoped buffer at `W1`, left at `W2`; its arrays split out of
    the unscoped buffers and put back at their exit contents; the generator register into the invariant and out. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`; its arrays split out of
    the unscoped buffers and put back at their exit contents; the generator register into the invariant and out. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (E5 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W7`, left at `W8`; its arrays split out of
    the unscoped buffers and put back at their exit contents; the generator register into the invariant and out. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (E7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E7 m c) (E8 m c) ((pdats m 2 c).arrAt · cfg2.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as items, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)),
    .region (reg2 m),
    .host (hseg hostOps3 hostOps3_sub hostOps3_fresh (W8 m)),
    .host (hseg hostOps3_1 hostOps3_1_sub hostOps3_1_fresh (W9 m)) ]

/-- The last item's exit state, regrouped: the buffers and the generator register, beside the core's dues. -/
theorem hlast (c : Dev nD) :
    (iprop(StableHlo.held (c : Thread nD τ) (Pipeline.ucRefs τ sig) (W10 m c) ∗ R c) : sProp 𝕄)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

theorem main_run (c : Dev nD) : main (F := F) c = Pipeline.Seg.run (segs m) := (main_chain c).trans (by chain_rfl)

set_option backward.isDefEq.respectTransparency.types false in
/-- Every weakly fair execution from `m` with zero counters terminates, nothing faulting, and the final memory holds every
    unscoped buffer of every core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun c => hlast m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h => h)

end Cert.KernelIdeal.Hand

end
-- ==== Proof.KI.Frame.lean ====
/-
  No item of the program writes an argument: a host stretch writes only its own result buffers, and a kernel region
  changes only its result arrays (an array it reads through an input window is left as entered). So a buffer outside all
  of those holds its launch contents at the last boundary, and the frame claim's post follows from the run.
-/
import proofs.«147646_j43310450213578_1_alg».proof.Proof.KI.Run

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-! ## What each item leaves unchanged -/

theorem W1_keep (c : Dev nD) (b : Ref sig .tc) (h : b ∉ hostOps0_W) : W1 m c (Proc.devRef .tc b) = W0 m c (Proc.devRef .tc b) :=
  StableHlo.after_of_writes_sub hostOps0 _ hostOps0_writes h
theorem W3_keep (c : Dev nD) (b : Ref sig .tc) (h : b ∉ hostOps1_W) : W3 m c (Proc.devRef .tc b) = W2 m c (Proc.devRef .tc b) :=
  StableHlo.after_of_writes_sub hostOps1 _ hostOps1_writes h
theorem W4_keep (c : Dev nD) (b : Ref sig .tc) (h : b ∉ hostOps1_1_W) : W4 m c (Proc.devRef .tc b) = W3 m c (Proc.devRef .tc b) :=
  StableHlo.after_of_writes_sub hostOps1_1 _ hostOps1_1_writes h
theorem W5_keep (c : Dev nD) (b : Ref sig .tc) (h : b ∉ hostOps1_2_W) : W5 m c (Proc.devRef .tc b) = W4 m c (Proc.devRef .tc b) :=
  StableHlo.after_of_writes_sub hostOps1_2 _ hostOps1_2_writes h
theorem W7_keep (c : Dev nD) (b : Ref sig .tc) (h : b ∉ hostOps2_W) : W7 m c (Proc.devRef .tc b) = W6 m c (Proc.devRef .tc b) :=
  StableHlo.after_of_writes_sub hostOps2 _ hostOps2_writes h
theorem W9_keep (c : Dev nD) (b : Ref sig .tc) (h : b ∉ hostOps3_W) : W9 m c (Proc.devRef .tc b) = W8 m c (Proc.devRef .tc b) :=
  StableHlo.after_of_writes_sub hostOps3 _ hostOps3_writes h
theorem W10_keep (c : Dev nD) (b : Ref sig .tc) (h : b ∉ hostOps3_1_W) : W10 m c (Proc.devRef .tc b) = W9 m c (Proc.devRef .tc b) :=
  StableHlo.after_of_writes_sub hostOps3_1 _ hostOps3_1_writes h

/-- The first region changes only its two result arrays. -/
theorem W2_keep (c : Dev nD) (b : Ref sig .tc) (h0 : b ≠ main_v8_0) (h1 : b ≠ main_v8_1) :
    W2 m c (Proc.devRef .tc b) = W1 m c (Proc.devRef .tc b) := by
  by_cases h : ∃ w, Pipeline.arrRef spec0 w = b
  · obtain ⟨w, rfl⟩ := h
    have hin : (cfg0.win w).isOut = false :=
      (by decide : ∀ w : Fin 11, Pipeline.arrRef spec0 w ≠ main_v8_0 → Pipeline.arrRef spec0 w ≠ main_v8_1 → (cfg0.win w).isOut = false) w h0 h1
    exact (W2_arr m c w).trans (((dat0 (E1 m) c).arrAt_in w hin _).trans (A_eq0 (E1 m) c w))
  · exact W2_of_ne m c b (fun w e => h ⟨w, e⟩)

/-- The second region changes only its result array. -/
theorem W6_keep (c : Dev nD) (b : Ref sig .tc) (h0 : b ≠ main_v41) :
    W6 m c (Proc.devRef .tc b) = W5 m c (Proc.devRef .tc b) := by
  by_cases h : ∃ w, Pipeline.arrRef spec1 w = b
  · obtain ⟨w, rfl⟩ := h
    have hin : (cfg1.win w).isOut = false :=
      (by decide : ∀ w : Fin 6, Pipeline.arrRef spec1 w ≠ main_v41 → (cfg1.win w).isOut = false) w h0
    exact (W6_arr m c w).trans (((dat1 (E5 m) c).arrAt_in w hin _).trans (A_eq1 (E5 m) c w))
  · exact W6_of_ne m c b (fun w e => h ⟨w, e⟩)

/-- The third region changes only its result array. -/
theorem W8_keep (c : Dev nD) (b : Ref sig .tc) (h0 : b ≠ main_v44) :
    W8 m c (Proc.devRef .tc b) = W7 m c (Proc.devRef .tc b) := by
  by_cases h : ∃ w, Pipeline.arrRef spec2 w = b
  · obtain ⟨w, rfl⟩ := h
    have hin : (cfg2.win w).isOut = false :=
      (by decide : ∀ w : Fin 6, Pipeline.arrRef spec2 w ≠ main_v44 → (cfg2.win w).isOut = false) w h0
    exact (W8_arr m c w).trans (((dat2 (E7 m) c).arrAt_in w hin _).trans (A_eq2 (E7 m) c w))
  · exact W8_of_ne m c b (fun w e => h ⟨w, e⟩)

/-- A buffer no item writes holds its launch contents at the last boundary. -/
theorem W10_launch (c : Dev nD) (b : Ref sig .tc) (h0 : b ∉ hostOps0_W) (h1 : b ∉ hostOps1_W) (h11 : b ∉ hostOps1_1_W)
    (h12 : b ∉ hostOps1_2_W) (h2 : b ∉ hostOps2_W) (h3 : b ∉ hostOps3_W) (h31 : b ∉ hostOps3_1_W)
    (hr : b ∉ ([main_v8_0, main_v8_1, main_v41, main_v44] : List (Ref sig .tc))) :
    W10 m c (Proc.devRef .tc b) = m ((c : Thread nD τ).loc b) := by
  have e0 : b ≠ main_v8_0 := fun e => hr (by rw [e]; decide)
  have e1 : b ≠ main_v8_1 := fun e => hr (by rw [e]; decide)
  have e2 : b ≠ main_v41 := fun e => hr (by rw [e]; decide)
  have e3 : b ≠ main_v44 := fun e => hr (by rw [e]; decide)
  rw [W10_keep m c b h31, W9_keep m c b h3, W8_keep m c b e3, W7_keep m c b h2, W6_keep m c b e2, W5_keep m c b h12,
    W4_keep m c b h11, W3_keep m c b h1, W2_keep m c b e0 e1, W1_keep m c b h0]

/-! ## The frame -/

/-- Every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨
    (h c _ (mem_uc main_arg0 (by decide))).trans (W10_launch m c main_arg0 (by decide) (by decide) (by decide) (by decide) (by decide) (by decide) (by decide) (by decide)),
    (h c _ (mem_uc main_arg1 (by decide))).trans (W10_launch m c main_arg1 (by decide) (by decide) (by decide) (by decide) (by decide) (by decide) (by decide) (by decide)),
    (h c _ (mem_uc main_arg2 (by decide))).trans (W10_launch m c main_arg2 (by decide) (by decide) (by decide) (by decide) (by decide) (by decide) (by decide) (by decide)),
    (h c _ (mem_uc main_arg3 (by decide))).trans (W10_launch m c main_arg3 (by decide) (by decide) (by decide) (by decide) (by decide) (by decide) (by decide) (by decide)),
    (h c _ (mem_uc main_arg4 (by decide))).trans (W10_launch m c main_arg4 (by decide) (by decide) (by decide) (by decide) (by decide) (by decide) (by decide) (by decide)),
    (h c _ (mem_uc main_arg5 (by decide))).trans (W10_launch m c main_arg5 (by decide) (by decide) (by decide) (by decide) (by decide) (by decide) (by decide) (by decide)),
    (h c _ (mem_uc main_arg6 (by decide))).trans (W10_launch m c main_arg6 (by decide) (by decide) (by decide) (by decide) (by decide) (by decide) (by decide) (by decide)),
    (h c _ (mem_uc main_arg7 (by decide))).trans (W10_launch m c main_arg7 (by decide) (by decide) (by decide) (by decide) (by decide) (by decide) (by decide) (by decide)),
    (h c _ (mem_uc main_arg8 (by decide))).trans (W10_launch m c main_arg8 (by decide) (by decide) (by decide) (by decide) (by decide) (by decide) (by decide) (by decide)),
    (h c _ (mem_uc main_arg9 (by decide))).trans (W10_launch m c main_arg9 (by decide) (by decide) (by decide) (by decide) (by decide) (by decide) (by decide) (by decide)),
    (h c _ (mem_uc main_arg10 (by decide))).trans (W10_launch m c main_arg10 (by decide) (by decide) (by decide) (by decide) (by decide) (by decide) (by decide) (by decide)),
    (h c _ (mem_uc main_arg11 (by decide))).trans (W10_launch m c main_arg11 (by decide) (by decide) (by decide) (by decide) (by decide) (by decide) (by decide) (by decide)),
    (h c _ (mem_uc main_arg12 (by decide))).trans (W10_launch m c main_arg12 (by decide) (by decide) (by decide) (by decide) (by decide) (by decide) (by decide) (by decide)),
    (h c _ (mem_uc main_arg13 (by decide))).trans (W10_launch m c main_arg13 (by decide) (by decide) (by decide) (by decide) (by decide) (by decide) (by decide) (by decide)),
    (h c _ (mem_uc main_arg14 (by decide))).trans (W10_launch m c main_arg14 (by decide) (by decide) (by decide) (by decide) (by decide) (by decide) (by decide) (by decide)),
    (h c _ (mem_uc main_arg15 (by decide))).trans (W10_launch m c main_arg15 (by decide) (by decide) (by decide) (by decide) (by decide) (by decide) (by decide) (by decide)),
    (h c _ (mem_uc main_arg16 (by decide))).trans (W10_launch m c main_arg16 (by decide) (by decide) (by decide) (by decide) (by decide) (by decide) (by decide) (by decide)),
    (h c _ (mem_uc main_arg17 (by decide))).trans (W10_launch m c main_arg17 (by decide) (by decide) (by decide) (by decide) (by decide) (by decide) (by decide) (by decide)),
    (h c _ (mem_uc main_arg18 (by decide))).trans (W10_launch m c main_arg18 (by decide) (by decide) (by decide) (by decide) (by decide) (by decide) (by decide) (by decide))⟩)
    (run m ρ)

end Cert.KernelIdeal.Hand

end
-- ==== Proof.KI.Blocks0.lean ====
/-
  The first kernel's blocks inside their arrays. At grid point t the input window and the two output windows sit at rows
  2048·t … 2048·t + 2047 of their arrays (all columns); every weight and bias window is its whole array. So an entry of an
  input block is the entry of the array at the block's row offset plus the entry's row, and a weight or bias block is the array.
-/
import proofs.«147646_j43310450213578_1_alg».proof.Proof.KI.Region0
import Idealize.ShloMosaic.Lib.Pipeline.Value
import Idealize.ShloMosaic.PureOps.Ideal
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The printed index maps, decided over the grid: the row-blocked windows are at block (t, 0), the others at block (0, 0). -/
theorem idx_facts0 : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- An entry of the input block at point t is the array's entry at row 2048·t + the entry's row. -/
theorem iblk0_0_apply (c : Dev nD) (t : Fin cfg0.N) (y : S2048x256.Idx) (k : S8192x256.Idx)
    (h0 : (k 0).val = 2048 * t.val + (y 0).val) (h1 : (k 1).val = (y 1).val) :
    (iblk0 V c 0 t : Vec Ideal S2048x256 .f32) y = (V c (Pipeline.arrRef spec0 0) : S8192x256.Idx → EReal) k := by
  have e0 : win0_0.index t (0 : Fin 2) = t.val := (idx_facts0 t).1.1
  have e1 : win0_0.index t (1 : Fin 2) = 0 := (idx_facts0 t).1.2
  unfold iblk0
  rw [View.read_apply]
  show V c (Pipeline.arrRef spec0 0) _ = _
  refine congrArg _ ?_
  funext a; apply Fin.ext
  match a with
  | ⟨0, _⟩ => show win0_0.index t 0 * 2048 + 1 * (y 0).val = (k 0).val; omega
  | ⟨1, _⟩ => show win0_0.index t 1 * 256 + 1 * (y 1).val = (k 1).val; omega

/-- Input window 1 is its whole array at every point. -/
theorem iblk0_1_eq (c : Dev nD) (t : Fin cfg0.N) (y : S256x128.Idx) :
    (iblk0 V c 1 t : Vec Ideal S256x128 .f32) y = (V c (Pipeline.arrRef spec0 1) : S256x128.Idx → EReal) y := by
  have e0 : win0_1.index t (0 : Fin 2) = 0 := (idx_facts0 t).2.1.1
  have e1 : win0_1.index t (1 : Fin 2) = 0 := (idx_facts0 t).2.1.2
  unfold iblk0
  rw [View.read_apply]
  show V c (Pipeline.arrRef spec0 1) _ = _
  refine congrArg _ ?_
  funext a; apply Fin.ext
  match a with
  | ⟨0, _⟩ => show win0_1.index t 0 * 256 + 1 * (y 0).val = (y 0).val; omega
  | ⟨1, _⟩ => show win0_1.index t 1 * 128 + 1 * (y 1).val = (y 1).val; omega

/-- Input window 2 is its whole array at every point. -/
theorem iblk0_2_eq (c : Dev nD) (t : Fin cfg0.N) (y : S1x128.Idx) :
    (iblk0 V c 2 t : Vec Ideal S1x128 .f32) y = (V c (Pipeline.arrRef spec0 2) : S1x128.Idx → EReal) y := by
  have e0 : win0_2.index t (0 : Fin 2) = 0 := (idx_facts0 t).2.2.1.1
  have e1 : win0_2.index t (1 : Fin 2) = 0 := (idx_facts0 t).2.2.1.2
  unfold iblk0
  rw [View.read_apply]
  show V c (Pipeline.arrRef spec0 2) _ = _
  refine congrArg _ ?_
  funext a; apply Fin.ext
  match a with
  | ⟨0, _⟩ => show win0_2.index t 0 * 1 + 1 * (y 0).val = (y 0).val; omega
  | ⟨1, _⟩ => show win0_2.index t 1 * 128 + 1 * (y 1).val = (y 1).val; omega

/-- Input window 3 is its whole array at every point. -/
theorem iblk0_3_eq (c : Dev nD) (t : Fin cfg0.N) (y : S128x128.Idx) :
    (iblk0 V c 3 t : Vec Ideal S128x128 .f32) y = (V c (Pipeline.arrRef spec0 3) : S128x128.Idx → EReal) y := by
  have e0 : win0_3.index t (0 : Fin 2) = 0 := (idx_facts0 t).2.2.2.1.1
  have e1 : win0_3.index t (1 : Fin 2) = 0 := (idx_facts0 t).2.2.2.1.2
  unfold iblk0
  rw [View.read_apply]
  show V c (Pipeline.arrRef spec0 3) _ = _
  refine congrArg _ ?_
  funext a; apply Fin.ext
  match a with
  | ⟨0, _⟩ => show win0_3.index t 0 * 128 + 1 * (y 0).val = (y 0).val; omega
  | ⟨1, _⟩ => show win0_3.index t 1 * 128 + 1 * (y 1).val = (y 1).val; omega

/-- Input window 4 is its whole array at every point. -/
theorem iblk0_4_eq (c : Dev nD) (t : Fin cfg0.N) (y : S1x128.Idx) :
    (iblk0 V c 4 t : Vec Ideal S1x128 .f32) y = (V c (Pipeline.arrRef spec0 4) : S1x128.Idx → EReal) y := by
  have e0 : win0_4.index t (0 : Fin 2) = 0 := (idx_facts0 t).2.2.2.2.1.1
  have e1 : win0_4.index t (1 : Fin 2) = 0 := (idx_facts0 t).2.2.2.2.1.2
  unfold iblk0
  rw [View.read_apply]
  show V c (Pipeline.arrRef spec0 4) _ = _
  refine congrArg _ ?_
  funext a; apply Fin.ext
  match a with
  | ⟨0, _⟩ => show win0_4.index t 0 * 1 + 1 * (y 0).val = (y 0).val; omega
  | ⟨1, _⟩ => show win0_4.index t 1 * 128 + 1 * (y 1).val = (y 1).val; omega

/-- Input window 5 is its whole array at every point. -/
theorem iblk0_5_eq (c : Dev nD) (t : Fin cfg0.N) (y : S128x128.Idx) :
    (iblk0 V c 5 t : Vec Ideal S128x128 .f32) y = (V c (Pipeline.arrRef spec0 5) : S128x128.Idx → EReal) y := by
  have e0 : win0_5.index t (0 : Fin 2) = 0 := (idx_facts0 t).2.2.2.2.2.1.1
  have e1 : win0_5.index t (1 : Fin 2) = 0 := (idx_facts0 t).2.2.2.2.2.1.2
  unfold iblk0
  rw [View.read_apply]
  show V c (Pipeline.arrRef spec0 5) _ = _
  refine congrArg _ ?_
  funext a; apply Fin.ext
  match a with
  | ⟨0, _⟩ => show win0_5.index t 0 * 128 + 1 * (y 0).val = (y 0).val; omega
  | ⟨1, _⟩ => show win0_5.index t 1 * 128 + 1 * (y 1).val = (y 1).val; omega

/-- Input window 6 is its whole array at every point. -/
theorem iblk0_6_eq (c : Dev nD) (t : Fin cfg0.N) (y : S1x128.Idx) :
    (iblk0 V c 6 t : Vec Ideal S1x128 .f32) y = (V c (Pipeline.arrRef spec0 6) : S1x128.Idx → EReal) y := by
  have e0 : win0_6.index t (0 : Fin 2) = 0 := (idx_facts0 t).2.2.2.2.2.2.1.1
  have e1 : win0_6.index t (1 : Fin 2) = 0 := (idx_facts0 t).2.2.2.2.2.2.1.2
  unfold iblk0
  rw [View.read_apply]
  show V c (Pipeline.arrRef spec0 6) _ = _
  refine congrArg _ ?_
  funext a; apply Fin.ext
  match a with
  | ⟨0, _⟩ => show win0_6.index t 0 * 1 + 1 * (y 0).val = (y 0).val; omega
  | ⟨1, _⟩ => show win0_6.index t 1 * 128 + 1 * (y 1).val = (y 1).val; omega

/-- Input window 7 is its whole array at every point. -/
theorem iblk0_7_eq (c : Dev nD) (t : Fin cfg0.N) (y : S128x256.Idx) :
    (iblk0 V c 7 t : Vec Ideal S128x256 .f32) y = (V c (Pipeline.arrRef spec0 7) : S128x256.Idx → EReal) y := by
  have e0 : win0_7.index t (0 : Fin 2) = 0 := (idx_facts0 t).2.2.2.2.2.2.2.1.1
  have e1 : win0_7.index t (1 : Fin 2) = 0 := (idx_facts0 t).2.2.2.2.2.2.2.1.2
  unfold iblk0
  rw [View.read_apply]
  show V c (Pipeline.arrRef spec0 7) _ = _
  refine congrArg _ ?_
  funext a; apply Fin.ext
  match a with
  | ⟨0, _⟩ => show win0_7.index t 0 * 128 + 1 * (y 0).val = (y 0).val; omega
  | ⟨1, _⟩ => show win0_7.index t 1 * 256 + 1 * (y 1).val = (y 1).val; omega

/-- Input window 8 is its whole array at every point. -/
theorem iblk0_8_eq (c : Dev nD) (t : Fin cfg0.N) (y : S1x256.Idx) :
    (iblk0 V c 8 t : Vec Ideal S1x256 .f32) y = (V c (Pipeline.arrRef spec0 8) : S1x256.Idx → EReal) y := by
  have e0 : win0_8.index t (0 : Fin 2) = 0 := (idx_facts0 t).2.2.2.2.2.2.2.2.1.1
  have e1 : win0_8.index t (1 : Fin 2) = 0 := (idx_facts0 t).2.2.2.2.2.2.2.2.1.2
  unfold iblk0
  rw [View.read_apply]
  show V c (Pipeline.arrRef spec0 8) _ = _
  refine congrArg _ ?_
  funext a; apply Fin.ext
  match a with
  | ⟨0, _⟩ => show win0_8.index t 0 * 1 + 1 * (y 0).val = (y 0).val; omega
  | ⟨1, _⟩ => show win0_8.index t 1 * 256 + 1 * (y 1).val = (y 1).val; omega

end Cert.KernelIdeal.Hand

end
-- ==== Proof.Spec.lean ====
/-
  The mathematics both programs compute, stated once over the extended reals.

  A dense layer sends a matrix x (rows i, features k) to  (∑ₖ x i k · W k j) + b j ;  the two-layer network applies a
  dense layer, the positive part max(·, 0), and a second dense layer. The four matrix results of the programs are such
  networks: the first code is the network of the input, the first reconstruction the network of that code, and the same
  for the second auto-encoder. No law of the extended reals beyond commutativity and associativity of + is used to
  regroup the sums, so nothing here asks the entries to be finite.
-/
import Idealize.ShloMosaic.PureOps.Ideal
import Idealize.ShloMosaic.Lib.ValueIdx

noncomputable section

namespace Cert.Spec

open Idealize.ShloMosaic

/-- One dense layer at entry (i, j): the row-by-column sum plus the bias. -/
def dense {M K N : ℕ} (x : Fin M → Fin K → EReal) (W : Fin K → Fin N → EReal) (b : Fin N → EReal)
    (i : Fin M) (j : Fin N) : EReal :=
  (∑ k : Fin K, x i k * W k j) + b j

/-- The two-layer network at entry (i, j): dense, positive part, dense. -/
def mlp {M K H N : ℕ} (x : Fin M → Fin K → EReal) (W1 : Fin K → Fin H → EReal) (b1 : Fin H → EReal)
    (W2 : Fin H → Fin N → EReal) (b2 : Fin N → EReal) (i : Fin M) (j : Fin N) : EReal :=
  dense (fun i h => max (dense x W1 b1 i h) 0) W2 b2 i j

/-- The two-layer network as a whole array over literal shapes: entry (i, j) of the result from the operand arrays read at
    their entries. The bias operands are vectors. -/
def mlpArr {M K H N : ℕ} (x : (⟨2, ![M, K]⟩ : Shape).Idx → EReal) (W1 : (⟨2, ![K, H]⟩ : Shape).Idx → EReal)
    (b1 : (⟨1, ![H]⟩ : Shape).Idx → EReal) (W2 : (⟨2, ![H, N]⟩ : Shape).Idx → EReal) (b2 : (⟨1, ![N]⟩ : Shape).Idx → EReal) :
    (⟨2, ![M, N]⟩ : Shape).Idx → EReal :=
  fun j => mlp (fun i k => x (ValueIdx.ix2 i k)) (fun k h => W1 (ValueIdx.ix2 k h)) (fun h => b1 (ValueIdx.ix1 h))
    (fun h n => W2 (ValueIdx.ix2 h n)) (fun n => b2 (ValueIdx.ix1 n)) (j 0) (j 1)

theorem mlpArr_apply {M K H N : ℕ} (x : (⟨2, ![M, K]⟩ : Shape).Idx → EReal) (W1 : (⟨2, ![K, H]⟩ : Shape).Idx → EReal)
    (b1 : (⟨1, ![H]⟩ : Shape).Idx → EReal) (W2 : (⟨2, ![H, N]⟩ : Shape).Idx → EReal) (b2 : (⟨1, ![N]⟩ : Shape).Idx → EReal)
    (p : Fin M) (q : Fin N) :
    mlpArr x W1 b1 W2 b2 (ValueIdx.ix2 p q)
      = mlp (fun i k => x (ValueIdx.ix2 i k)) (fun k h => W1 (ValueIdx.ix2 k h)) (fun h => b1 (ValueIdx.ix1 h))
          (fun h n => W2 (ValueIdx.ix2 h n)) (fun n => b2 (ValueIdx.ix1 n)) p q := rfl

end Cert.Spec

end
-- ==== Proof.KI.Dense.lean ====
/-
  One dense layer and the two-layer network, as a kernel body computes them on whole blocks, read at an entry.

  A product of an [m, k] block by a [k, n] block accumulated into the zero block is, at entry (a, b), the sum over the
  contracted coordinate c of the products of the entries (a, c) and (c, b). Adding the one-row bias laid along every row gives
  the specification's dense layer at (a, b); composing two such layers around the positive part gives the two-layer network.
  Rounding an operand's format on the way into a product changes nothing at the ideal values.
-/
import proofs.«147646_j43310450213578_1_alg».proof.Proof.Spec
import Idealize.ShloMosaic.PureOps.Ideal.Laws
import Idealize.ShloMosaic.Lib.ValueIdx
import Idealize.ShloMosaic.Lib.ValueLayout

noncomputable section

namespace Cert.Dense

open Idealize.ShloMosaic Idealize.ShloMosaic.ValueIdx

/-- A product accumulated into the zero block, at entry (a, b): the sum over the contracted coordinate. -/
theorem matmul_zero_ix2 {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- One dense layer of a body: the product into zero plus the bias row laid along every row, at entry (a, b). -/
theorem dense_ix2 {m k n : ℕ} {φ₁ φ₂ : FTy}
    (w : DotDims.WF ⟨2, ![m, k]⟩ ⟨2, ![k, n]⟩ ⟨2, ![m, n]⟩ [1] [0] [0] [1] [] [])
    (prec : Option ContractPrecision) (hc : (⟨2, ![1, n]⟩ : Shape).ShapeCasts ⟨2, ![1, n]⟩)
    (hb : (⟨2, ![1, n]⟩ : Shape).Broadcasts ⟨2, ![m, n]⟩)
    (A : FVec Ideal ⟨2, ![m, k]⟩ φ₁) (B : FVec Ideal ⟨2, ![k, n]⟩ φ₂) (bias : FVec Ideal ⟨2, ![1, n]⟩ .f32)
    (a : Fin m) (b : Fin n) :
    addf (matmul (⟨[1], [0], [0], [1], [], [], w⟩ : DotDims ⟨2, ![m, k]⟩ ⟨2, ![k, n]⟩ ⟨2, ![m, n]⟩) prec A B
          (constant (F := Ideal) ⟨2, ![m, n]⟩ .f32 0x00000000#32))
        (broadcastTo ⟨2, ![m, n]⟩ (shapeCast ⟨2, ![1, n]⟩ bias hc) hb) (ix2 a b)
      = Cert.Spec.dense (fun i c => A (ix2 i c)) (fun c j => B (ix2 c j)) (fun j => bias (ix2 (0 : Fin 1) j)) a b := by
  rw [addf_apply, matmul_zero_ix2, broadcastTo_1b_ab_apply, shapeCast_self]
  rfl

/-- The positive part as a body spells it: the maximum with the splat of the zero word. -/
theorem relu_ix2 {m n : ℕ} (v : FVec Ideal ⟨2, ![m, n]⟩ .f32) (a : Fin m) (b : Fin n) :
    maximumf v (broadcast ⟨2, ![m, n]⟩ (Scalar.ofBits (F := Ideal) .f32 0x00000000#32)) (ix2 a b) = max (v (ix2 a b)) 0 := by
  rw [maximumf_apply, broadcast_apply]
  show max _ (Ideal.ofBits .f32 0x00000000#32) = _
  rw [Ideal.ofBits_zero_f32]

end Cert.Dense

end
-- ==== Proof.KI.Pay0.lean ====
/-
  What the first kernel's body stores, read at an entry.

  The code block at entry (p, q) is the two-layer network of the input block, the first two weight blocks and bias rows, at
  (p, q); the reconstruction block at (p, q) is the two-layer network of that code block with the last two weight blocks and
  bias rows. Both are instances of the dense-layer lemmas: the body is products into zero, bias rows laid along the rows, and
  the positive part.
-/
import proofs.«147646_j43310450213578_1_alg».proof.Proof.Gen.KernelIdeal.Skeleton
import proofs.«147646_j43310450213578_1_alg».proof.Proof.KI.Dense

noncomputable section

namespace Cert.KernelIdeal.Hand

open Cert.KernelIdeal Cert.KernelIdeal.Gen
open Idealize.ShloMosaic Idealize.ShloMosaic.ValueIdx

/-- The code block at entry (p, q): the two-layer network of the blocks the body loads. -/
theorem pay2_apply (x0 : Vec Ideal S2048x256 .f32) (x1 : Vec Ideal S256x128 .f32) (x2 : Vec Ideal S1x128 .f32)
    (x3 : Vec Ideal S128x128 .f32) (x4 : Vec Ideal S1x128 .f32) (p : Fin 2048) (q : Fin 128) :
    k0_pay2 x0 x1 x2 x3 x4 (ix2 p q)
      = Cert.Spec.mlp (fun i k => x0 (ix2 i k)) (fun k h => x1 (ix2 k h)) (fun h => x2 (ix2 (0 : Fin 1) h))
          (fun h n => x3 (ix2 h n)) (fun n => x4 (ix2 (0 : Fin 1) n)) p q := by
  unfold k0_pay2
  refine (Cert.Dense.dense_ix2 dot_S2048x128_S128x128_S2048x128_1_0_0_1_n_n_wf none shapeCasts_S1x128_S1x128
    broadcasts_S1x128_S2048x128 _ _ x4 p q).trans ?_
  unfold Cert.Spec.mlp
  refine congrArg (fun f => Cert.Spec.dense f (fun h n => x3 (ix2 h n)) (fun n => x4 (ix2 (0 : Fin 1) n)) p q) ?_
  funext i h
  rw [truncf_apply, Cert.Dense.relu_ix2]
  refine congrArg (fun z => max z 0) ?_
  exact Cert.Dense.dense_ix2 dot_S2048x256_S256x128_S2048x128_1_0_0_1_n_n_wf none shapeCasts_S1x128_S1x128
    broadcasts_S1x128_S2048x128 _ _ x2 i h

/-- The reconstruction block at entry (p, q): the two-layer network of the code block. -/
theorem pay13_apply (x0 : Vec Ideal S2048x256 .f32) (x1 : Vec Ideal S256x128 .f32) (x2 : Vec Ideal S1x128 .f32)
    (x3 : Vec Ideal S128x128 .f32) (x4 : Vec Ideal S1x128 .f32) (x5 : Vec Ideal S128x128 .f32) (x6 : Vec Ideal S1x128 .f32)
    (x7 : Vec Ideal S128x256 .f32) (x8 : Vec Ideal S1x256 .f32) (p : Fin 2048) (q : Fin 256) :
    k0_pay1 (k0_pay3 x0 x1 x2 x3 x4 x5 x6 x7) x8 (ix2 p q)
      = Cert.Spec.mlp
          (fun i k => Cert.Spec.mlp (fun i k => x0 (ix2 i k)) (fun k h => x1 (ix2 k h)) (fun h => x2 (ix2 (0 : Fin 1) h))
            (fun h n => x3 (ix2 h n)) (fun n => x4 (ix2 (0 : Fin 1) n)) i k)
          (fun k h => x5 (ix2 k h)) (fun h => x6 (ix2 (0 : Fin 1) h))
          (fun h n => x7 (ix2 h n)) (fun n => x8 (ix2 (0 : Fin 1) n)) p q := by
  unfold k0_pay1 k0_pay3
  refine (Cert.Dense.dense_ix2 dot_S2048x128_S128x256_S2048x256_1_0_0_1_n_n_wf none shapeCasts_S1x256_S1x256
    broadcasts_S1x256_S2048x256 _ _ x8 p q).trans ?_
  refine congrArg (fun f => Cert.Spec.dense f (fun h n => x7 (ix2 h n)) (fun n => x8 (ix2 (0 : Fin 1) n)) p q) ?_
  funext i h
  rw [truncf_apply, Cert.Dense.relu_ix2]
  refine congrArg (fun z => max z 0) ?_
  refine (Cert.Dense.dense_ix2 dot_S2048x128_S128x128_S2048x128_1_0_0_1_n_n_wf none shapeCasts_S1x128_S1x128
    broadcasts_S1x128_S2048x128 _ _ x6 i h).trans ?_
  refine congrArg (fun f => Cert.Spec.dense f (fun k h => x5 (ix2 k h)) (fun h => x6 (ix2 (0 : Fin 1) h)) i h) ?_
  funext a b
  rw [truncf_apply]
  exact pay2_apply x0 x1 x2 x3 x4 a b

end Cert.KernelIdeal.Hand

end
-- ==== Proof.KI.SpecCongr.lean ====
/-
  The dense layer and the two-layer network at an entry read only one row of the input, one column of the last weight matrix
  and one entry of the last bias: two networks whose operands agree there agree at the entry, whatever the extents the rows and
  columns are counted in. This is what lets a block of rows (and of columns) be computed from the blocks of the operands.
-/
import proofs.«147646_j43310450213578_1_alg».proof.Proof.Spec

noncomputable section

namespace Cert.Dense

open Cert.Spec

/-- A dense layer at (i, j) depends on row i of the input, column j of the weights and entry j of the bias only. -/
theorem dense_congr {M M' K N N' : ℕ} {x : Fin M → Fin K → EReal} {x' : Fin M' → Fin K → EReal}
    {W : Fin K → Fin N → EReal} {W' : Fin K → Fin N' → EReal} {b : Fin N → EReal} {b' : Fin N' → EReal}
    {i : Fin M} {i' : Fin M'} {j : Fin N} {j' : Fin N'}
    (hx : ∀ k, x i k = x' i' k) (hW : ∀ k, W k j = W' k j') (hb : b j = b' j') :
    dense x W b i j = dense x' W' b' i' j' := by
  unfold dense
  rw [hb]
  exact congrArg (· + b' j') (Finset.sum_congr rfl fun k _ => by rw [hx k, hW k])

/-- The two-layer network at (i, j) depends on row i of the input, the whole first layer, column j of the second weight
    matrix and entry j of the second bias only. -/
theorem mlp_congr {M M' K H N N' : ℕ} {x : Fin M → Fin K → EReal} {x' : Fin M' → Fin K → EReal}
    {W1 W1' : Fin K → Fin H → EReal} {b1 b1' : Fin H → EReal}
    {W2 : Fin H → Fin N → EReal} {W2' : Fin H → Fin N' → EReal} {b2 : Fin N → EReal} {b2' : Fin N' → EReal}
    {i : Fin M} {i' : Fin M'} {j : Fin N} {j' : Fin N'}
    (hx : ∀ k, x i k = x' i' k) (hW1 : ∀ k h, W1 k h = W1' k h) (hb1 : ∀ h, b1 h = b1' h)
    (hW2 : ∀ h, W2 h j = W2' h j') (hb2 : b2 j = b2' j') :
    mlp x W1 b1 W2 b2 i j = mlp x' W1' b1' W2' b2' i' j' := by
  unfold mlp
  refine dense_congr (fun h => ?_) hW2 hb2
  exact congrArg (fun z => max z 0) (dense_congr hx (fun k => hW1 k h) (hb1 h))

end Cert.Dense

end
-- ==== Proof.KI.Value0a.lean ====
/-
  The first result of the first kernel, as an array. What point t writes back is rows 2048·t … 2048·t + 2047 of ONE function
  of the arrays the region finds — the two-layer network of the input with the first two weight matrices and bias rows —
  because an entry of the network reads one row of the input only. The four row blocks fill the array, so the array ends
  holding that function.
-/
import proofs.«147646_j43310450213578_1_alg».proof.Proof.KI.Blocks0
import proofs.«147646_j43310450213578_1_alg».proof.Proof.KI.Pay0
import proofs.«147646_j43310450213578_1_alg».proof.Proof.KI.SpecCongr
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The first result as one function of the arrays the region finds: the two-layer network, entry by entry. -/
def G0_9 (c : Dev nD) : S8192x128.Idx → EReal := fun i =>
  Cert.Spec.mlp (fun i k => (V c (Pipeline.arrRef spec0 0) : S8192x256.Idx → EReal) (ix2 i k))
    (fun k h => (V c (Pipeline.arrRef spec0 1) : S256x128.Idx → EReal) (ix2 k h))
    (fun h => (V c (Pipeline.arrRef spec0 2) : S1x128.Idx → EReal) (ix2 0 h))
    (fun h n => (V c (Pipeline.arrRef spec0 3) : S128x128.Idx → EReal) (ix2 h n))
    (fun n => (V c (Pipeline.arrRef spec0 4) : S1x128.Idx → EReal) (ix2 0 n)) (i 0) (i 1)

/-- What point t writes back is block t of that function. -/
theorem flushed0_9_eq (c : Dev nD) (t : Fin cfg0.N) :
    (dat0 V c).flushed 9 t = ((cfg0.win 9).blk t).view.read (Elt Ideal) (G0_9 V c) := by
  show (cfg0.win 9).cut (grid0.coords t) ((dat0 V c).after 9 t) = _
  rw [after0_9]
  unfold out0_9
  rw [View.canon_unit_zero hz0]
  simp only [View.ld_unit_zero (S := S2048x256) hz0, View.ld_unit_zero (S := S256x128) hz0,
    View.ld_unit_zero (S := S1x128) hz0, View.ld_unit_zero (S := S128x128) hz0]
  have e0 : win0_9.index t (0 : Fin 2) = t.val := (idx_facts0 t).2.2.2.2.2.2.2.2.2.1.1
  have e1 : win0_9.index t (1 : Fin 2) = 0 := (idx_facts0 t).2.2.2.2.2.2.2.2.2.1.2
  refine funext fun (j : S2048x128.Idx) => ?_
  obtain ⟨p, q, rfl⟩ : ∃ (p : Fin 2048) (q : Fin 128), j = ix2 p q := ⟨j 0, j 1, eq_ix2 j⟩
  show k0_pay2 (iblk0 V c 0 t) (iblk0 V c 1 t) (iblk0 V c 2 t) (iblk0 V c 3 t) (iblk0 V c 4 t) (ix2 p q)
    = G0_9 V c (((cfg0.win 9).blk t).view.emb (ix2 p q))
  refine (pay2_apply _ _ _ _ _ p q).trans ?_
  unfold G0_9
  have r0 : ((((cfg0.win 9).blk t).view.emb (ix2 p q)) 0).val = 2048 * t.val + p.val := by
    show win0_9.index t 0 * 2048 + 1 * p.val = _; omega
  have r1 : ((((cfg0.win 9).blk t).view.emb (ix2 p q)) 1).val = q.val := by
    show win0_9.index t 1 * 128 + 1 * q.val = _; omega
  refine Cert.Dense.mlp_congr (fun k => ?_) (fun k h => ?_) (fun h => ?_) (fun h => ?_) ?_
  · exact iblk0_0_apply V c t _ _ r0 rfl
  · exact iblk0_1_eq V c t _
  · exact iblk0_2_eq V c t _
  · refine (iblk0_3_eq V c t _).trans (congrArg _ ?_)
    funext a; apply Fin.ext
    match a with
    | ⟨0, _⟩ => rfl
    | ⟨1, _⟩ => exact r1.symm
  · refine (iblk0_4_eq V c t _).trans (congrArg _ ?_)
    funext a; apply Fin.ext
    match a with
    | ⟨0, _⟩ => rfl
    | ⟨1, _⟩ => exact r1.symm

/-- An index of the array is in point t's block iff each coordinate is in the block's range on its axis. -/
theorem mem_blk0_9 (t : Fin cfg0.N) (i : S8192x128.Idx) :
    i ∈ ((cfg0.win 9).blk t).view.set ↔ ∀ a : Fin 2, win0_9.index t a * S2048x128.size a ≤ (i a).val ∧ (i a).val < win0_9.index t a * S2048x128.size a + S2048x128.size a := by
  show i ∈ ((View.whole main_v8_0).slice (win0_9.rect t)).set ↔ _
  rw [View.set_slice_whole, Rect.mem_set_unit]
  exact Iff.rfl

/-- Row r of the array is in the block of point r / 2048. -/
theorem blocks_cover0_9 (i : S8192x128.Idx) :
    ∃ t : Fin cfg0.N, (cfg0.win 9).flush t = true ∧ i ∈ ((cfg0.win 9).blk t).view.set := by
  have hi0 : (i 0).val < 8192 := (i 0).isLt
  have hi1 : (i 1).val < 128 := (i 1).isLt
  have hN : cfg0.N = 4 := N_0
  have ht : (i 0).val / 2048 < cfg0.N := by rw [hN]; omega
  have e0 : win0_9.index ⟨(i 0).val / 2048, ht⟩ (0 : Fin 2) = (i 0).val / 2048 := (idx_facts0 ⟨(i 0).val / 2048, ht⟩).2.2.2.2.2.2.2.2.2.1.1
  have e1 : win0_9.index ⟨(i 0).val / 2048, ht⟩ (1 : Fin 2) = 0 := (idx_facts0 ⟨(i 0).val / 2048, ht⟩).2.2.2.2.2.2.2.2.2.1.2
  refine ⟨⟨(i 0).val / 2048, ht⟩, flush0_9 _, ?_⟩
  rw [mem_blk0_9]
  intro a
  match a with
  | ⟨0, _⟩ =>
    show win0_9.index ⟨(i 0).val / 2048, ht⟩ (0 : Fin 2) * 2048 ≤ (i 0).val ∧ (i 0).val < win0_9.index ⟨(i 0).val / 2048, ht⟩ (0 : Fin 2) * 2048 + 2048
    rw [e0]; omega
  | ⟨1, _⟩ =>
    show win0_9.index ⟨(i 0).val / 2048, ht⟩ (1 : Fin 2) * 128 ≤ (i 1).val ∧ (i 1).val < win0_9.index ⟨(i 0).val / 2048, ht⟩ (1 : Fin 2) * 128 + 128
    rw [e1]; omega

/-- The first result array after the run is that function. -/
theorem arr0_9 (c : Dev nD) : (dat0 V c).arrAt 9 cfg0.N = G0_9 V c :=
  (dat0 V c).arrAt_eq_of_cover 9 (G0_9 V c) (fun t _ => flushed0_9_eq V c t) blocks_cover0_9

/-- Entry (p, q) of the first result after the run: the two-layer network of the input at (p, q). -/
theorem final0_9 (c : Dev nD) (p : Fin 8192) (q : Fin 128) :
    (dat0 V c).arrAt 9 cfg0.N (ValueIdx.ix2 p q)
      = Cert.Spec.mlp (fun i k => V c (Pipeline.arrRef spec0 0) (ValueIdx.ix2 i k))
          (fun k h => V c (Pipeline.arrRef spec0 1) (ValueIdx.ix2 k h))
          (fun h => V c (Pipeline.arrRef spec0 2) (ValueIdx.ix2 0 h))
          (fun h n => V c (Pipeline.arrRef spec0 3) (ValueIdx.ix2 h n))
          (fun n => V c (Pipeline.arrRef spec0 4) (ValueIdx.ix2 0 n)) p q := by
  rw [arr0_9]
  rfl

end Cert.KernelIdeal.Hand

end
-- ==== Proof.KI.Value0b.lean ====
/-
  The second result of the first kernel, as an array. What point t writes back is rows 2048·t … 2048·t + 2047 of ONE function
  of the arrays the region finds — the two-layer network, with the last two weight matrices and bias rows, of the two-layer
  network of the input — because an entry of either network reads one row of its input only. The four row blocks fill the
  array, so the array ends holding that function.
-/
import proofs.«147646_j43310450213578_1_alg».proof.Proof.KI.Blocks0
import proofs.«147646_j43310450213578_1_alg».proof.Proof.KI.Pay0
import proofs.«147646_j43310450213578_1_alg».proof.Proof.KI.SpecCongr
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The second result as one function of the arrays the region finds: the network of the network, entry by entry. -/
def G0_10 (c : Dev nD) : S8192x256.Idx → EReal := fun i =>
  Cert.Spec.mlp
    (fun i k => Cert.Spec.mlp (fun i k => (V c (Pipeline.arrRef spec0 0) : S8192x256.Idx → EReal) (ix2 i k))
      (fun k h => (V c (Pipeline.arrRef spec0 1) : S256x128.Idx → EReal) (ix2 k h))
      (fun h => (V c (Pipeline.arrRef spec0 2) : S1x128.Idx → EReal) (ix2 0 h))
      (fun h n => (V c (Pipeline.arrRef spec0 3) : S128x128.Idx → EReal) (ix2 h n))
      (fun n => (V c (Pipeline.arrRef spec0 4) : S1x128.Idx → EReal) (ix2 0 n)) i k)
    (fun k h => (V c (Pipeline.arrRef spec0 5) : S128x128.Idx → EReal) (ix2 k h))
    (fun h => (V c (Pipeline.arrRef spec0 6) : S1x128.Idx → EReal) (ix2 0 h))
    (fun h n => (V c (Pipeline.arrRef spec0 7) : S128x256.Idx → EReal) (ix2 h n))
    (fun n => (V c (Pipeline.arrRef spec0 8) : S1x256.Idx → EReal) (ix2 0 n)) (i 0) (i 1)

/-- What point t writes back is block t of that function. -/
theorem flushed0_10_eq (c : Dev nD) (t : Fin cfg0.N) :
    (dat0 V c).flushed 10 t = ((cfg0.win 10).blk t).view.read (Elt Ideal) (G0_10 V c) := by
  show (cfg0.win 10).cut (grid0.coords t) ((dat0 V c).after 10 t) = _
  rw [after0_10]
  unfold out0_10
  rw [View.canon_unit_zero hz0]
  simp only [View.ld_unit_zero (S := S2048x256) hz0, View.ld_unit_zero (S := S256x128) hz0,
    View.ld_unit_zero (S := S1x128) hz0, View.ld_unit_zero (S := S128x128) hz0,
    View.ld_unit_zero (S := S128x256) hz0, View.ld_unit_zero (S := S1x256) hz0]
  have e0 : win0_10.index t (0 : Fin 2) = t.val := (idx_facts0 t).2.2.2.2.2.2.2.2.2.2.1
  have e1 : win0_10.index t (1 : Fin 2) = 0 := (idx_facts0 t).2.2.2.2.2.2.2.2.2.2.2
  refine funext fun (j : S2048x256.Idx) => ?_
  obtain ⟨p, q, rfl⟩ : ∃ (p : Fin 2048) (q : Fin 256), j = ix2 p q := ⟨j 0, j 1, eq_ix2 j⟩
  show k0_pay1 (k0_pay3 (iblk0 V c 0 t) (iblk0 V c 1 t) (iblk0 V c 2 t) (iblk0 V c 3 t) (iblk0 V c 4 t) (iblk0 V c 5 t)
      (iblk0 V c 6 t) (iblk0 V c 7 t)) (iblk0 V c 8 t) (ix2 p q)
    = G0_10 V c (((cfg0.win 10).blk t).view.emb (ix2 p q))
  refine (pay13_apply _ _ _ _ _ _ _ _ _ p q).trans ?_
  unfold G0_10
  have r0 : ((((cfg0.win 10).blk t).view.emb (ix2 p q)) 0).val = 2048 * t.val + p.val := by
    show win0_10.index t 0 * 2048 + 1 * p.val = _; omega
  have r1 : ((((cfg0.win 10).blk t).view.emb (ix2 p q)) 1).val = q.val := by
    show win0_10.index t 1 * 256 + 1 * q.val = _; omega
  refine Cert.Dense.mlp_congr (fun k => ?_) (fun k h => ?_) (fun h => ?_) (fun h => ?_) ?_
  · exact Cert.Dense.mlp_congr (fun k' => iblk0_0_apply V c t _ _ r0 rfl) (fun k' h => iblk0_1_eq V c t _)
      (fun h => iblk0_2_eq V c t _) (fun h => iblk0_3_eq V c t _) (iblk0_4_eq V c t _)
  · exact iblk0_5_eq V c t _
  · exact iblk0_6_eq V c t _
  · refine (iblk0_7_eq V c t _).trans (congrArg (V c (Pipeline.arrRef spec0 7) : S128x256.Idx → EReal) ?_)
    funext a; apply Fin.ext
    match a with
    | ⟨0, _⟩ => rfl
    | ⟨1, _⟩ => exact r1.symm
  · refine (iblk0_8_eq V c t _).trans (congrArg (V c (Pipeline.arrRef spec0 8) : S1x256.Idx → EReal) ?_)
    funext a; apply Fin.ext
    match a with
    | ⟨0, _⟩ => rfl
    | ⟨1, _⟩ => exact r1.symm

/-- An index of the array is in point t's block iff each coordinate is in the block's range on its axis. -/
theorem mem_blk0_10 (t : Fin cfg0.N) (i : S8192x256.Idx) :
    i ∈ ((cfg0.win 10).blk t).view.set ↔ ∀ a : Fin 2, win0_10.index t a * S2048x256.size a ≤ (i a).val ∧ (i a).val < win0_10.index t a * S2048x256.size a + S2048x256.size a := by
  show i ∈ ((View.whole main_v8_1).slice (win0_10.rect t)).set ↔ _
  rw [View.set_slice_whole, Rect.mem_set_unit]
  exact Iff.rfl

/-- Row r of the array is in the block of point r / 2048. -/
theorem blocks_cover0_10 (i : S8192x256.Idx) :
    ∃ t : Fin cfg0.N, (cfg0.win 10).flush t = true ∧ i ∈ ((cfg0.win 10).blk t).view.set := by
  have hi0 : (i 0).val < 8192 := (i 0).isLt
  have hi1 : (i 1).val < 256 := (i 1).isLt
  have hN : cfg0.N = 4 := N_0
  have ht : (i 0).val / 2048 < cfg0.N := by rw [hN]; omega
  have e0 : win0_10.index ⟨(i 0).val / 2048, ht⟩ (0 : Fin 2) = (i 0).val / 2048 := (idx_facts0 ⟨(i 0).val / 2048, ht⟩).2.2.2.2.2.2.2.2.2.2.1
  have e1 : win0_10.index ⟨(i 0).val / 2048, ht⟩ (1 : Fin 2) = 0 := (idx_facts0 ⟨(i 0).val / 2048, ht⟩).2.2.2.2.2.2.2.2.2.2.2
  refine ⟨⟨(i 0).val / 2048, ht⟩, flush0_10 _, ?_⟩
  rw [mem_blk0_10]
  intro a
  match a with
  | ⟨0, _⟩ =>
    show win0_10.index ⟨(i 0).val / 2048, ht⟩ (0 : Fin 2) * 2048 ≤ (i 0).val ∧ (i 0).val < win0_10.index ⟨(i 0).val / 2048, ht⟩ (0 : Fin 2) * 2048 + 2048
    rw [e0]; omega
  | ⟨1, _⟩ =>
    show win0_10.index ⟨(i 0).val / 2048, ht⟩ (1 : Fin 2) * 256 ≤ (i 1).val ∧ (i 1).val < win0_10.index ⟨(i 0).val / 2048, ht⟩ (1 : Fin 2) * 256 + 256
    rw [e1]; omega

/-- The second result array after the run is that function. -/
theorem arr0_10 (c : Dev nD) : (dat0 V c).arrAt 10 cfg0.N = G0_10 V c :=
  (dat0 V c).arrAt_eq_of_cover 10 (G0_10 V c) (fun t _ => flushed0_10_eq V c t) blocks_cover0_10

/-- Entry (p, q) of the second result after the run: the second two-layer network of the first, at (p, q). -/
theorem final0_10 (c : Dev nD) (p : Fin 8192) (q : Fin 256) :
    (dat0 V c).arrAt 10 cfg0.N (ValueIdx.ix2 p q)
      = Cert.Spec.mlp
          (fun i k => Cert.Spec.mlp (fun i k => V c (Pipeline.arrRef spec0 0) (ValueIdx.ix2 i k))
            (fun k h => V c (Pipeline.arrRef spec0 1) (ValueIdx.ix2 k h))
            (fun h => V c (Pipeline.arrRef spec0 2) (ValueIdx.ix2 0 h))
            (fun h n => V c (Pipeline.arrRef spec0 3) (ValueIdx.ix2 h n))
            (fun n => V c (Pipeline.arrRef spec0 4) (ValueIdx.ix2 0 n)) i k)
          (fun k h => V c (Pipeline.arrRef spec0 5) (ValueIdx.ix2 k h))
          (fun h => V c (Pipeline.arrRef spec0 6) (ValueIdx.ix2 0 h))
          (fun h n => V c (Pipeline.arrRef spec0 7) (ValueIdx.ix2 h n))
          (fun n => V c (Pipeline.arrRef spec0 8) (ValueIdx.ix2 0 n)) p q := by
  rw [arr0_10]
  rfl

end Cert.KernelIdeal.Hand

end
-- ==== Proof.KI.Results0.lean ====
/-
  The first auto-encoder's two results, read off the last boundary of the run as the specification's networks of the launch
  arrays. The code array is written by the first kernel region only and the reconstruction likewise; what that region leaves
  in them is the two-layer network of the arrays it finds; and those are the launch arrays — a weight matrix untouched by the
  host operations before the region, a bias row the host's reshape of the launch bias vector to one row.
-/
import proofs.«147646_j43310450213578_1_alg».proof.Proof.KI.Frame
import proofs.«147646_j43310450213578_1_alg».proof.Proof.KI.Value0a
import proofs.«147646_j43310450213578_1_alg».proof.Proof.KI.Value0b
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ)

/-! ## The bias rows the first region finds: the launch bias vectors, each as one row -/

theorem row_v4 (c : Dev nD) (h : Fin 128) :
    (W1 m c (Proc.devRef .tc main_v4) : S1x128.Idx → EReal) (ix2 (0 : Fin 1) h)
      = (m ((c : Thread nD τ).loc main_arg4) : S128.Idx → EReal) (ix1 h) := by
  have e : (W1 m c (Proc.devRef .tc main_v4) : S1x128.Idx → EReal)
      = shapeCast S1x128 (m ((c : Thread nD τ).loc main_arg4) : S128.Idx → EReal) shapeCasts_S128_S1x128 := by
    show StableHlo.after hostOps0 (fun b => m (c, b)) (Proc.devRef .tc main_v4) = _
    after_results; rfl
  rw [e, shapeCast_a_1a_apply]

theorem row_v5 (c : Dev nD) (h : Fin 128) :
    (W1 m c (Proc.devRef .tc main_v5) : S1x128.Idx → EReal) (ix2 (0 : Fin 1) h)
      = (m ((c : Thread nD τ).loc main_arg6) : S128.Idx → EReal) (ix1 h) := by
  have e : (W1 m c (Proc.devRef .tc main_v5) : S1x128.Idx → EReal)
      = shapeCast S1x128 (m ((c : Thread nD τ).loc main_arg6) : S128.Idx → EReal) shapeCasts_S128_S1x128 := by
    show StableHlo.after hostOps0 (fun b => m (c, b)) (Proc.devRef .tc main_v5) = _
    after_results; rfl
  rw [e, shapeCast_a_1a_apply]

theorem row_v6 (c : Dev nD) (h : Fin 128) :
    (W1 m c (Proc.devRef .tc main_v6) : S1x128.Idx → EReal) (ix2 (0 : Fin 1) h)
      = (m ((c : Thread nD τ).loc main_arg8) : S128.Idx → EReal) (ix1 h) := by
  have e : (W1 m c (Proc.devRef .tc main_v6) : S1x128.Idx → EReal)
      = shapeCast S1x128 (m ((c : Thread nD τ).loc main_arg8) : S128.Idx → EReal) shapeCasts_S128_S1x128 := by
    show StableHlo.after hostOps0 (fun b => m (c, b)) (Proc.devRef .tc main_v6) = _
    after_results; rfl
  rw [e, shapeCast_a_1a_apply]

theorem row_v7 (c : Dev nD) (h : Fin 256) :
    (W1 m c (Proc.devRef .tc main_v7) : S1x256.Idx → EReal) (ix2 (0 : Fin 1) h)
      = (m ((c : Thread nD τ).loc main_arg10) : S256.Idx → EReal) (ix1 h) := by
  have e : (W1 m c (Proc.devRef .tc main_v7) : S1x256.Idx → EReal)
      = shapeCast S1x256 (m ((c : Thread nD τ).loc main_arg10) : S256.Idx → EReal) shapeCasts_S256_S1x256 := by
    show StableHlo.after hostOps0 (fun b => m (c, b)) (Proc.devRef .tc main_v7) = _
    after_results; rfl
  rw [e, shapeCast_a_1a_apply]

/-! ## The two results at the last boundary are what the first region left -/

theorem back_v8_0 (c : Dev nD) : W10 m c (Proc.devRef .tc main_v8_0) = G0_9 (E1 m) c := by
  rw [W10_keep m c main_v8_0 (by decide), W9_keep m c main_v8_0 (by decide), W8_keep m c main_v8_0 (by decide),
    W7_keep m c main_v8_0 (by decide), W6_keep m c main_v8_0 (by decide), W5_keep m c main_v8_0 (by decide),
    W4_keep m c main_v8_0 (by decide), W3_keep m c main_v8_0 (by decide)]
  exact (W2_arr m c 9).trans (arr0_9 (E1 m) c)

theorem back_v8_1 (c : Dev nD) : W10 m c (Proc.devRef .tc main_v8_1) = G0_10 (E1 m) c := by
  rw [W10_keep m c main_v8_1 (by decide), W9_keep m c main_v8_1 (by decide), W8_keep m c main_v8_1 (by decide),
    W7_keep m c main_v8_1 (by decide), W6_keep m c main_v8_1 (by decide), W5_keep m c main_v8_1 (by decide),
    W4_keep m c main_v8_1 (by decide), W3_keep m c main_v8_1 (by decide)]
  exact (W2_arr m c 10).trans (arr0_10 (E1 m) c)

/-- Entry (p, k) of the first network of the arrays the region finds is the network of the launch arrays there. -/
theorem enc_entry (c : Dev nD) (p : Fin 8192) (k : Fin 128) :
    Cert.Spec.mlp (fun i k => (E1 m c (Pipeline.arrRef spec0 0) : S8192x256.Idx → EReal) (ix2 i k))
        (fun k h => (E1 m c (Pipeline.arrRef spec0 1) : S256x128.Idx → EReal) (ix2 k h))
        (fun h => (E1 m c (Pipeline.arrRef spec0 2) : S1x128.Idx → EReal) (ix2 0 h))
        (fun h n => (E1 m c (Pipeline.arrRef spec0 3) : S128x128.Idx → EReal) (ix2 h n))
        (fun n => (E1 m c (Pipeline.arrRef spec0 4) : S1x128.Idx → EReal) (ix2 0 n)) p k
      = Cert.Spec.mlp (fun i k => (m ((c : Thread nD τ).loc main_arg0) : S8192x256.Idx → EReal) (ix2 i k))
        (fun k h => (m ((c : Thread nD τ).loc main_arg3) : S256x128.Idx → EReal) (ix2 k h))
        (fun h => (m ((c : Thread nD τ).loc main_arg4) : S128.Idx → EReal) (ix1 h))
        (fun h n => (m ((c : Thread nD τ).loc main_arg5) : S128x128.Idx → EReal) (ix2 h n))
        (fun n => (m ((c : Thread nD τ).loc main_arg6) : S128.Idx → EReal) (ix1 n)) p k :=
  Cert.Dense.mlp_congr (fun k => congrFun (W1_keep m c main_arg0 (by decide)) _)
    (fun k h => congrFun (W1_keep m c main_arg3 (by decide)) _) (fun h => row_v4 m c h)
    (fun h => congrFun (W1_keep m c main_arg5 (by decide)) _) (row_v5 m c k)

/-- The code array at the end of the run: the two-layer network of the launch input. -/
theorem res_h_a (c : Dev nD) :
    W10 m c (Proc.devRef .tc main_v8_0)
      = Cert.Spec.mlpArr (m ((c : Thread nD τ).loc main_arg0)) (m ((c : Thread nD τ).loc main_arg3))
          (m ((c : Thread nD τ).loc main_arg4)) (m ((c : Thread nD τ).loc main_arg5)) (m ((c : Thread nD τ).loc main_arg6)) := by
  rw [back_v8_0]
  refine funext fun (i : S8192x128.Idx) => ?_
  obtain ⟨p, q, rfl⟩ : ∃ (p : Fin 8192) (q : Fin 128), i = ix2 p q := ⟨i 0, i 1, eq_ix2 i⟩
  rw [Cert.Spec.mlpArr_apply]
  exact enc_entry m c p q

/-- The reconstruction at the end of the run: the second two-layer network of the code. -/
theorem res_x_ (c : Dev nD) :
    W10 m c (Proc.devRef .tc main_v8_1)
      = Cert.Spec.mlpArr
          (Cert.Spec.mlpArr (m ((c : Thread nD τ).loc main_arg0)) (m ((c : Thread nD τ).loc main_arg3))
            (m ((c : Thread nD τ).loc main_arg4)) (m ((c : Thread nD τ).loc main_arg5)) (m ((c : Thread nD τ).loc main_arg6)))
          (m ((c : Thread nD τ).loc main_arg7)) (m ((c : Thread nD τ).loc main_arg8))
          (m ((c : Thread nD τ).loc main_arg9)) (m ((c : Thread nD τ).loc main_arg10)) := by
  rw [back_v8_1]
  refine funext fun (i : S8192x256.Idx) => ?_
  obtain ⟨p, q, rfl⟩ : ∃ (p : Fin 8192) (q : Fin 256), i = ix2 p q := ⟨i 0, i 1, eq_ix2 i⟩
  rw [Cert.Spec.mlpArr_apply]
  exact Cert.Dense.mlp_congr (fun k => (enc_entry m c p k).trans (Cert.Spec.mlpArr_apply _ _ _ _ _ p k).symm)
    (fun k h => congrFun (W1_keep m c main_arg7 (by decide)) _) (fun h => row_v6 m c h)
    (fun h => congrFun (W1_keep m c main_arg9 (by decide)) _) (row_v7 m c q)

end Cert.KernelIdeal.Hand

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.KI.Value1a.lean ====
/-
  The three pure values of the second kernel's body, read at one entry, on the extended reals: the cleared accumulator
  is 0; a step adds to the accumulator's entry (p, q) the product of row p of the input block with column q of the weight
  block over the block's 2048 positions; the final value at (p, q) is the second dense layer applied to the positive part of
  accumulator-plus-bias. Narrowing to the 16-bit format is the identity here.
-/
import proofs.«147646_j43310450213578_1_alg».proof.Proof.Gen.KernelIdeal.Skeleton
import proofs.«147646_j43310450213578_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

theorem dot1_first : (dot_S1024x2048_S2048x128_S1024x128_1_0_0_1_n_n : DotDims S1024x2048 S2048x128 S1024x128) = DotDims.plain 1024 2048 128 := rfl
theorem dot1_second : (dot_S1024x128_S128x128_S1024x128_1_0_0_1_n_n : DotDims S1024x128 S128x128 S1024x128) = DotDims.plain 1024 128 128 := rfl

/-- The cleared accumulator holds 0 everywhere. -/
theorem acc_clear_apply (j : S1024x128.Idx) : k1_pay1 (F := Ideal) j = 0 := by
  unfold k1_pay1
  rw [shapeCast_self]
  exact Ideal.ofBits_zero_f32

/-- One accumulation step at an entry. -/
theorem acc_step_apply (v3 : Vec Ideal S1024x2048 .f32) (v5 : Vec Ideal S2048x128 .f32) (v7 : Vec Ideal S1024x128 .f32)
    (p : Fin 1024) (q : Fin 128) :
    k1_pay2 v3 v5 v7 (ix2 p q) = v7 (ix2 p q) + ∑ k : Fin 2048, v3 (ix2 p k) * v5 (ix2 k q) := by
  unfold k1_pay2
  rw [shapeCast_self, addf_apply, dot1_first]
  exact congrArg (v7 (ix2 p q) + ·) (PlainMatmul.matmul_zero_apply none _ _ p q)

/-- The second layer at an entry, from the finished accumulator. -/
theorem second_layer_apply (v16 : Vec Ideal S1024x128 .f32) (v17 : Vec Ideal S1x128 .f32) (v23 : Vec Ideal S128x128 .f32)
    (v27 : Vec Ideal S1x128 .f32) (p : Fin 1024) (q : Fin 128) :
    k1_pay3 v16 v17 v23 v27 (ix2 p q)
      = (∑ h : Fin 128, max (v16 (ix2 p h) + v17 (ix2 (0 : Fin 1) h)) 0 * v23 (ix2 h q)) + v27 (ix2 (0 : Fin 1) q) := by
  unfold k1_pay3
  rw [addf_apply, dot1_second]
  refine congrArg₂ (· + ·) ((PlainMatmul.matmul_zero_apply none _ _ p q).trans (Finset.sum_congr rfl fun h _ => ?_)) ?_
  · show max (v16 (ix2 p h) + broadcastTo S1024x128 (shapeCast S1x128 v17 shapeCasts_S1x128_S1x128) broadcasts_S1x128_S1024x128 (ix2 p h))
        (Ideal.ofBits .f32 0x00000000#32) * v23 (ix2 h q) = _
    rw [broadcastTo_1b_ab_apply, shapeCast_self, Ideal.ofBits_zero_f32]
  · rw [broadcastTo_1b_ab_apply, shapeCast_self]

end Cert.KernelIdeal.Hand

end
-- ==== Proof.LibBlockDot.lean ====
/-
  A row-by-column product over the extended reals, cut into consecutive chunks of the contracted axis.

  `at2 A r k` is entry (r, k) of a rank-2 array, extended by 0 outside the array, so that rows, columns and the
  contracted position can be plain natural numbers (block offset plus position inside the block) with no bound
  carried in the index. `pdot X W r q n` is the product of row `r` of `X` with column `q` of `W` over the first `n`
  positions of the contracted axis; adding the next `l` positions is adding their chunk (`pdot_add`): the only
  law used is that a finite sum over a range splits at a point, which needs no finiteness of the terms.
-/
import Idealize.ShloMosaic.PureOps.Ideal
import Idealize.ShloMosaic.Lib.ValueIdx

noncomputable section

namespace Cert.BlockDot

open Idealize.ShloMosaic Idealize.ShloMosaic.ValueIdx

/-- Entry (r, k) of a rank-2 array of extended reals, 0 outside its extents. -/
def at2 {a b : ℕ} (A : (⟨2, ![a, b]⟩ : Shape).Idx → EReal) (r k : ℕ) : EReal :=
  if h : r < a ∧ k < b then A (ix2 ⟨r, h.1⟩ ⟨k, h.2⟩) else 0

/-- At an index of the array, read through its two coordinates' values, it is the array's entry. -/
theorem at2_of_val {a b : ℕ} (A : (⟨2, ![a, b]⟩ : Shape).Idx → EReal) (j : (⟨2, ![a, b]⟩ : Shape).Idx) {r k : ℕ}
    (h0 : (j 0).val = r) (h1 : (j 1).val = k) : at2 A r k = A j := by
  subst h0 h1
  unfold at2
  rw [dif_pos ⟨(j 0).isLt, (j 1).isLt⟩]
  exact congrArg A (eq_ix2 j).symm

/-- Row `r` of `X` times column `q` of `W` over the first `n` positions of the contracted axis. -/
def pdot {a b c : ℕ} (X : (⟨2, ![a, b]⟩ : Shape).Idx → EReal) (W : (⟨2, ![b, c]⟩ : Shape).Idx → EReal)
    (r q n : ℕ) : EReal :=
  ∑ k ∈ Finset.range n, at2 X r k * at2 W k q

theorem pdot_zero {a b c : ℕ} (X : (⟨2, ![a, b]⟩ : Shape).Idx → EReal) (W : (⟨2, ![b, c]⟩ : Shape).Idx → EReal)
    (r q : ℕ) : pdot X W r q 0 = 0 :=
  Finset.sum_range_zero _

/-- The next `l` positions add their chunk. -/
theorem pdot_add {a b c : ℕ} (X : (⟨2, ![a, b]⟩ : Shape).Idx → EReal) (W : (⟨2, ![b, c]⟩ : Shape).Idx → EReal)
    (r q n l : ℕ) :
    pdot X W r q (n + l) = pdot X W r q n + ∑ k ∈ Finset.range l, at2 X r (n + k) * at2 W (n + k) q :=
  Finset.sum_range_add _ n l

/-- A chunk summed over `Fin l` is the same chunk summed over the range. -/
theorem chunk_fin {a b c : ℕ} (X : (⟨2, ![a, b]⟩ : Shape).Idx → EReal) (W : (⟨2, ![b, c]⟩ : Shape).Idx → EReal)
    (r q n l : ℕ) :
    ∑ k : Fin l, at2 X r (n + k.val) * at2 W (n + k.val) q = ∑ k ∈ Finset.range l, at2 X r (n + k) * at2 W (n + k) q :=
  Fin.sum_univ_eq_sum_range (fun k => at2 X r (n + k) * at2 W (n + k) q) l

end Cert.BlockDot

end
-- ==== Proof.KI.Value1b.lean ====
/-
  The second kernel region's arrays, read entry by entry. The grid point t = 4·i + k reads block (i, k) of the input
  (rows 1024·i…, columns 2048·k…) and row block k of the first weight matrix; the accumulator after point t holds, at
  entry (p, q), the product of row 1024·i + p of the input with column q of the weights over the first 2048·(k+1)
  positions: each step adds the next 2048 positions, a range sum split at a point. At k = 3 all 8192 positions are in,
  and the result's block i is the second dense layer of the positive part of that sum plus the bias. The eight blocks
  tile the result's rows.
-/
import proofs.«147646_j43310450213578_1_alg».proof.Proof.KI.Region1
import proofs.«147646_j43310450213578_1_alg».proof.Proof.KI.Value1a
import proofs.«147646_j43310450213578_1_alg».proof.Proof.LibBlockDot
import proofs.«147646_j43310450213578_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open Cert.BlockDot

variable (V : (c : Dev nD) → (b : Ref sig .tc) → Buf (Elt Ideal) ((c : Thread nD τ).loc b))

/-! ## The region's five operand arrays -/

abbrev opS (c : Dev nD) : S8192x8192.Idx → EReal := V c (Pipeline.arrRef spec1 0)
abbrev opW1 (c : Dev nD) : S8192x128.Idx → EReal := V c (Pipeline.arrRef spec1 1)
abbrev opB1 (c : Dev nD) : S1x128.Idx → EReal := V c (Pipeline.arrRef spec1 2)
abbrev opW2 (c : Dev nD) : S128x128.Idx → EReal := V c (Pipeline.arrRef spec1 3)
abbrev opB2 (c : Dev nD) : S1x128.Idx → EReal := V c (Pipeline.arrRef spec1 4)

/-! ## The printed index maps, decided over the grid -/

theorem idx1 : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val / 4 ∧ win1_5.index t (1 : Fin 2) = 0 :=
  (by decide +kernel : ∀ t : Fin grid1.N, _)

/-! ## The input blocks, entry by entry -/

/-- Entry (p, k) of the input's block at point t is entry (1024·(t/4) + p, 2048·(t%4) + k) of the input. -/
theorem blk1_0 (c : Dev nD) (t : Fin cfg1.N) (p : Fin 1024) (k : Fin 2048) :
    iblk1 V c 0 t (ix2 p k) = at2 (opS V c) (1024 * (t.val / 4) + p.val) (2048 * (t.val % 4) + k.val) := by
  obtain ⟨e0, e1, -⟩ := idx1 t
  show opS V c (((cfg1.win 0).blk t).view.emb (ix2 p k)) = _
  refine (at2_of_val (opS V c) _ ?_ ?_).symm
  · show win1_0.index t (0 : Fin 2) * 1024 + 1 * p.val = _; omega
  · show win1_0.index t (1 : Fin 2) * 2048 + 1 * k.val = _; omega

/-- Entry (k, q) of the first weights' block at point t is entry (2048·(t%4) + k, q) of the weights. -/
theorem blk1_1 (c : Dev nD) (t : Fin cfg1.N) (k : Fin 2048) (q : Fin 128) :
    iblk1 V c 1 t (ix2 k q) = at2 (opW1 V c) (2048 * (t.val % 4) + k.val) q.val := by
  obtain ⟨-, -, e0, e1, -⟩ := idx1 t
  show opW1 V c (((cfg1.win 1).blk t).view.emb (ix2 k q)) = _
  refine (at2_of_val (opW1 V c) _ ?_ ?_).symm
  · show win1_1.index t (0 : Fin 2) * 2048 + 1 * k.val = _; omega
  · show win1_1.index t (1 : Fin 2) * 128 + 1 * q.val = _; omega

/-- The bias rows and the second weights are whole-array windows: their block is the array. -/
theorem blk1_2 (c : Dev nD) (t : Fin cfg1.N) (y : S1x128.Idx) : iblk1 V c 2 t y = opB1 V c y := by
  obtain ⟨-, -, -, -, e0, e1, -⟩ := idx1 t
  show opB1 V c (((cfg1.win 2).blk t).view.emb y) = _
  refine congrArg (opB1 V c) (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega
theorem blk1_3 (c : Dev nD) (t : Fin cfg1.N) (y : S128x128.Idx) : iblk1 V c 3 t y = opW2 V c y := by
  obtain ⟨-, -, -, -, -, -, e0, e1, -⟩ := idx1 t
  show opW2 V c (((cfg1.win 3).blk t).view.emb y) = _
  refine congrArg (opW2 V c) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega
theorem blk1_4 (c : Dev nD) (t : Fin cfg1.N) (y : S1x128.Idx) : iblk1 V c 4 t y = opB2 V c y := by
  obtain ⟨-, -, -, -, -, -, -, -, e0, e1, -⟩ := idx1 t
  show opB2 V c (((cfg1.win 4).blk t).view.emb y) = _
  refine congrArg (opB2 V c) (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-! ## The accumulator is a partial row-by-column product -/

theorem hz2' : (![0, 0] : Fin 2 → Nat) = fun _ => 0 := zero2

/-- One step's chunk, over the block's 2048 positions, as a range sum of the whole arrays' entries. -/
theorem chunk1 (c : Dev nD) (t : Fin cfg1.N) (p : Fin 1024) (q : Fin 128)
    (x0 : Vec Ideal S1024x2048 .f32) (x1 : Vec Ideal S2048x128 .f32) (h0 : x0 = iblk1 V c 0 t) (h1 : x1 = iblk1 V c 1 t) :
    ∑ k : Fin 2048, x0 (ix2 p k) * x1 (ix2 k q)
      = ∑ k ∈ Finset.range 2048, at2 (opS V c) (1024 * (t.val / 4) + p.val) (2048 * (t.val % 4) + k)
          * at2 (opW1 V c) (2048 * (t.val % 4) + k) q.val := by
  subst h0 h1
  rw [← chunk_fin (opS V c) (opW1 V c) (1024 * (t.val / 4) + p.val) q.val (2048 * (t.val % 4)) 2048]
  exact Finset.sum_congr rfl fun k _ => by rw [blk1_0, blk1_1]

/-- After point n the accumulator's entry (p, q) is the product of row 1024·(n/4) + p of the input with column q of the first
    weights over the first 2048·(n%4 + 1) positions. -/
theorem accAt_eq (c : Dev nD) : ∀ (n : ℕ) (hn : n < cfg1.N) (p : Fin 1024) (q : Fin 128),
    accAt V c n hn (ix2 p q) = pdot (opS V c) (opW1 V c) (1024 * (n / 4) + p.val) q.val (2048 * (n % 4 + 1)) := by
  intro n
  induction n with
  | zero =>
    intro hn p q
    rw [accAt_first V c ⟨0, hn⟩ (Nat.zero_mod _)]
    unfold accA
    rw [acc_step_apply, View.ld_unit_zero (S := S1024x2048) hz2', View.ld_unit_zero (S := S2048x128) hz2', acc_clear_apply, zero_add,
      chunk1 V c ⟨0, hn⟩ p q _ _ rfl rfl]
    show _ = pdot (opS V c) (opW1 V c) (1024 * (0 / 4) + p.val) q.val (2048 * (0 % 4 + 1))
    rw [show 2048 * (0 % 4 + 1) = 0 + 2048 from rfl, pdot_add, pdot_zero, zero_add]
    rfl
  | succ n ih =>
    intro hn p q
    have hN : n + 1 < 32 := lt_of_lt_of_eq hn (show cfg1.N = 32 from N_1)
    by_cases h0 : (n + 1) % 4 = 0
    · rw [accAt_first V c ⟨n + 1, hn⟩ h0]
      unfold accA
      rw [acc_step_apply, View.ld_unit_zero (S := S1024x2048) hz2', View.ld_unit_zero (S := S2048x128) hz2', acc_clear_apply, zero_add,
        chunk1 V c ⟨n + 1, hn⟩ p q _ _ rfl rfl]
      show _ = pdot (opS V c) (opW1 V c) (1024 * ((n + 1) / 4) + p.val) q.val (2048 * ((n + 1) % 4 + 1))
      rw [h0, show 2048 * (0 + 1) = 0 + 2048 from rfl, pdot_add, pdot_zero, zero_add]
    · rw [accAt_next V c ⟨n + 1, hn⟩ h0]
      unfold accB
      rw [acc_step_apply, View.ld_unit_zero (S := S1024x2048) hz2', View.ld_unit_zero (S := S2048x128) hz2',
        View.ld_unit_zero (S := S1024x128) hz2', chunk1 V c ⟨n + 1, hn⟩ p q _ _ rfl rfl]
      show accAt V c n _ (ix2 p q) + _ = pdot (opS V c) (opW1 V c) (1024 * ((n + 1) / 4) + p.val) q.val (2048 * ((n + 1) % 4 + 1))
      rw [ih (Nat.lt_of_succ_lt hn) p q]
      have e1 : n / 4 = (n + 1) / 4 := by omega
      have e2 : n % 4 + 1 = (n + 1) % 4 := by omega
      rw [e1, e2, show 2048 * ((n + 1) % 4 + 1) = 2048 * ((n + 1) % 4) + 2048 from by omega, pdot_add]

/-- Over all 8192 positions the partial product is the row-by-column sum. -/
theorem pdot_full (c : Dev nD) (r : Fin 8192) (q : Fin 128) :
    pdot (opS V c) (opW1 V c) r.val q.val 8192 = ∑ k : Fin 8192, opS V c (ix2 r k) * opW1 V c (ix2 k q) := by
  unfold pdot
  rw [← Fin.sum_univ_eq_sum_range (fun k => at2 (opS V c) r.val k * at2 (opW1 V c) k q.val) 8192]
  exact Finset.sum_congr rfl fun k _ => by
    rw [at2_of_val (opS V c) (ix2 r k) rfl rfl, at2_of_val (opW1 V c) (ix2 k q) rfl rfl]

/-! ## The result array -/

/-- The two-layer network of the region's operand arrays, as a whole array. -/
def G1 (c : Dev nD) : S8192x128.Idx → EReal := fun i =>
  Cert.Spec.mlp (fun a k => opS V c (ix2 a k)) (fun k h => opW1 V c (ix2 k h)) (fun h => opB1 V c (ix2 (0 : Fin 1) h))
    (fun h n => opW2 V c (ix2 h n)) (fun n => opB2 V c (ix2 (0 : Fin 1) n)) (i 0) (i 1)

/-- What a last column block's point writes back is block t/4 of `G1`. -/
theorem flushed1_eq (c : Dev nD) (t : Fin cfg1.N) (h3 : t.val % 4 = 3) :
    (dat1 V c).flushed 5 t = ((cfg1.win 5).blk t).view.read (Elt Ideal) (G1 V c) := by
  have hN : t.val < 32 := lt_of_lt_of_eq t.isLt (show cfg1.N = 32 from N_1)
  obtain ⟨-, -, -, -, -, -, -, -, -, -, e0, e1⟩ := idx1 t
  show (cfg1.win 5).cut (grid1.coords t) ((dat1 V c).after 5 t) = _
  rw [after1_5]
  funext j
  obtain ⟨p, q, rfl⟩ : ∃ (p : Fin 1024) (q : Fin 128), j = ix2 p q := ⟨j 0, j 1, eq_ix2 j⟩
  show outC (iblk1 V c 2 t) (iblk1 V c 3 t) (iblk1 V c 4 t) (accAt V c t.val t.isLt) (ix2 p q)
    = G1 V c (((cfg1.win 5).blk t).view.emb (ix2 p q))
  unfold outC
  rw [second_layer_apply, View.ld_unit_zero (S := S1x128) hz2' _ (iblk1 V c 2 t), View.ld_unit_zero (S := S1x128) hz2' _ (iblk1 V c 4 t),
    View.ld_unit_zero (S := S128x128) hz2' _ (iblk1 V c 3 t)]
  have hr : 1024 * (t.val / 4) + p.val < 8192 := by have := p.isLt; omega
  have hemb : ((cfg1.win 5).blk t).view.emb (ix2 p q) = ix2 (⟨1024 * (t.val / 4) + p.val, hr⟩ : Fin 8192) q := by
    funext a; apply Fin.ext
    match a with
    | ⟨0, _⟩ => show win1_5.index t (0 : Fin 2) * 1024 + 1 * p.val = 1024 * (t.val / 4) + p.val; omega
    | ⟨1, _⟩ => show win1_5.index t (1 : Fin 2) * 128 + 1 * q.val = q.val; omega
  rw [hemb]
  unfold G1 Cert.Spec.mlp Cert.Spec.dense
  show _ = (∑ h : Fin 128, max ((∑ k : Fin 8192, opS V c (ix2 ⟨1024 * (t.val / 4) + p.val, hr⟩ k) * opW1 V c (ix2 k h)) + opB1 V c (ix2 (0 : Fin 1) h)) 0
      * opW2 V c (ix2 h q)) + opB2 V c (ix2 (0 : Fin 1) q)
  rw [blk1_4]
  refine congrArg (· + opB2 V c (ix2 (0 : Fin 1) q)) (Finset.sum_congr rfl fun h _ => ?_)
  rw [accAt_eq V c t.val t.isLt p h, blk1_2, blk1_3, h3, show 2048 * (3 + 1) = 8192 from rfl,
    pdot_full V c ⟨1024 * (t.val / 4) + p.val, hr⟩ h]

/-- An index of the result is in point t's block iff each coordinate is in the block's range. -/
theorem mem_blk1_5 (t : Fin cfg1.N) (i : S8192x128.Idx) :
    i ∈ ((cfg1.win 5).blk t).view.set ↔ ∀ a : Fin 2, win1_5.index t a * S1024x128.size a ≤ (i a).val ∧ (i a).val < win1_5.index t a * S1024x128.size a + S1024x128.size a := by
  show i ∈ ((View.whole main_v41).slice (win1_5.rect t)).set ↔ _
  rw [View.set_slice_whole, Rect.mem_set_unit]
  exact Iff.rfl

/-- Every row of the result lies in the block some last-column point writes back. -/
theorem cover1_5 (i : S8192x128.Idx) :
    ∃ t : Fin cfg1.N, (cfg1.win 5).flush t = true ∧ i ∈ ((cfg1.win 5).blk t).view.set := by
  have hi0 : (i 0).val < 8192 := (i 0).isLt
  have hi1 : (i 1).val < 128 := (i 1).isLt
  have hN : cfg1.N = 32 := N_1
  let t : Fin cfg1.N := ⟨4 * ((i 0).val / 1024) + 3, by rw [hN]; omega⟩
  obtain ⟨-, -, -, -, -, -, -, -, -, -, e0, e1⟩ := idx1 t
  have ht : t.val = 4 * ((i 0).val / 1024) + 3 := rfl
  refine ⟨t, (flush1_5 t).mpr (by rw [ht]; omega), ?_⟩
  rw [mem_blk1_5]
  intro a
  match a with
  | ⟨0, _⟩ => show win1_5.index t (0 : Fin 2) * 1024 ≤ (i 0).val ∧ (i 0).val < win1_5.index t (0 : Fin 2) * 1024 + 1024; omega
  | ⟨1, _⟩ => show win1_5.index t (1 : Fin 2) * 128 ≤ (i 1).val ∧ (i 1).val < win1_5.index t (1 : Fin 2) * 128 + 128; omega

/-- The result array after the region: the two-layer network of the operand arrays. -/
theorem final1_5 (c : Dev nD) : (dat1 V c).arrAt 5 cfg1.N = G1 V c :=
  (dat1 V c).arrAt_eq_of_cover 5 (G1 V c)
    (fun t hf => flushed1_eq V c t ((flush1_5 t).mp hf)) (cover1_5)

end Cert.KernelIdeal.Hand

end
-- ==== Proof.KI.Results1.lean ====
/-
  The second auto-encoder's code, read off the last boundary of the run as the specification's network of the launch arrays.
  The array is written by the second kernel region only; what that region leaves in it is the two-layer network of the arrays
  it finds; and those are the launch arrays — untouched by every earlier item, a bias row the host's reshape of the launch
  bias vector to one row.
-/
import proofs.«147646_j43310450213578_1_alg».proof.Proof.KI.Frame
import proofs.«147646_j43310450213578_1_alg».proof.Proof.KI.Value1b
import proofs.«147646_j43310450213578_1_alg».proof.Proof.KI.SpecCongr
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ)

/-! ## An argument array no earlier item writes is the launch array at the second region's entry -/

theorem W5_launch (c : Dev nD) (b : Ref sig .tc) (h0 : b ∉ hostOps0_W) (h1 : b ∉ hostOps1_W) (h11 : b ∉ hostOps1_1_W)
    (h12 : b ∉ hostOps1_2_W) (e0 : b ≠ main_v8_0) (e1 : b ≠ main_v8_1) :
    W5 m c (Proc.devRef .tc b) = m ((c : Thread nD τ).loc b) := by
  rw [W5_keep m c b h12, W4_keep m c b h11, W3_keep m c b h1, W2_keep m c b e0 e1, W1_keep m c b h0]

theorem W4_launch (c : Dev nD) (b : Ref sig .tc) (h0 : b ∉ hostOps0_W) (h1 : b ∉ hostOps1_W) (h11 : b ∉ hostOps1_1_W)
    (e0 : b ≠ main_v8_0) (e1 : b ≠ main_v8_1) :
    W4 m c (Proc.devRef .tc b) = m ((c : Thread nD τ).loc b) := by
  rw [W4_keep m c b h11, W3_keep m c b h1, W2_keep m c b e0 e1, W1_keep m c b h0]

/-! ## The bias rows the second region finds: the launch bias vectors, each as one row -/

/-- The host's two reshapes before the second region, over any contents. -/
theorem reshape_v39 (Wv : Valuation τ sig (Elt Ideal)) :
    (StableHlo.after hostOps1_2 Wv (Proc.devRef .tc main_v39) : S1x128.Idx → EReal)
      = shapeCast S1x128 (Wv (Proc.devRef .tc main_arg12) : S128.Idx → EReal) shapeCasts_S128_S1x128 := by
  after_results; rfl

theorem reshape_v40 (Wv : Valuation τ sig (Elt Ideal)) :
    (StableHlo.after hostOps1_2 Wv (Proc.devRef .tc main_v40) : S1x128.Idx → EReal)
      = shapeCast S1x128 (Wv (Proc.devRef .tc main_arg14) : S128.Idx → EReal) shapeCasts_S128_S1x128 := by
  after_results; rfl

theorem row_v39 (c : Dev nD) (h : Fin 128) :
    (W5 m c (Proc.devRef .tc main_v39) : S1x128.Idx → EReal) (ix2 (0 : Fin 1) h)
      = (m ((c : Thread nD τ).loc main_arg12) : S128.Idx → EReal) (ix1 h) := by
  refine (congrFun (reshape_v39 (W4 m c)) _).trans ?_
  rw [shapeCast_a_1a_apply]
  exact congrFun (W4_launch m c main_arg12 (by decide) (by decide) (by decide) (by decide) (by decide)) _

theorem row_v40 (c : Dev nD) (h : Fin 128) :
    (W5 m c (Proc.devRef .tc main_v40) : S1x128.Idx → EReal) (ix2 (0 : Fin 1) h)
      = (m ((c : Thread nD τ).loc main_arg14) : S128.Idx → EReal) (ix1 h) := by
  refine (congrFun (reshape_v40 (W4 m c)) _).trans ?_
  rw [shapeCast_a_1a_apply]
  exact congrFun (W4_launch m c main_arg14 (by decide) (by decide) (by decide) (by decide) (by decide)) _

/-! ## The second code array at the last boundary is what the second region left -/

theorem back_v41 (c : Dev nD) : W10 m c (Proc.devRef .tc main_v41) = G1 (E5 m) c := by
  rw [W10_keep m c main_v41 (by decide), W9_keep m c main_v41 (by decide), W8_keep m c main_v41 (by decide),
    W7_keep m c main_v41 (by decide)]
  exact (W6_arr m c 5).trans (final1_5 (E5 m) c)

/-- Entry (p, k) of the network of the arrays the second region finds is the network of the launch arrays there. -/
theorem enc_s_entry (c : Dev nD) (p : Fin 8192) (k : Fin 128) :
    Cert.Spec.mlp (fun a k => (E5 m c (Pipeline.arrRef spec1 0) : S8192x8192.Idx → EReal) (ix2 a k))
        (fun k h => (E5 m c (Pipeline.arrRef spec1 1) : S8192x128.Idx → EReal) (ix2 k h))
        (fun h => (E5 m c (Pipeline.arrRef spec1 2) : S1x128.Idx → EReal) (ix2 (0 : Fin 1) h))
        (fun h n => (E5 m c (Pipeline.arrRef spec1 3) : S128x128.Idx → EReal) (ix2 h n))
        (fun n => (E5 m c (Pipeline.arrRef spec1 4) : S1x128.Idx → EReal) (ix2 (0 : Fin 1) n)) p k
      = Cert.Spec.mlp (fun i k => (m ((c : Thread nD τ).loc main_arg1) : S8192x8192.Idx → EReal) (ix2 i k))
        (fun k h => (m ((c : Thread nD τ).loc main_arg11) : S8192x128.Idx → EReal) (ix2 k h))
        (fun h => (m ((c : Thread nD τ).loc main_arg12) : S128.Idx → EReal) (ix1 h))
        (fun h n => (m ((c : Thread nD τ).loc main_arg13) : S128x128.Idx → EReal) (ix2 h n))
        (fun n => (m ((c : Thread nD τ).loc main_arg14) : S128.Idx → EReal) (ix1 n)) p k :=
  Cert.Dense.mlp_congr
    (fun k => congrFun (W5_launch m c main_arg1 (by decide) (by decide) (by decide) (by decide) (by decide) (by decide)) _)
    (fun k h => congrFun (W5_launch m c main_arg11 (by decide) (by decide) (by decide) (by decide) (by decide) (by decide)) _)
    (fun h => row_v39 m c h)
    (fun h => congrFun (W5_launch m c main_arg13 (by decide) (by decide) (by decide) (by decide) (by decide) (by decide)) _)
    (row_v40 m c k)

/-- The second code array at the end of the run: the two-layer network of the second launch input. -/
theorem res_h_s (c : Dev nD) :
    W10 m c (Proc.devRef .tc main_v41)
      = Cert.Spec.mlpArr (m ((c : Thread nD τ).loc main_arg1)) (m ((c : Thread nD τ).loc main_arg11))
          (m ((c : Thread nD τ).loc main_arg12)) (m ((c : Thread nD τ).loc main_arg13)) (m ((c : Thread nD τ).loc main_arg14)) := by
  rw [back_v41]
  refine funext fun (i : S8192x128.Idx) => ?_
  obtain ⟨p, q, rfl⟩ : ∃ (p : Fin 8192) (q : Fin 128), i = ix2 p q := ⟨i 0, i 1, eq_ix2 i⟩
  rw [Cert.Spec.mlpArr_apply]
  exact enc_s_entry m c p q

end Cert.KernelIdeal.Hand

end
-- ==== Proof.KI.Blocks2.lean ====
/-
  The third kernel's blocks inside their arrays. The grid is 8 × 4 and point t is row block t / 4, column block t % 4: the code
  window sits at rows 1024·(t / 4) … of its array, the second weight matrix's and second bias's windows at columns
  2048·(t % 4) … of theirs, the output window at both offsets; the first weight matrix and first bias windows are their whole
  arrays. So an entry of a block is the entry of the array at the block's offsets plus the entry's coordinates.
-/
import proofs.«147646_j43310450213578_1_alg».proof.Proof.KI.Region2
import Idealize.ShloMosaic.Lib.Pipeline.Value
import Idealize.ShloMosaic.PureOps.Ideal
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the grid. -/
theorem idx_facts2 : ∀ t : Fin cfg2.N,
    (win2_0.index t (0 : Fin 2) = t.val / 4 ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = t.val % 4)
    ∧ (win2_4.index t (0 : Fin 2) = 0 ∧ win2_4.index t (1 : Fin 2) = t.val % 4)
    ∧ (win2_5.index t (0 : Fin 2) = t.val / 4 ∧ win2_5.index t (1 : Fin 2) = t.val % 4) :=
  (by decide +kernel : ∀ t : Fin grid2.N, _)

/-- An entry of the code block at point t is the array's entry at row 1024·(t / 4) + the entry's row. -/
theorem iblk2_0_apply (c : Dev nD) (t : Fin cfg2.N) (y : S1024x128.Idx) (k : S8192x128.Idx)
    (h0 : (k 0).val = 1024 * (t.val / 4) + (y 0).val) (h1 : (k 1).val = (y 1).val) :
    (iblk2 V c 0 t : Vec Ideal S1024x128 .f32) y = (V c (Pipeline.arrRef spec2 0) : S8192x128.Idx → EReal) k := by
  have e0 : win2_0.index t (0 : Fin 2) = t.val / 4 := (idx_facts2 t).1.1
  have e1 : win2_0.index t (1 : Fin 2) = 0 := (idx_facts2 t).1.2
  unfold iblk2
  rw [View.read_apply]
  show V c (Pipeline.arrRef spec2 0) _ = _
  refine congrArg _ ?_
  funext a; apply Fin.ext
  match a with
  | ⟨0, _⟩ => show win2_0.index t 0 * 1024 + 1 * (y 0).val = (k 0).val; omega
  | ⟨1, _⟩ => show win2_0.index t 1 * 128 + 1 * (y 1).val = (k 1).val; omega

/-- The first weight matrix's window is its whole array at every point. -/
theorem iblk2_1_eq (c : Dev nD) (t : Fin cfg2.N) (y : S128x128.Idx) :
    (iblk2 V c 1 t : Vec Ideal S128x128 .f32) y = (V c (Pipeline.arrRef spec2 1) : S128x128.Idx → EReal) y := by
  have e0 : win2_1.index t (0 : Fin 2) = 0 := (idx_facts2 t).2.1.1
  have e1 : win2_1.index t (1 : Fin 2) = 0 := (idx_facts2 t).2.1.2
  unfold iblk2
  rw [View.read_apply]
  show V c (Pipeline.arrRef spec2 1) _ = _
  refine congrArg _ ?_
  funext a; apply Fin.ext
  match a with
  | ⟨0, _⟩ => show win2_1.index t 0 * 128 + 1 * (y 0).val = (y 0).val; omega
  | ⟨1, _⟩ => show win2_1.index t 1 * 128 + 1 * (y 1).val = (y 1).val; omega

/-- The first bias row's window is its whole array at every point. -/
theorem iblk2_2_eq (c : Dev nD) (t : Fin cfg2.N) (y : S1x128.Idx) :
    (iblk2 V c 2 t : Vec Ideal S1x128 .f32) y = (V c (Pipeline.arrRef spec2 2) : S1x128.Idx → EReal) y := by
  have e0 : win2_2.index t (0 : Fin 2) = 0 := (idx_facts2 t).2.2.1.1
  have e1 : win2_2.index t (1 : Fin 2) = 0 := (idx_facts2 t).2.2.1.2
  unfold iblk2
  rw [View.read_apply]
  show V c (Pipeline.arrRef spec2 2) _ = _
  refine congrArg _ ?_
  funext a; apply Fin.ext
  match a with
  | ⟨0, _⟩ => show win2_2.index t 0 * 1 + 1 * (y 0).val = (y 0).val; omega
  | ⟨1, _⟩ => show win2_2.index t 1 * 128 + 1 * (y 1).val = (y 1).val; omega

/-- An entry of the second weight matrix's block at point t is the array's entry at column 2048·(t % 4) + the entry's column. -/
theorem iblk2_3_apply (c : Dev nD) (t : Fin cfg2.N) (y : S128x2048.Idx) (k : S128x8192.Idx)
    (h0 : (k 0).val = (y 0).val) (h1 : (k 1).val = 2048 * (t.val % 4) + (y 1).val) :
    (iblk2 V c 3 t : Vec Ideal S128x2048 .f32) y = (V c (Pipeline.arrRef spec2 3) : S128x8192.Idx → EReal) k := by
  have e0 : win2_3.index t (0 : Fin 2) = 0 := (idx_facts2 t).2.2.2.1.1
  have e1 : win2_3.index t (1 : Fin 2) = t.val % 4 := (idx_facts2 t).2.2.2.1.2
  unfold iblk2
  rw [View.read_apply]
  show V c (Pipeline.arrRef spec2 3) _ = _
  refine congrArg _ ?_
  funext a; apply Fin.ext
  match a with
  | ⟨0, _⟩ => show win2_3.index t 0 * 128 + 1 * (y 0).val = (k 0).val; omega
  | ⟨1, _⟩ => show win2_3.index t 1 * 2048 + 1 * (y 1).val = (k 1).val; omega

/-- An entry of the second bias row's block at point t is the array's entry at column 2048·(t % 4) + the entry's column. -/
theorem iblk2_4_apply (c : Dev nD) (t : Fin cfg2.N) (y : S1x2048.Idx) (k : S1x8192.Idx)
    (h0 : (k 0).val = (y 0).val) (h1 : (k 1).val = 2048 * (t.val % 4) + (y 1).val) :
    (iblk2 V c 4 t : Vec Ideal S1x2048 .f32) y = (V c (Pipeline.arrRef spec2 4) : S1x8192.Idx → EReal) k := by
  have e0 : win2_4.index t (0 : Fin 2) = 0 := (idx_facts2 t).2.2.2.2.1.1
  have e1 : win2_4.index t (1 : Fin 2) = t.val % 4 := (idx_facts2 t).2.2.2.2.1.2
  unfold iblk2
  rw [View.read_apply]
  show V c (Pipeline.arrRef spec2 4) _ = _
  refine congrArg _ ?_
  funext a; apply Fin.ext
  match a with
  | ⟨0, _⟩ => show win2_4.index t 0 * 1 + 1 * (y 0).val = (k 0).val; omega
  | ⟨1, _⟩ => show win2_4.index t 1 * 2048 + 1 * (y 1).val = (k 1).val; omega

end Cert.KernelIdeal.Hand

end
-- ==== Proof.KI.Pay2.lean ====
/-
  What the third kernel's body stores, read at an entry: the two-layer network of the code block, the first weight block and
  bias row, and the column block of the second weight matrix and bias row the point is given, at that entry.
-/
import proofs.«147646_j43310450213578_1_alg».proof.Proof.Gen.KernelIdeal.Skeleton
import proofs.«147646_j43310450213578_1_alg».proof.Proof.KI.Dense

noncomputable section

namespace Cert.KernelIdeal.Hand

open Cert.KernelIdeal Cert.KernelIdeal.Gen
open Idealize.ShloMosaic Idealize.ShloMosaic.ValueIdx

/-- The decoded block at entry (p, q): the two-layer network of the blocks the body loads. -/
theorem k2_pay1_apply (x0 : Vec Ideal S1024x128 .f32) (x1 : Vec Ideal S128x128 .f32) (x2 : Vec Ideal S1x128 .f32)
    (x3 : Vec Ideal S128x2048 .f32) (x4 : Vec Ideal S1x2048 .f32) (p : Fin 1024) (q : Fin 2048) :
    k2_pay1 x0 x1 x2 x3 x4 (ix2 p q)
      = Cert.Spec.mlp (fun i k => x0 (ix2 i k)) (fun k h => x1 (ix2 k h)) (fun h => x2 (ix2 (0 : Fin 1) h))
          (fun h n => x3 (ix2 h n)) (fun n => x4 (ix2 (0 : Fin 1) n)) p q := by
  unfold k2_pay1
  refine (Cert.Dense.dense_ix2 dot_S1024x128_S128x2048_S1024x2048_1_0_0_1_n_n_wf none shapeCasts_S1x2048_S1x2048
    broadcasts_S1x2048_S1024x2048 _ _ x4 p q).trans ?_
  refine congrArg (fun f => Cert.Spec.dense f (fun h n => x3 (ix2 h n)) (fun n => x4 (ix2 (0 : Fin 1) n)) p q) ?_
  funext i h
  rw [truncf_apply, Cert.Dense.relu_ix2]
  refine congrArg (fun z => max z 0) ?_
  refine (Cert.Dense.dense_ix2 dot_S1024x128_S128x128_S1024x128_1_0_0_1_n_n_wf none shapeCasts_S1x128_S1x128
    broadcasts_S1x128_S1024x128 _ _ x2 i h).trans ?_
  refine congrArg (fun f => Cert.Spec.dense f (fun k h => x1 (ix2 k h)) (fun h => x2 (ix2 (0 : Fin 1) h)) i h) ?_
  funext a b
  rw [truncf_apply, shapeCast_self]

end Cert.KernelIdeal.Hand

end
-- ==== Proof.KI.Value2.lean ====
/-
  The result of the third kernel, as an array. What point t writes back is rows 1024·(t / 4) …, columns 2048·(t % 4) … of ONE
  function of the arrays the region finds — the two-layer network of the code with the decoder's weight matrices and bias
  rows — because an entry of the network reads one row of the input, one column of the second weight matrix and one entry of
  the second bias only. The 8 × 4 blocks fill the array, so the array ends holding that function.
-/
import proofs.«147646_j43310450213578_1_alg».proof.Proof.KI.Blocks2
import proofs.«147646_j43310450213578_1_alg».proof.Proof.KI.Pay2
import proofs.«147646_j43310450213578_1_alg».proof.Proof.KI.SpecCongr
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The result as one function of the arrays the region finds: the two-layer network, entry by entry. -/
def G2_5 (c : Dev nD) : S8192x8192.Idx → EReal := fun i =>
  Cert.Spec.mlp (fun i k => (V c (Pipeline.arrRef spec2 0) : S8192x128.Idx → EReal) (ix2 i k))
    (fun k h => (V c (Pipeline.arrRef spec2 1) : S128x128.Idx → EReal) (ix2 k h))
    (fun h => (V c (Pipeline.arrRef spec2 2) : S1x128.Idx → EReal) (ix2 0 h))
    (fun h n => (V c (Pipeline.arrRef spec2 3) : S128x8192.Idx → EReal) (ix2 h n))
    (fun n => (V c (Pipeline.arrRef spec2 4) : S1x8192.Idx → EReal) (ix2 0 n)) (i 0) (i 1)

/-- What point t writes back is block t of that function. -/
theorem flushed2_5_eq (c : Dev nD) (t : Fin cfg2.N) :
    (dat2 V c).flushed 5 t = ((cfg2.win 5).blk t).view.read (Elt Ideal) (G2_5 V c) := by
  show (cfg2.win 5).cut (grid2.coords t) ((dat2 V c).after 5 t) = _
  rw [after2_5]
  unfold out2_5
  rw [View.canon_unit_zero hz2]
  simp only [View.ld_unit_zero (S := S1024x128) hz2, View.ld_unit_zero (S := S128x128) hz2,
    View.ld_unit_zero (S := S1x128) hz2, View.ld_unit_zero (S := S128x2048) hz2, View.ld_unit_zero (S := S1x2048) hz2]
  have e0 : win2_5.index t (0 : Fin 2) = t.val / 4 := (idx_facts2 t).2.2.2.2.2.1
  have e1 : win2_5.index t (1 : Fin 2) = t.val % 4 := (idx_facts2 t).2.2.2.2.2.2
  refine funext fun (j : S1024x2048.Idx) => ?_
  obtain ⟨p, q, rfl⟩ : ∃ (p : Fin 1024) (q : Fin 2048), j = ix2 p q := ⟨j 0, j 1, eq_ix2 j⟩
  show k2_pay1 (iblk2 V c 0 t) (iblk2 V c 1 t) (iblk2 V c 2 t) (iblk2 V c 3 t) (iblk2 V c 4 t) (ix2 p q)
    = G2_5 V c (((cfg2.win 5).blk t).view.emb (ix2 p q))
  refine (k2_pay1_apply _ _ _ _ _ p q).trans ?_
  unfold G2_5
  have r0 : ((((cfg2.win 5).blk t).view.emb (ix2 p q)) 0).val = 1024 * (t.val / 4) + p.val := by
    show win2_5.index t 0 * 1024 + 1 * p.val = _; omega
  have r1 : ((((cfg2.win 5).blk t).view.emb (ix2 p q)) 1).val = 2048 * (t.val % 4) + q.val := by
    show win2_5.index t 1 * 2048 + 1 * q.val = _; omega
  refine Cert.Dense.mlp_congr (fun k => ?_) (fun k h => ?_) (fun h => ?_) (fun h => ?_) ?_
  · exact iblk2_0_apply V c t _ _ r0 rfl
  · exact iblk2_1_eq V c t _
  · exact iblk2_2_eq V c t _
  · exact iblk2_3_apply V c t _ _ rfl r1
  · exact iblk2_4_apply V c t _ _ rfl r1

/-- An index of the array is in point t's block iff each coordinate is in the block's range on its axis. -/
theorem mem_blk2_5 (t : Fin cfg2.N) (i : S8192x8192.Idx) :
    i ∈ ((cfg2.win 5).blk t).view.set ↔ ∀ a : Fin 2, win2_5.index t a * S1024x2048.size a ≤ (i a).val ∧ (i a).val < win2_5.index t a * S1024x2048.size a + S1024x2048.size a := by
  show i ∈ ((View.whole main_v44).slice (win2_5.rect t)).set ↔ _
  rw [View.set_slice_whole, Rect.mem_set_unit]
  exact Iff.rfl

/-- Entry (r, s) of the array is in the block of point 4·(r / 1024) + s / 2048. -/
theorem blocks_cover2_5 (i : S8192x8192.Idx) :
    ∃ t : Fin cfg2.N, (cfg2.win 5).flush t = true ∧ i ∈ ((cfg2.win 5).blk t).view.set := by
  have hi0 : (i 0).val < 8192 := (i 0).isLt
  have hi1 : (i 1).val < 8192 := (i 1).isLt
  have hN : cfg2.N = 32 := N_2
  have ht : (i 0).val / 1024 * 4 + (i 1).val / 2048 < cfg2.N := by rw [hN]; omega
  have e0 : win2_5.index ⟨(i 0).val / 1024 * 4 + (i 1).val / 2048, ht⟩ (0 : Fin 2) = ((i 0).val / 1024 * 4 + (i 1).val / 2048) / 4 :=
    (idx_facts2 ⟨(i 0).val / 1024 * 4 + (i 1).val / 2048, ht⟩).2.2.2.2.2.1
  have e1 : win2_5.index ⟨(i 0).val / 1024 * 4 + (i 1).val / 2048, ht⟩ (1 : Fin 2) = ((i 0).val / 1024 * 4 + (i 1).val / 2048) % 4 :=
    (idx_facts2 ⟨(i 0).val / 1024 * 4 + (i 1).val / 2048, ht⟩).2.2.2.2.2.2
  refine ⟨⟨(i 0).val / 1024 * 4 + (i 1).val / 2048, ht⟩, flush2_5 _, ?_⟩
  rw [mem_blk2_5]
  intro a
  match a with
  | ⟨0, _⟩ =>
    show win2_5.index ⟨(i 0).val / 1024 * 4 + (i 1).val / 2048, ht⟩ (0 : Fin 2) * 1024 ≤ (i 0).val
      ∧ (i 0).val < win2_5.index ⟨(i 0).val / 1024 * 4 + (i 1).val / 2048, ht⟩ (0 : Fin 2) * 1024 + 1024
    rw [e0]; omega
  | ⟨1, _⟩ =>
    show win2_5.index ⟨(i 0).val / 1024 * 4 + (i 1).val / 2048, ht⟩ (1 : Fin 2) * 2048 ≤ (i 1).val
      ∧ (i 1).val < win2_5.index ⟨(i 0).val / 1024 * 4 + (i 1).val / 2048, ht⟩ (1 : Fin 2) * 2048 + 2048
    rw [e1]; omega

/-- The result array after the run is that function. -/
theorem arr2_5 (c : Dev nD) : (dat2 V c).arrAt 5 cfg2.N = G2_5 V c :=
  (dat2 V c).arrAt_eq_of_cover 5 (G2_5 V c) (fun t _ => flushed2_5_eq V c t) blocks_cover2_5

/-- Entry (p, q) of the result after the run: the two-layer network of the code at (p, q). -/
theorem final2_5 (c : Dev nD) (p : Fin 8192) (q : Fin 8192) :
    (dat2 V c).arrAt 5 cfg2.N (ValueIdx.ix2 p q)
      = Cert.Spec.mlp (fun i k => V c (Pipeline.arrRef spec2 0) (ValueIdx.ix2 i k))
          (fun k h => V c (Pipeline.arrRef spec2 1) (ValueIdx.ix2 k h))
          (fun h => V c (Pipeline.arrRef spec2 2) (ValueIdx.ix2 0 h))
          (fun h n => V c (Pipeline.arrRef spec2 3) (ValueIdx.ix2 h n))
          (fun n => V c (Pipeline.arrRef spec2 4) (ValueIdx.ix2 0 n)) p q := by
  rw [arr2_5]
  rfl

end Cert.KernelIdeal.Hand

end
-- ==== Proof.KI.Results2.lean ====
/-
  The second auto-encoder's reconstruction, read off the last boundary of the run as the specification's network of the
  launch arrays. The array is written by the third kernel region only; what that region leaves in it is the two-layer network
  of the arrays it finds; its input is the code array the second region left, which is that region's network of the launch
  arrays; the weight matrices are the launch arrays and each bias row the host's reshape of the launch bias vector to one row.
-/
import proofs.«147646_j43310450213578_1_alg».proof.Proof.KI.Results1
import proofs.«147646_j43310450213578_1_alg».proof.Proof.KI.Value2
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ)

/-! ## An argument array no earlier item writes is the launch array at the third region's entry, and after the second -/

theorem W6_launch (c : Dev nD) (b : Ref sig .tc) (h0 : b ∉ hostOps0_W) (h1 : b ∉ hostOps1_W) (h11 : b ∉ hostOps1_1_W)
    (h12 : b ∉ hostOps1_2_W) (e0 : b ≠ main_v8_0) (e1 : b ≠ main_v8_1) (e2 : b ≠ main_v41) :
    W6 m c (Proc.devRef .tc b) = m ((c : Thread nD τ).loc b) := by
  rw [W6_keep m c b e2, W5_launch m c b h0 h1 h11 h12 e0 e1]

theorem W7_launch (c : Dev nD) (b : Ref sig .tc) (h0 : b ∉ hostOps0_W) (h1 : b ∉ hostOps1_W) (h11 : b ∉ hostOps1_1_W)
    (h12 : b ∉ hostOps1_2_W) (h2 : b ∉ hostOps2_W) (e0 : b ≠ main_v8_0) (e1 : b ≠ main_v8_1) (e2 : b ≠ main_v41) :
    W7 m c (Proc.devRef .tc b) = m ((c : Thread nD τ).loc b) := by
  rw [W7_keep m c b h2, W6_launch m c b h0 h1 h11 h12 e0 e1 e2]

/-! ## The bias rows the third region finds: the launch bias vectors, each as one row -/

/-- The host's two reshapes before the third region, over any contents. -/
theorem reshape_v42 (Wv : Valuation τ sig (Elt Ideal)) :
    (StableHlo.after hostOps2 Wv (Proc.devRef .tc main_v42) : S1x128.Idx → EReal)
      = shapeCast S1x128 (Wv (Proc.devRef .tc main_arg16) : S128.Idx → EReal) shapeCasts_S128_S1x128 := by
  after_results; rfl

theorem reshape_v43 (Wv : Valuation τ sig (Elt Ideal)) :
    (StableHlo.after hostOps2 Wv (Proc.devRef .tc main_v43) : S1x8192.Idx → EReal)
      = shapeCast S1x8192 (Wv (Proc.devRef .tc main_arg18) : S8192.Idx → EReal) shapeCasts_S8192_S1x8192 := by
  after_results; rfl

theorem row_v42 (c : Dev nD) (h : Fin 128) :
    (W7 m c (Proc.devRef .tc main_v42) : S1x128.Idx → EReal) (ix2 (0 : Fin 1) h)
      = (m ((c : Thread nD τ).loc main_arg16) : S128.Idx → EReal) (ix1 h) := by
  refine (congrFun (reshape_v42 (W6 m c)) _).trans ?_
  rw [shapeCast_a_1a_apply]
  exact congrFun (W6_launch m c main_arg16 (by decide) (by decide) (by decide) (by decide) (by decide) (by decide) (by decide)) _

theorem row_v43 (c : Dev nD) (h : Fin 8192) :
    (W7 m c (Proc.devRef .tc main_v43) : S1x8192.Idx → EReal) (ix2 (0 : Fin 1) h)
      = (m ((c : Thread nD τ).loc main_arg18) : S8192.Idx → EReal) (ix1 h) := by
  refine (congrFun (reshape_v43 (W6 m c)) _).trans ?_
  rw [shapeCast_a_1a_apply]
  exact congrFun (W6_launch m c main_arg18 (by decide) (by decide) (by decide) (by decide) (by decide) (by decide) (by decide)) _

/-! ## The reconstruction at the last boundary is what the third region left; its input is the second code array -/

theorem back_v44 (c : Dev nD) : W10 m c (Proc.devRef .tc main_v44) = G2_5 (E7 m) c := by
  rw [W10_keep m c main_v44 (by decide), W9_keep m c main_v44 (by decide)]
  exact (W8_arr m c 5).trans (arr2_5 (E7 m) c)

/-- The code array the third region finds is the code array at the end of the run. -/
theorem W7_v41 (c : Dev nD) : W7 m c (Proc.devRef .tc main_v41) = W10 m c (Proc.devRef .tc main_v41) := by
  rw [W10_keep m c main_v41 (by decide), W9_keep m c main_v41 (by decide), W8_keep m c main_v41 (by decide)]

/-- The second reconstruction at the end of the run: the two-layer network of the second code. -/
theorem res_s_ (c : Dev nD) :
    W10 m c (Proc.devRef .tc main_v44)
      = Cert.Spec.mlpArr
          (Cert.Spec.mlpArr (m ((c : Thread nD τ).loc main_arg1)) (m ((c : Thread nD τ).loc main_arg11))
            (m ((c : Thread nD τ).loc main_arg12)) (m ((c : Thread nD τ).loc main_arg13)) (m ((c : Thread nD τ).loc main_arg14)))
          (m ((c : Thread nD τ).loc main_arg15)) (m ((c : Thread nD τ).loc main_arg16))
          (m ((c : Thread nD τ).loc main_arg17)) (m ((c : Thread nD τ).loc main_arg18)) := by
  rw [back_v44]
  refine funext fun (i : S8192x8192.Idx) => ?_
  obtain ⟨p, q, rfl⟩ : ∃ (p : Fin 8192) (q : Fin 8192), i = ix2 p q := ⟨i 0, i 1, eq_ix2 i⟩
  rw [Cert.Spec.mlpArr_apply]
  exact Cert.Dense.mlp_congr (fun k => congrFun ((W7_v41 m c).trans (res_h_s m c)) _)
    (fun k h => congrFun (W7_launch m c main_arg15 (by decide) (by decide) (by decide) (by decide) (by decide) (by decide) (by decide) (by decide)) _)
    (fun h => row_v42 m c h)
    (fun h => congrFun (W7_launch m c main_arg17 (by decide) (by decide) (by decide) (by decide) (by decide) (by decide) (by decide) (by decide)) _)
    (row_v43 m c q)

end Cert.KernelIdeal.Hand

end
-- ==== Proof.KI.NdK.lean ====
/-
  The neighbour-difference aggregate as a chain of host operations, for any float values: per edge the squared
  differences of the code's rows at the edge's two end points, summed; added up per destination node; divided by the number of
  edges arriving there (at least one); zero where none arrives.
-/
import proofs.«147646_j43310450213578_1_alg».proof.Proof.Gen.KernelIdeal
import Idealize.ShloMosaic.PureOps.Ideal

noncomputable section

namespace Cert.KernelIdeal.Hand

open Cert.KernelIdeal Cert.KernelIdeal.Gen Idealize.ShloMosaic Idealize.ShloMosaic.StableHlo

variable {F : FTy → Type} [FloatOps F]

set_option maxRecDepth 8192 in
/-- The aggregate of a code array `h` along an edge list `e`. -/
def ndK (h : (⟨S8192x128, .f32⟩ : BufTy).Contents (Elt F)) (e : (⟨S2x524288, .i32⟩ : BufTy).Contents (Elt F)) :
    (⟨S8192, .f32⟩ : BufTy).Contents (Elt F) :=
  select (cmpf (F := F) .ogt (Host.scatterAdd (F := F) scatter_S8192_S524288x1_S524288_n_0_0_1 (broadcastInDim S8192 ![] bcast_S_S8192 (constant (F := F) S_ .f32 0x00000000#32)) (broadcastInDim S524288x1 ![0] bcast_S524288_S524288x1_0 (shapeCast _ (extractStridedSlice S1x524288 ![1, 0] e slices_S2x524288_S1x524288_1_0) shapeCasts_S1x524288_S524288)) (broadcastInDim S524288 ![] bcast_S_S524288 (constant (F := F) S_ .f32 0x3F800000#32))) (broadcastInDim S8192 ![] bcast_S_S8192 (constant (F := F) S_ .f32 0x00000000#32))) (Host.divf (F := F) (Host.scatterAdd (F := F) scatter_S8192_S524288x1_S524288_n_0_0_1 (broadcastInDim S8192 ![] bcast_S_S8192 (constant (F := F) S_ .f32 0x00000000#32)) (broadcastInDim S524288x1 ![0] bcast_S524288_S524288x1_0 (shapeCast _ (extractStridedSlice S1x524288 ![1, 0] e slices_S2x524288_S1x524288_1_0) shapeCasts_S1x524288_S524288)) (Host.reduceAdd (F := F) (mulf (F := F) (subf (F := F) (Host.gather gather_S8192x128_S524288x1_S524288x128_1_0_n_n_0_1_1128 h (broadcastInDim S524288x1 ![0] bcast_S524288_S524288x1_0 (select (cmpi .slt (shapeCast _ (extractStridedSlice S1x524288 ![1, 0] e slices_S2x524288_S1x524288_1_0) shapeCasts_S1x524288_S524288) (broadcastInDim S524288 ![] bcast_S_S524288 (constantI S_ 32 0#32))) (addi (shapeCast _ (extractStridedSlice S1x524288 ![1, 0] e slices_S2x524288_S1x524288_1_0) shapeCasts_S1x524288_S524288) (broadcastInDim S524288 ![] bcast_S_S524288 (constantI S_ 32 8192#32))) (shapeCast _ (extractStridedSlice S1x524288 ![1, 0] e slices_S2x524288_S1x524288_1_0) shapeCasts_S1x524288_S524288)))) (Host.gather gather_S8192x128_S524288x1_S524288x128_1_0_n_n_0_1_1128 h (broadcastInDim S524288x1 ![0] bcast_S524288_S524288x1_0 (select (cmpi .slt (shapeCast _ (extractStridedSlice S1x524288 ![0, 0] e slices_S2x524288_S1x524288_0_0) shapeCasts_S1x524288_S524288) (broadcastInDim S524288 ![] bcast_S_S524288 (constantI S_ 32 0#32))) (addi (shapeCast _ (extractStridedSlice S1x524288 ![0, 0] e slices_S2x524288_S1x524288_0_0) shapeCasts_S1x524288_S524288) (broadcastInDim S524288 ![] bcast_S_S524288 (constantI S_ 32 8192#32))) (shapeCast _ (extractStridedSlice S1x524288 ![0, 0] e slices_S2x524288_S1x524288_0_0) shapeCasts_S1x524288_S524288))))) (subf (F := F) (Host.gather gather_S8192x128_S524288x1_S524288x128_1_0_n_n_0_1_1128 h (broadcastInDim S524288x1 ![0] bcast_S524288_S524288x1_0 (select (cmpi .slt (shapeCast _ (extractStridedSlice S1x524288 ![1, 0] e slices_S2x524288_S1x524288_1_0) shapeCasts_S1x524288_S524288) (broadcastInDim S524288 ![] bcast_S_S524288 (constantI S_ 32 0#32))) (addi (shapeCast _ (extractStridedSlice S1x524288 ![1, 0] e slices_S2x524288_S1x524288_1_0) shapeCasts_S1x524288_S524288) (broadcastInDim S524288 ![] bcast_S_S524288 (constantI S_ 32 8192#32))) (shapeCast _ (extractStridedSlice S1x524288 ![1, 0] e slices_S2x524288_S1x524288_1_0) shapeCasts_S1x524288_S524288)))) (Host.gather gather_S8192x128_S524288x1_S524288x128_1_0_n_n_0_1_1128 h (broadcastInDim S524288x1 ![0] bcast_S524288_S524288x1_0 (select (cmpi .slt (shapeCast _ (extractStridedSlice S1x524288 ![0, 0] e slices_S2x524288_S1x524288_0_0) shapeCasts_S1x524288_S524288) (broadcastInDim S524288 ![] bcast_S_S524288 (constantI S_ 32 0#32))) (addi (shapeCast _ (extractStridedSlice S1x524288 ![0, 0] e slices_S2x524288_S1x524288_0_0) shapeCasts_S1x524288_S524288) (broadcastInDim S524288 ![] bcast_S_S524288 (constantI S_ 32 8192#32))) (shapeCast _ (extractStridedSlice S1x524288 ![0, 0] e slices_S2x524288_S1x524288_0_0) shapeCasts_S1x524288_S524288)))))) (constant (F := F) S_ .f32 0x00000000#32) reducesTo_S524288x128_S524288_d1 h_S_)) (maximumf (F := F) (Host.scatterAdd (F := F) scatter_S8192_S524288x1_S524288_n_0_0_1 (broadcastInDim S8192 ![] bcast_S_S8192 (constant (F := F) S_ .f32 0x00000000#32)) (broadcastInDim S524288x1 ![0] bcast_S524288_S524288x1_0 (shapeCast _ (extractStridedSlice S1x524288 ![1, 0] e slices_S2x524288_S1x524288_1_0) shapeCasts_S1x524288_S524288)) (broadcastInDim S524288 ![] bcast_S_S524288 (constant (F := F) S_ .f32 0x3F800000#32))) (broadcastInDim S8192 ![] bcast_S_S8192 (constant (F := F) S_ .f32 0x3F800000#32)))) (broadcastInDim S8192 ![] bcast_S_S8192 (id (constant (F := F) S_ .f32 0x00000000#32)))

end Cert.KernelIdeal.Hand

end
-- ==== Proof.KI.Chains.lean ====
/-
  The two neighbour-difference aggregates of the kernel program. After each code array is written, a stretch of host
  operations gathers the code's rows at the edges' end points, sums the squared differences per edge, adds them up per
  destination node, counts the arriving edges and divides. The edge list's two rows were sliced off the argument in the
  first host stretch. Read back operation by operation — for any float values — the stretch applied to a code array is the
  aggregate of that array and the edge list; at the extended reals it is the very chain the reference applies.
-/
import proofs.«147646_j43310450213578_1_alg».proof.Proof.KI.NdK
import proofs.«147646_j43310450213578_1_alg».proof.Proof.Gen.KernelIdeal.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]

/-- The first host stretch leaves the edges' source nodes (row 0 of the edge list, as a vector) in one buffer -/
theorem slice_src_of (X : Valuation τ sig (Elt F)) :
    StableHlo.after hostOps0 X (Proc.devRef .tc main_v1)
      = shapeCast S524288 (extractStridedSlice S1x524288 ![0, 0] (X (Proc.devRef .tc main_arg2)) slices_S2x524288_S1x524288_0_0) shapeCasts_S1x524288_S524288 := by
  after_results
  rfl

/-- and their destination nodes (row 1) in another. -/
theorem slice_dst_of (X : Valuation τ sig (Elt F)) :
    StableHlo.after hostOps0 X (Proc.devRef .tc main_v3)
      = shapeCast S524288 (extractStridedSlice S1x524288 ![1, 0] (X (Proc.devRef .tc main_arg2)) slices_S2x524288_S1x524288_1_0) shapeCasts_S1x524288_S524288 := by
  after_results
  rfl

set_option maxHeartbeats 4000000 in
/-- The first aggregate's stretch, over any buffer contents whose two slice buffers hold the edge list's rows. -/
theorem chain_first (X : Valuation τ sig (Elt F)) (e : (⟨S2x524288, .i32⟩ : BufTy).Contents (Elt F))
    (hsrc : X (Proc.devRef .tc main_v1) = shapeCast S524288 (extractStridedSlice S1x524288 ![0, 0] e slices_S2x524288_S1x524288_0_0) shapeCasts_S1x524288_S524288)
    (hdst : X (Proc.devRef .tc main_v3) = shapeCast S524288 (extractStridedSlice S1x524288 ![1, 0] e slices_S2x524288_S1x524288_1_0) shapeCasts_S1x524288_S524288) :
    StableHlo.after hostOps1_1 (StableHlo.after hostOps1 X) (Proc.devRef .tc main_v38) = ndK (X (Proc.devRef .tc main_v8_0)) e := by
  after_results_simp
  rw [hsrc, hdst]
  rfl

set_option maxHeartbeats 4000000 in
/-- The second aggregate's stretch, likewise, of the second code. -/
theorem chain_second (X : Valuation τ sig (Elt F)) (e : (⟨S2x524288, .i32⟩ : BufTy).Contents (Elt F))
    (hsrc : X (Proc.devRef .tc main_v1) = shapeCast S524288 (extractStridedSlice S1x524288 ![0, 0] e slices_S2x524288_S1x524288_0_0) shapeCasts_S1x524288_S524288)
    (hdst : X (Proc.devRef .tc main_v3) = shapeCast S524288 (extractStridedSlice S1x524288 ![1, 0] e slices_S2x524288_S1x524288_1_0) shapeCasts_S1x524288_S524288) :
    StableHlo.after hostOps3_1 (StableHlo.after hostOps3 X) (Proc.devRef .tc main_v74) = ndK (X (Proc.devRef .tc main_v41)) e := by
  after_results_simp
  rw [hsrc, hdst]
  rfl

end Cert.KernelIdeal.Hand

end
-- ==== Proof.Ref.Nd.lean ====
/-
  The neighbour-difference aggregate of a code array.

  For a code array h (one row of 128 features per node, 8192 nodes) and an edge list e (row 0 holds each edge's source
  node, row 1 its destination node, 524288 edges), entry n of the result is

      ( ∑ over the edges with destination n of  ∑ₖ (h[dst] k − h[src] k)² ) / max (cnt n) 1     if cnt n > 0,
      0                                                                                        otherwise,

  where cnt n counts the edges with destination n. A negative node number i is read as i + 8192 when a row of h is
  fetched; the two segment sums add, over the edges, into the entry the edge's destination names. The definition is the
  chain of host operations itself, read at the extended reals, with the code array as a variable: both aggregates the
  program returns are this function, of the first code and of the second.
-/
import proofs.«147646_j43310450213578_1_alg».proof.Proof.Gen.ReferenceIdeal
import Idealize.ShloMosaic.PureOps.Ideal

noncomputable section

namespace Cert.ReferenceIdeal.RefValue

open Cert.ReferenceIdeal Cert.ReferenceIdeal.Gen Idealize.ShloMosaic Idealize.ShloMosaic.StableHlo

set_option maxRecDepth 8192 in
/-- The neighbour-difference aggregate: squared row differences summed per edge, added up per destination node, divided
    by the number of edges arriving there (at least one), and zero where no edge arrives. -/
def nd (h : (⟨S8192x128, .f32⟩ : BufTy).Contents (Elt Ideal)) (e : (⟨S2x524288, .i32⟩ : BufTy).Contents (Elt Ideal)) :
    (⟨S8192, .f32⟩ : BufTy).Contents (Elt Ideal) :=
  select (cmpf (F := Ideal) .ogt (Host.scatterAdd (F := Ideal) scatter_S8192_S524288x1_S524288_n_0_0_1 (broadcastInDim S8192 ![] bcast_S_S8192 (constant (F := Ideal) S_ .f32 0x00000000#32)) (broadcastInDim S524288x1 ![0] bcast_S524288_S524288x1_0 (shapeCast _ (extractStridedSlice S1x524288 ![1, 0] e slices_S2x524288_S1x524288_1_0) shapeCasts_S1x524288_S524288)) (broadcastInDim S524288 ![] bcast_S_S524288 (constant (F := Ideal) S_ .f32 0x3F800000#32))) (broadcastInDim S8192 ![] bcast_S_S8192 (constant (F := Ideal) S_ .f32 0x00000000#32))) (Host.divf (F := Ideal) (Host.scatterAdd (F := Ideal) scatter_S8192_S524288x1_S524288_n_0_0_1 (broadcastInDim S8192 ![] bcast_S_S8192 (constant (F := Ideal) S_ .f32 0x00000000#32)) (broadcastInDim S524288x1 ![0] bcast_S524288_S524288x1_0 (shapeCast _ (extractStridedSlice S1x524288 ![1, 0] e slices_S2x524288_S1x524288_1_0) shapeCasts_S1x524288_S524288)) (Host.reduceAdd (F := Ideal) (mulf (F := Ideal) (subf (F := Ideal) (Host.gather gather_S8192x128_S524288x1_S524288x128_1_0_n_n_0_1_1128 h (broadcastInDim S524288x1 ![0] bcast_S524288_S524288x1_0 (select (cmpi .slt (shapeCast _ (extractStridedSlice S1x524288 ![1, 0] e slices_S2x524288_S1x524288_1_0) shapeCasts_S1x524288_S524288) (broadcastInDim S524288 ![] bcast_S_S524288 (constantI S_ 32 0#32))) (addi (shapeCast _ (extractStridedSlice S1x524288 ![1, 0] e slices_S2x524288_S1x524288_1_0) shapeCasts_S1x524288_S524288) (broadcastInDim S524288 ![] bcast_S_S524288 (constantI S_ 32 8192#32))) (shapeCast _ (extractStridedSlice S1x524288 ![1, 0] e slices_S2x524288_S1x524288_1_0) shapeCasts_S1x524288_S524288)))) (Host.gather gather_S8192x128_S524288x1_S524288x128_1_0_n_n_0_1_1128 h (broadcastInDim S524288x1 ![0] bcast_S524288_S524288x1_0 (select (cmpi .slt (shapeCast _ (extractStridedSlice S1x524288 ![0, 0] e slices_S2x524288_S1x524288_0_0) shapeCasts_S1x524288_S524288) (broadcastInDim S524288 ![] bcast_S_S524288 (constantI S_ 32 0#32))) (addi (shapeCast _ (extractStridedSlice S1x524288 ![0, 0] e slices_S2x524288_S1x524288_0_0) shapeCasts_S1x524288_S524288) (broadcastInDim S524288 ![] bcast_S_S524288 (constantI S_ 32 8192#32))) (shapeCast _ (extractStridedSlice S1x524288 ![0, 0] e slices_S2x524288_S1x524288_0_0) shapeCasts_S1x524288_S524288))))) (subf (F := Ideal) (Host.gather gather_S8192x128_S524288x1_S524288x128_1_0_n_n_0_1_1128 h (broadcastInDim S524288x1 ![0] bcast_S524288_S524288x1_0 (select (cmpi .slt (shapeCast _ (extractStridedSlice S1x524288 ![1, 0] e slices_S2x524288_S1x524288_1_0) shapeCasts_S1x524288_S524288) (broadcastInDim S524288 ![] bcast_S_S524288 (constantI S_ 32 0#32))) (addi (shapeCast _ (extractStridedSlice S1x524288 ![1, 0] e slices_S2x524288_S1x524288_1_0) shapeCasts_S1x524288_S524288) (broadcastInDim S524288 ![] bcast_S_S524288 (constantI S_ 32 8192#32))) (shapeCast _ (extractStridedSlice S1x524288 ![1, 0] e slices_S2x524288_S1x524288_1_0) shapeCasts_S1x524288_S524288)))) (Host.gather gather_S8192x128_S524288x1_S524288x128_1_0_n_n_0_1_1128 h (broadcastInDim S524288x1 ![0] bcast_S524288_S524288x1_0 (select (cmpi .slt (shapeCast _ (extractStridedSlice S1x524288 ![0, 0] e slices_S2x524288_S1x524288_0_0) shapeCasts_S1x524288_S524288) (broadcastInDim S524288 ![] bcast_S_S524288 (constantI S_ 32 0#32))) (addi (shapeCast _ (extractStridedSlice S1x524288 ![0, 0] e slices_S2x524288_S1x524288_0_0) shapeCasts_S1x524288_S524288) (broadcastInDim S524288 ![] bcast_S_S524288 (constantI S_ 32 8192#32))) (shapeCast _ (extractStridedSlice S1x524288 ![0, 0] e slices_S2x524288_S1x524288_0_0) shapeCasts_S1x524288_S524288)))))) (constant (F := Ideal) S_ .f32 0x00000000#32) reducesTo_S524288x128_S524288_d1 h_S_)) (maximumf (F := Ideal) (Host.scatterAdd (F := Ideal) scatter_S8192_S524288x1_S524288_n_0_0_1 (broadcastInDim S8192 ![] bcast_S_S8192 (constant (F := Ideal) S_ .f32 0x00000000#32)) (broadcastInDim S524288x1 ![0] bcast_S524288_S524288x1_0 (shapeCast _ (extractStridedSlice S1x524288 ![1, 0] e slices_S2x524288_S1x524288_1_0) shapeCasts_S1x524288_S524288)) (broadcastInDim S524288 ![] bcast_S_S524288 (constant (F := Ideal) S_ .f32 0x3F800000#32))) (broadcastInDim S8192 ![] bcast_S_S8192 (constant (F := Ideal) S_ .f32 0x3F800000#32)))) (broadcastInDim S8192 ![] bcast_S_S8192 (id (constant (F := Ideal) S_ .f32 0x00000000#32)))

end Cert.ReferenceIdeal.RefValue

end
-- ==== Proof.KI.Tail.lean ====
/-
  The two vector results of the kernel program at the extended reals. Each is read off the last boundary: no later item
  writes it, the stretch that made it is the aggregate of the code array it was applied to along the edge list, and that
  code array is the two-layer network the region before it left.
-/
import proofs.«147646_j43310450213578_1_alg».proof.Proof.KI.Chains
import proofs.«147646_j43310450213578_1_alg».proof.Proof.KI.Results0
import proofs.«147646_j43310450213578_1_alg».proof.Proof.KI.Results2
import proofs.«147646_j43310450213578_1_alg».proof.Proof.Ref.Nd

set_option maxRecDepth 16384

noncomputable section

namespace Cert.KernelIdeal.Hand

open Cert.KernelIdeal Cert.KernelIdeal.Gen
open Idealize.ShloMosaic Idealize.ShloMosaic.TcCoe Idealize.ShloMosaic.StableHlo
open Cert.ReferenceIdeal.RefValue (nd)

variable (m : (ℓ : Loc nD τ sig) → Buf (Elt Ideal) ℓ)

/-- At the extended reals the kernel program's chain is the reference's, operation for operation. -/
theorem ndK_nd (h : (⟨S8192x128, .f32⟩ : BufTy).Contents (Elt Ideal)) (e : (⟨S2x524288, .i32⟩ : BufTy).Contents (Elt Ideal)) :
    ndK (F := Ideal) h e = nd h e := rfl

/-- The slice buffers hold the edge list's rows at every later boundary that matters. -/
theorem src_W2 (c : Dev nD) : W2 m c (Proc.devRef .tc main_v1)
    = shapeCast S524288 (extractStridedSlice S1x524288 ![0, 0] (m ((c : Thread nD τ).loc main_arg2)) slices_S2x524288_S1x524288_0_0) shapeCasts_S1x524288_S524288 :=
  (W2_keep m c main_v1 (by decide) (by decide)).trans (slice_src_of (W0 m c))
theorem dst_W2 (c : Dev nD) : W2 m c (Proc.devRef .tc main_v3)
    = shapeCast S524288 (extractStridedSlice S1x524288 ![1, 0] (m ((c : Thread nD τ).loc main_arg2)) slices_S2x524288_S1x524288_1_0) shapeCasts_S1x524288_S524288 :=
  (W2_keep m c main_v3 (by decide) (by decide)).trans (slice_dst_of (W0 m c))
theorem src_W8 (c : Dev nD) : W8 m c (Proc.devRef .tc main_v1)
    = shapeCast S524288 (extractStridedSlice S1x524288 ![0, 0] (m ((c : Thread nD τ).loc main_arg2)) slices_S2x524288_S1x524288_0_0) shapeCasts_S1x524288_S524288 := by
  rw [W8_keep m c main_v1 (by decide), W7_keep m c main_v1 (by decide), W6_keep m c main_v1 (by decide), W5_keep m c main_v1 (by decide), W4_keep m c main_v1 (by decide), W3_keep m c main_v1 (by decide)]
  exact src_W2 m c
theorem dst_W8 (c : Dev nD) : W8 m c (Proc.devRef .tc main_v3)
    = shapeCast S524288 (extractStridedSlice S1x524288 ![1, 0] (m ((c : Thread nD τ).loc main_arg2)) slices_S2x524288_S1x524288_1_0) shapeCasts_S1x524288_S524288 := by
  rw [W8_keep m c main_v3 (by decide), W7_keep m c main_v3 (by decide), W6_keep m c main_v3 (by decide), W5_keep m c main_v3 (by decide), W4_keep m c main_v3 (by decide), W3_keep m c main_v3 (by decide)]
  exact dst_W2 m c

/-- The first code array, as the first region left it, is still there when its aggregate is taken, -/
theorem code_W2 (c : Dev nD) : W2 m c (Proc.devRef .tc main_v8_0)
    = Cert.Spec.mlpArr (m ((c : Thread nD τ).loc main_arg0)) (m ((c : Thread nD τ).loc main_arg3)) (m ((c : Thread nD τ).loc main_arg4)) (m ((c : Thread nD τ).loc main_arg5)) (m ((c : Thread nD τ).loc main_arg6)) := by
  rw [← res_h_a m c, W10_keep m c main_v8_0 (by decide), W9_keep m c main_v8_0 (by decide), W8_keep m c main_v8_0 (by decide), W7_keep m c main_v8_0 (by decide), W6_keep m c main_v8_0 (by decide), W5_keep m c main_v8_0 (by decide), W4_keep m c main_v8_0 (by decide), W3_keep m c main_v8_0 (by decide)]
/-- and so is the second. -/
theorem code_W8 (c : Dev nD) : W8 m c (Proc.devRef .tc main_v41)
    = Cert.Spec.mlpArr (m ((c : Thread nD τ).loc main_arg1)) (m ((c : Thread nD τ).loc main_arg11)) (m ((c : Thread nD τ).loc main_arg12)) (m ((c : Thread nD τ).loc main_arg13)) (m ((c : Thread nD τ).loc main_arg14)) := by
  rw [← res_h_s m c, W10_keep m c main_v41 (by decide), W9_keep m c main_v41 (by decide)]

theorem res_dna (c : Dev nD) : W10 m c (Proc.devRef .tc main_v38)
    = nd (Cert.Spec.mlpArr (m ((c : Thread nD τ).loc main_arg0)) (m ((c : Thread nD τ).loc main_arg3)) (m ((c : Thread nD τ).loc main_arg4)) (m ((c : Thread nD τ).loc main_arg5)) (m ((c : Thread nD τ).loc main_arg6))) (m ((c : Thread nD τ).loc main_arg2)) := by
  rw [W10_keep m c main_v38 (by decide), W9_keep m c main_v38 (by decide), W8_keep m c main_v38 (by decide), W7_keep m c main_v38 (by decide), W6_keep m c main_v38 (by decide), W5_keep m c main_v38 (by decide)]
  show StableHlo.after hostOps1_1 (StableHlo.after hostOps1 (W2 m c)) (Proc.devRef .tc main_v38) = _
  rw [chain_first (W2 m c) (m ((c : Thread nD τ).loc main_arg2)) (src_W2 m c) (dst_W2 m c), ndK_nd, code_W2]

theorem res_dns (c : Dev nD) : W10 m c (Proc.devRef .tc main_v74)
    = nd (Cert.Spec.mlpArr (m ((c : Thread nD τ).loc main_arg1)) (m ((c : Thread nD τ).loc main_arg11)) (m ((c : Thread nD τ).loc main_arg12)) (m ((c : Thread nD τ).loc main_arg13)) (m ((c : Thread nD τ).loc main_arg14))) (m ((c : Thread nD τ).loc main_arg2)) := by
  show StableHlo.after hostOps3_1 (StableHlo.after hostOps3 (W8 m c)) (Proc.devRef .tc main_v74) = _
  rw [chain_second (W8 m c) (m ((c : Thread nD τ).loc main_arg2)) (src_W8 m c) (dst_W8 m c), ndK_nd, code_W8]

end Cert.KernelIdeal.Hand

end
-- ==== Proof.KI.Values.lean ====
/-
  The kernel program's six results as functions of its argument arrays, at the extended reals: the four matrix results
  are the two-layer networks (each reconstruction the network of its code), the two vector results the neighbour-difference
  aggregate of the two codes — every weakly fair execution ends there, with the arguments unchanged.
-/
import proofs.«147646_j43310450213578_1_alg».proof.Proof.KI.Results0
import proofs.«147646_j43310450213578_1_alg».proof.Proof.KI.Results2
import proofs.«147646_j43310450213578_1_alg».proof.Proof.KI.Tail

set_option maxRecDepth 16384

noncomputable section

namespace Cert.KernelIdeal.Hand

open Cert.KernelIdeal Cert.KernelIdeal.Gen
open Idealize.ShloMosaic Idealize.ShloMosaic.TcCoe Idealize.SL.Sem
open Cert.ReferenceIdeal.RefValue (nd)

variable (m : (ℓ : Loc nD τ sig) → Buf (Elt Ideal) ℓ) (ρ : Dev nD → PrngReg)

theorem run_values : θ_run (defs (F := Ideal)) (onTc (τ := τ) (main (F := Ideal))) ⟨m, fun _ => 0, ρ⟩ (fun r => ∀ c : Dev nD,
      r.2.mem ((c.tc : Thread nD τ).loc main_v8_1) = Cert.Spec.mlpArr (Cert.Spec.mlpArr (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v44) = Cert.Spec.mlpArr (Cert.Spec.mlpArr (m ((c.tc : Thread nD τ).loc main_arg1)) (m ((c.tc : Thread nD τ).loc main_arg11)) (m ((c.tc : Thread nD τ).loc main_arg12)) (m ((c.tc : Thread nD τ).loc main_arg13)) (m ((c.tc : Thread nD τ).loc main_arg14))) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_v8_0) = Cert.Spec.mlpArr (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v41) = Cert.Spec.mlpArr (m ((c.tc : Thread nD τ).loc main_arg1)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v38) = nd (Cert.Spec.mlpArr (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg2))
      ∧ r.2.mem ((c.tc : Thread nD τ).loc main_v74) = nd (Cert.Spec.mlpArr (m ((c.tc : Thread nD τ).loc main_arg1)) (m ((c.tc : Thread nD τ).loc main_arg11)) (m ((c.tc : Thread nD τ).loc main_arg12)) (m ((c.tc : Thread nD τ).loc main_arg13)) (m ((c.tc : Thread nD τ).loc main_arg14))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨
    (h c _ (mem_uc main_v8_1 (by decide))).trans (res_x_ m c),
    (h c _ (mem_uc main_v44 (by decide))).trans (res_s_ m c),
    (h c _ (mem_uc main_v8_0 (by decide))).trans (res_h_a m c),
    (h c _ (mem_uc main_v41 (by decide))).trans (res_h_s m c),
    (h c _ (mem_uc main_v38 (by decide))).trans (res_dna m c),
    (h c _ (mem_uc main_v74 (by decide))).trans (res_dns m c),
    (h c _ (mem_uc main_arg0 (by decide))).trans (W10_launch m c main_arg0 (by decide) (by decide) (by decide) (by decide) (by decide) (by decide) (by decide) (by decide)),
    (h c _ (mem_uc main_arg1 (by decide))).trans (W10_launch m c main_arg1 (by decide) (by decide) (by decide) (by decide) (by decide) (by decide) (by decide) (by decide)),
    (h c _ (mem_uc main_arg2 (by decide))).trans (W10_launch m c main_arg2 (by decide) (by decide) (by decide) (by decide) (by decide) (by decide) (by decide) (by decide)),
    (h c _ (mem_uc main_arg3 (by decide))).trans (W10_launch m c main_arg3 (by decide) (by decide) (by decide) (by decide) (by decide) (by decide) (by decide) (by decide)),
    (h c _ (mem_uc main_arg4 (by decide))).trans (W10_launch m c main_arg4 (by decide) (by decide) (by decide) (by decide) (by decide) (by decide) (by decide) (by decide)),
    (h c _ (mem_uc main_arg5 (by decide))).trans (W10_launch m c main_arg5 (by decide) (by decide) (by decide) (by decide) (by decide) (by decide) (by decide) (by decide)),
    (h c _ (mem_uc main_arg6 (by decide))).trans (W10_launch m c main_arg6 (by decide) (by decide) (by decide) (by decide) (by decide) (by decide) (by decide) (by decide)),
    (h c _ (mem_uc main_arg7 (by decide))).trans (W10_launch m c main_arg7 (by decide) (by decide) (by decide) (by decide) (by decide) (by decide) (by decide) (by decide)),
    (h c _ (mem_uc main_arg8 (by decide))).trans (W10_launch m c main_arg8 (by decide) (by decide) (by decide) (by decide) (by decide) (by decide) (by decide) (by decide)),
    (h c _ (mem_uc main_arg9 (by decide))).trans (W10_launch m c main_arg9 (by decide) (by decide) (by decide) (by decide) (by decide) (by decide) (by decide) (by decide)),
    (h c _ (mem_uc main_arg10 (by decide))).trans (W10_launch m c main_arg10 (by decide) (by decide) (by decide) (by decide) (by decide) (by decide) (by decide) (by decide)),
    (h c _ (mem_uc main_arg11 (by decide))).trans (W10_launch m c main_arg11 (by decide) (by decide) (by decide) (by decide) (by decide) (by decide) (by decide) (by decide)),
    (h c _ (mem_uc main_arg12 (by decide))).trans (W10_launch m c main_arg12 (by decide) (by decide) (by decide) (by decide) (by decide) (by decide) (by decide) (by decide)),
    (h c _ (mem_uc main_arg13 (by decide))).trans (W10_launch m c main_arg13 (by decide) (by decide) (by decide) (by decide) (by decide) (by decide) (by decide) (by decide)),
    (h c _ (mem_uc main_arg14 (by decide))).trans (W10_launch m c main_arg14 (by decide) (by decide) (by decide) (by decide) (by decide) (by decide) (by decide) (by decide)),
    (h c _ (mem_uc main_arg15 (by decide))).trans (W10_launch m c main_arg15 (by decide) (by decide) (by decide) (by decide) (by decide) (by decide) (by decide) (by decide)),
    (h c _ (mem_uc main_arg16 (by decide))).trans (W10_launch m c main_arg16 (by decide) (by decide) (by decide) (by decide) (by decide) (by decide) (by decide) (by decide)),
    (h c _ (mem_uc main_arg17 (by decide))).trans (W10_launch m c main_arg17 (by decide) (by decide) (by decide) (by decide) (by decide) (by decide) (by decide) (by decide)),
    (h c _ (mem_uc main_arg18 (by decide))).trans (W10_launch m c main_arg18 (by decide) (by decide) (by decide) (by decide) (by decide) (by decide) (by decide) (by decide))⟩)
    (run m ρ)

end Cert.KernelIdeal.Hand

end
-- ==== Proof.Ref.HA.lean ====
/-
  The first code, h_a = relu(x · W1 + b1) · W2 + b2, is the two-layer network of the specification: entry by entry, the
  row-by-column sums of the two matrix products, the broadcast biases and the positive part are read off the operations.
-/
import proofs.«147646_j43310450213578_1_alg».proof.Proof.GenP.ReferenceIdeal.Read
import proofs.«147646_j43310450213578_1_alg».proof.Proof.Spec

noncomputable section

namespace Cert.ReferenceIdeal.RefValue

open Cert.ReferenceIdeal Cert.ReferenceIdeal.Gen Idealize.ShloMosaic

/-- The hidden layer of the first code at entry (p, k): the positive part of the first dense layer. -/
theorem ha_hidden (x0 : (⟨S8192x256, .f32⟩ : BufTy).Contents (Elt Ideal)) (x3 : (⟨S256x128, .f32⟩ : BufTy).Contents (Elt Ideal)) (x4 : (⟨S128, .f32⟩ : BufTy).Contents (Elt Ideal)) (p : Fin 8192) (k : Fin 128) :
    Read.val_main_v8 (F := Ideal) x0 x3 x4 (ValueIdx.ix2 p k)
      = max (Cert.Spec.dense (fun i k => x0 (ValueIdx.ix2 i k)) (fun k h => x3 (ValueIdx.ix2 k h)) (fun h => x4 (ValueIdx.ix1 h)) p k) 0 := by
  rw [Read.val_main_v8_apply, Read.val_main_v7_apply, Read.val_main_v4_apply, Read.val_main_v6_apply, Read.val_main_v5_apply,
    Read.val_main_call0_v0_apply, Read.val_main_call0_cst_apply]
  have e1 : ∀ k' : Fin 256, Read.lidx_main_v4 (ValueIdx.ix2 p k) k' = ValueIdx.ix2 p k' := fun k' =>
    funext fun a => Fin.ext (by match a with | ⟨0, _⟩ => rfl | ⟨1, _⟩ => rfl)
  have e2 : ∀ k' : Fin 256, Read.ridx_main_v4 (ValueIdx.ix2 p k) k' = ValueIdx.ix2 k' k := fun k' =>
    funext fun a => Fin.ext (by match a with | ⟨0, _⟩ => rfl | ⟨1, _⟩ => rfl)
  have e3 : Read.idx_main_v5 (Read.idx_main_v6 (ValueIdx.ix2 p k)) = ValueIdx.ix1 k :=
    funext fun a => Fin.ext (by match a with | ⟨0, _⟩ => rfl)
  simp only [e1, e2, e3, Ideal.ofBits_def, Ideal.ofBits_zero_f32]
  rfl

/-- The first code at entry (p, q) is the two-layer network of its operands. -/
theorem ha_apply (x0 : (⟨S8192x256, .f32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (p : Fin 8192) (q : Fin 128) :
    Read.val_main_v12 (F := Ideal) x0 x3 x4 x5 x6 (ValueIdx.ix2 p q)
      = Cert.Spec.mlp (fun i k => x0 (ValueIdx.ix2 i k)) (fun k h => x3 (ValueIdx.ix2 k h)) (fun h => x4 (ValueIdx.ix1 h)) (fun h n => x5 (ValueIdx.ix2 h n)) (fun n => x6 (ValueIdx.ix1 n)) p q := by
  rw [Read.val_main_v12_apply, Read.val_main_v9_apply, Read.val_main_v11_apply, Read.val_main_v10_apply]
  have e1 : ∀ k : Fin 128, Read.lidx_main_v9 (ValueIdx.ix2 p q) k = ValueIdx.ix2 p k := fun k =>
    funext fun a => Fin.ext (by match a with | ⟨0, _⟩ => rfl | ⟨1, _⟩ => rfl)
  have e2 : ∀ k : Fin 128, Read.ridx_main_v9 (ValueIdx.ix2 p q) k = ValueIdx.ix2 k q := fun k =>
    funext fun a => Fin.ext (by match a with | ⟨0, _⟩ => rfl | ⟨1, _⟩ => rfl)
  have e3 : Read.idx_main_v10 (Read.idx_main_v11 (ValueIdx.ix2 p q)) = ValueIdx.ix1 q :=
    funext fun a => Fin.ext (by match a with | ⟨0, _⟩ => rfl)
  simp only [e1, e2, e3, ha_hidden]
  rfl

/-- The first code as a whole array. -/
theorem ha_eq (x0 : (⟨S8192x256, .f32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    Read.val_main_v12 (F := Ideal) x0 x3 x4 x5 x6 = Cert.Spec.mlpArr x0 x3 x4 x5 x6 := by
  funext j
  obtain ⟨p, q, rfl⟩ : ∃ (p : Fin 8192) (q : Fin 128), j = ValueIdx.ix2 p q := ⟨j 0, j 1, ValueIdx.eq_ix2 j⟩
  rw [Cert.Spec.mlpArr_apply, ha_apply]

end Cert.ReferenceIdeal.RefValue

end
-- ==== Proof.Ref.X.lean ====
/-
  The first reconstruction, x_ = relu(h_a · W1 + b1) · W2 + b2, is the two-layer network of the first code, itself the
  two-layer network of the input.
-/
import proofs.«147646_j43310450213578_1_alg».proof.Proof.Ref.HA

noncomputable section

namespace Cert.ReferenceIdeal.RefValue

open Cert.ReferenceIdeal Cert.ReferenceIdeal.Gen Idealize.ShloMosaic

/-- The hidden layer of the first reconstruction at entry (p, k): the positive part of the first dense layer. -/
theorem xr_hidden (x0 : (⟨S8192x256, .f32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (p : Fin 8192) (k : Fin 128) :
    Read.val_main_v17 (F := Ideal) x0 x3 x4 x5 x6 x7 x8 (ValueIdx.ix2 p k)
      = max (Cert.Spec.dense (fun i k => (Read.val_main_v12 (F := Ideal) x0 x3 x4 x5 x6) (ValueIdx.ix2 i k)) (fun k h => x7 (ValueIdx.ix2 k h)) (fun h => x8 (ValueIdx.ix1 h)) p k) 0 := by
  rw [Read.val_main_v17_apply, Read.val_main_v16_apply, Read.val_main_v13_apply, Read.val_main_v15_apply, Read.val_main_v14_apply,
    Read.val_main_call1_v0_apply, Read.val_main_call1_cst_apply]
  have e1 : ∀ k' : Fin 128, Read.lidx_main_v13 (ValueIdx.ix2 p k) k' = ValueIdx.ix2 p k' := fun k' =>
    funext fun a => Fin.ext (by match a with | ⟨0, _⟩ => rfl | ⟨1, _⟩ => rfl)
  have e2 : ∀ k' : Fin 128, Read.ridx_main_v13 (ValueIdx.ix2 p k) k' = ValueIdx.ix2 k' k := fun k' =>
    funext fun a => Fin.ext (by match a with | ⟨0, _⟩ => rfl | ⟨1, _⟩ => rfl)
  have e3 : Read.idx_main_v14 (Read.idx_main_v15 (ValueIdx.ix2 p k)) = ValueIdx.ix1 k :=
    funext fun a => Fin.ext (by match a with | ⟨0, _⟩ => rfl)
  simp only [e1, e2, e3, Ideal.ofBits_def, Ideal.ofBits_zero_f32]
  rfl

/-- The first reconstruction at entry (p, q) is the two-layer network of its operands. -/
theorem xr_apply (x0 : (⟨S8192x256, .f32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x256, .f32⟩ : BufTy).Contents (Elt Ideal)) (x10 : (⟨S256, .f32⟩ : BufTy).Contents (Elt Ideal)) (p : Fin 8192) (q : Fin 256) :
    Read.val_main_v21 (F := Ideal) x0 x3 x4 x5 x6 x7 x8 x9 x10 (ValueIdx.ix2 p q)
      = Cert.Spec.mlp (fun i k => (Read.val_main_v12 (F := Ideal) x0 x3 x4 x5 x6) (ValueIdx.ix2 i k)) (fun k h => x7 (ValueIdx.ix2 k h)) (fun h => x8 (ValueIdx.ix1 h)) (fun h n => x9 (ValueIdx.ix2 h n)) (fun n => x10 (ValueIdx.ix1 n)) p q := by
  rw [Read.val_main_v21_apply, Read.val_main_v18_apply, Read.val_main_v20_apply, Read.val_main_v19_apply]
  have e1 : ∀ k : Fin 128, Read.lidx_main_v18 (ValueIdx.ix2 p q) k = ValueIdx.ix2 p k := fun k =>
    funext fun a => Fin.ext (by match a with | ⟨0, _⟩ => rfl | ⟨1, _⟩ => rfl)
  have e2 : ∀ k : Fin 128, Read.ridx_main_v18 (ValueIdx.ix2 p q) k = ValueIdx.ix2 k q := fun k =>
    funext fun a => Fin.ext (by match a with | ⟨0, _⟩ => rfl | ⟨1, _⟩ => rfl)
  have e3 : Read.idx_main_v19 (Read.idx_main_v20 (ValueIdx.ix2 p q)) = ValueIdx.ix1 q :=
    funext fun a => Fin.ext (by match a with | ⟨0, _⟩ => rfl)
  simp only [e1, e2, e3, xr_hidden]
  rfl

/-- The first reconstruction as a whole array: the network of the network of the input. -/
theorem xr_eq (x0 : (⟨S8192x256, .f32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x256, .f32⟩ : BufTy).Contents (Elt Ideal)) (x10 : (⟨S256, .f32⟩ : BufTy).Contents (Elt Ideal)) :
    Read.val_main_v21 (F := Ideal) x0 x3 x4 x5 x6 x7 x8 x9 x10 = Cert.Spec.mlpArr (Cert.Spec.mlpArr x0 x3 x4 x5 x6) x7 x8 x9 x10 := by
  funext j
  obtain ⟨p, q, rfl⟩ : ∃ (p : Fin 8192) (q : Fin 256), j = ValueIdx.ix2 p q := ⟨j 0, j 1, ValueIdx.eq_ix2 j⟩
  rw [Cert.Spec.mlpArr_apply, xr_apply, ha_eq]

end Cert.ReferenceIdeal.RefValue

end
-- ==== Proof.Ref.HS.lean ====
/-
  The second code, h_s = relu(s · W1 + b1) · W2 + b2, is the two-layer network of the specification; the first matrix
  product sums over all 8192 columns of s.
-/
import proofs.«147646_j43310450213578_1_alg».proof.Proof.GenP.ReferenceIdeal.Read
import proofs.«147646_j43310450213578_1_alg».proof.Proof.Spec

noncomputable section

namespace Cert.ReferenceIdeal.RefValue

open Cert.ReferenceIdeal Cert.ReferenceIdeal.Gen Idealize.ShloMosaic

/-- The hidden layer of the second code at entry (p, k): the positive part of the first dense layer. -/
theorem hs_hidden (x1 : (⟨S8192x8192, .f32⟩ : BufTy).Contents (Elt Ideal)) (x11 : (⟨S8192x128, .f32⟩ : BufTy).Contents (Elt Ideal)) (x12 : (⟨S128, .f32⟩ : BufTy).Contents (Elt Ideal)) (p : Fin 8192) (k : Fin 128) :
    Read.val_main_v56 (F := Ideal) x1 x11 x12 (ValueIdx.ix2 p k)
      = max (Cert.Spec.dense (fun i k => x1 (ValueIdx.ix2 i k)) (fun k h => x11 (ValueIdx.ix2 k h)) (fun h => x12 (ValueIdx.ix1 h)) p k) 0 := by
  rw [Read.val_main_v56_apply, Read.val_main_v55_apply, Read.val_main_v52_apply, Read.val_main_v54_apply, Read.val_main_v53_apply,
    Read.val_main_call3_v0_apply, Read.val_main_call3_cst_apply]
  have e1 : ∀ k' : Fin 8192, Read.lidx_main_v52 (ValueIdx.ix2 p k) k' = ValueIdx.ix2 p k' := fun k' =>
    funext fun a => Fin.ext (by match a with | ⟨0, _⟩ => rfl | ⟨1, _⟩ => rfl)
  have e2 : ∀ k' : Fin 8192, Read.ridx_main_v52 (ValueIdx.ix2 p k) k' = ValueIdx.ix2 k' k := fun k' =>
    funext fun a => Fin.ext (by match a with | ⟨0, _⟩ => rfl | ⟨1, _⟩ => rfl)
  have e3 : Read.idx_main_v53 (Read.idx_main_v54 (ValueIdx.ix2 p k)) = ValueIdx.ix1 k :=
    funext fun a => Fin.ext (by match a with | ⟨0, _⟩ => rfl)
  simp only [e1, e2, e3, Ideal.ofBits_def, Ideal.ofBits_zero_f32]
  rfl

/-- The second code at entry (p, q) is the two-layer network of its operands. -/
theorem hs_apply (x1 : (⟨S8192x8192, .f32⟩ : BufTy).Contents (Elt Ideal)) (x11 : (⟨S8192x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (p : Fin 8192) (q : Fin 128) :
    Read.val_main_v60 (F := Ideal) x1 x11 x12 x13 x14 (ValueIdx.ix2 p q)
      = Cert.Spec.mlp (fun i k => x1 (ValueIdx.ix2 i k)) (fun k h => x11 (ValueIdx.ix2 k h)) (fun h => x12 (ValueIdx.ix1 h)) (fun h n => x13 (ValueIdx.ix2 h n)) (fun n => x14 (ValueIdx.ix1 n)) p q := by
  rw [Read.val_main_v60_apply, Read.val_main_v57_apply, Read.val_main_v59_apply, Read.val_main_v58_apply]
  have e1 : ∀ k : Fin 128, Read.lidx_main_v57 (ValueIdx.ix2 p q) k = ValueIdx.ix2 p k := fun k =>
    funext fun a => Fin.ext (by match a with | ⟨0, _⟩ => rfl | ⟨1, _⟩ => rfl)
  have e2 : ∀ k : Fin 128, Read.ridx_main_v57 (ValueIdx.ix2 p q) k = ValueIdx.ix2 k q := fun k =>
    funext fun a => Fin.ext (by match a with | ⟨0, _⟩ => rfl | ⟨1, _⟩ => rfl)
  have e3 : Read.idx_main_v58 (Read.idx_main_v59 (ValueIdx.ix2 p q)) = ValueIdx.ix1 q :=
    funext fun a => Fin.ext (by match a with | ⟨0, _⟩ => rfl)
  simp only [e1, e2, e3, hs_hidden]
  rfl

/-- The second code as a whole array. -/
theorem hs_eq (x1 : (⟨S8192x8192, .f32⟩ : BufTy).Contents (Elt Ideal)) (x11 : (⟨S8192x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) :
    Read.val_main_v60 (F := Ideal) x1 x11 x12 x13 x14 = Cert.Spec.mlpArr x1 x11 x12 x13 x14 := by
  funext j
  obtain ⟨p, q, rfl⟩ : ∃ (p : Fin 8192) (q : Fin 128), j = ValueIdx.ix2 p q := ⟨j 0, j 1, ValueIdx.eq_ix2 j⟩
  rw [Cert.Spec.mlpArr_apply, hs_apply]

end Cert.ReferenceIdeal.RefValue

end
-- ==== Proof.Ref.S.lean ====
/-
  The second reconstruction, s_ = relu(h_s · W1 + b1) · W2 + b2, is the two-layer network of the second code, itself the
  two-layer network of the second input.
-/
import proofs.«147646_j43310450213578_1_alg».proof.Proof.Ref.HS

noncomputable section

namespace Cert.ReferenceIdeal.RefValue

open Cert.ReferenceIdeal Cert.ReferenceIdeal.Gen Idealize.ShloMosaic

/-- The hidden layer of the second reconstruction at entry (p, k): the positive part of the first dense layer. -/
theorem sr_hidden (x1 : (⟨S8192x8192, .f32⟩ : BufTy).Contents (Elt Ideal)) (x11 : (⟨S8192x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (p : Fin 8192) (k : Fin 128) :
    Read.val_main_v65 (F := Ideal) x1 x11 x12 x13 x14 x15 x16 (ValueIdx.ix2 p k)
      = max (Cert.Spec.dense (fun i k => (Read.val_main_v60 (F := Ideal) x1 x11 x12 x13 x14) (ValueIdx.ix2 i k)) (fun k h => x15 (ValueIdx.ix2 k h)) (fun h => x16 (ValueIdx.ix1 h)) p k) 0 := by
  rw [Read.val_main_v65_apply, Read.val_main_v64_apply, Read.val_main_v61_apply, Read.val_main_v63_apply, Read.val_main_v62_apply,
    Read.val_main_call4_v0_apply, Read.val_main_call4_cst_apply]
  have e1 : ∀ k' : Fin 128, Read.lidx_main_v61 (ValueIdx.ix2 p k) k' = ValueIdx.ix2 p k' := fun k' =>
    funext fun a => Fin.ext (by match a with | ⟨0, _⟩ => rfl | ⟨1, _⟩ => rfl)
  have e2 : ∀ k' : Fin 128, Read.ridx_main_v61 (ValueIdx.ix2 p k) k' = ValueIdx.ix2 k' k := fun k' =>
    funext fun a => Fin.ext (by match a with | ⟨0, _⟩ => rfl | ⟨1, _⟩ => rfl)
  have e3 : Read.idx_main_v62 (Read.idx_main_v63 (ValueIdx.ix2 p k)) = ValueIdx.ix1 k :=
    funext fun a => Fin.ext (by match a with | ⟨0, _⟩ => rfl)
  simp only [e1, e2, e3, Ideal.ofBits_def, Ideal.ofBits_zero_f32]
  rfl

/-- The second reconstruction at entry (p, q) is the two-layer network of its operands. -/
theorem sr_apply (x1 : (⟨S8192x8192, .f32⟩ : BufTy).Contents (Elt Ideal)) (x11 : (⟨S8192x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128x8192, .f32⟩ : BufTy).Contents (Elt Ideal)) (x18 : (⟨S8192, .f32⟩ : BufTy).Contents (Elt Ideal)) (p : Fin 8192) (q : Fin 8192) :
    Read.val_main_v69 (F := Ideal) x1 x11 x12 x13 x14 x15 x16 x17 x18 (ValueIdx.ix2 p q)
      = Cert.Spec.mlp (fun i k => (Read.val_main_v60 (F := Ideal) x1 x11 x12 x13 x14) (ValueIdx.ix2 i k)) (fun k h => x15 (ValueIdx.ix2 k h)) (fun h => x16 (ValueIdx.ix1 h)) (fun h n => x17 (ValueIdx.ix2 h n)) (fun n => x18 (ValueIdx.ix1 n)) p q := by
  rw [Read.val_main_v69_apply, Read.val_main_v66_apply, Read.val_main_v68_apply, Read.val_main_v67_apply]
  have e1 : ∀ k : Fin 128, Read.lidx_main_v66 (ValueIdx.ix2 p q) k = ValueIdx.ix2 p k := fun k =>
    funext fun a => Fin.ext (by match a with | ⟨0, _⟩ => rfl | ⟨1, _⟩ => rfl)
  have e2 : ∀ k : Fin 128, Read.ridx_main_v66 (ValueIdx.ix2 p q) k = ValueIdx.ix2 k q := fun k =>
    funext fun a => Fin.ext (by match a with | ⟨0, _⟩ => rfl | ⟨1, _⟩ => rfl)
  have e3 : Read.idx_main_v67 (Read.idx_main_v68 (ValueIdx.ix2 p q)) = ValueIdx.ix1 q :=
    funext fun a => Fin.ext (by match a with | ⟨0, _⟩ => rfl)
  simp only [e1, e2, e3, sr_hidden]
  rfl

/-- The second reconstruction as a whole array: the network of the network of the second input. -/
theorem sr_eq (x1 : (⟨S8192x8192, .f32⟩ : BufTy).Contents (Elt Ideal)) (x11 : (⟨S8192x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128x8192, .f32⟩ : BufTy).Contents (Elt Ideal)) (x18 : (⟨S8192, .f32⟩ : BufTy).Contents (Elt Ideal)) :
    Read.val_main_v69 (F := Ideal) x1 x11 x12 x13 x14 x15 x16 x17 x18 = Cert.Spec.mlpArr (Cert.Spec.mlpArr x1 x11 x12 x13 x14) x15 x16 x17 x18 := by
  funext j
  obtain ⟨p, q, rfl⟩ : ∃ (p : Fin 8192) (q : Fin 8192), j = ValueIdx.ix2 p q := ⟨j 0, j 1, ValueIdx.eq_ix2 j⟩
  rw [Cert.Spec.mlpArr_apply, sr_apply, hs_eq]

end Cert.ReferenceIdeal.RefValue

end
-- ==== Proof.Ref.NdEq.lean ====
/-
  The two vector results are the neighbour-difference aggregate of the two codes: the chain of operations that produces
  the first from the first code is, operation for operation, the chain that produces the second from the second code.
-/
import proofs.«147646_j43310450213578_1_alg».proof.Proof.GenP.ReferenceIdeal.Read
import proofs.«147646_j43310450213578_1_alg».proof.Proof.Ref.Nd

noncomputable section

namespace Cert.ReferenceIdeal.RefValue

open Cert.ReferenceIdeal Cert.ReferenceIdeal.Gen Idealize.ShloMosaic

/-- The first aggregate is the neighbour-difference aggregate of the first code. -/
theorem dna_eq (x0 : (⟨S8192x256, .f32⟩ : BufTy).Contents (Elt Ideal)) (x2 : (⟨S2x524288, .i32⟩ : BufTy).Contents (Elt Ideal)) (x3 : (⟨S256x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    Read.val_main_v51 (F := Ideal) x0 x2 x3 x4 x5 x6 = nd (Read.val_main_v12 (F := Ideal) x0 x3 x4 x5 x6) x2 := rfl

/-- The second aggregate is the neighbour-difference aggregate of the second code. -/
theorem dns_eq (x1 : (⟨S8192x8192, .f32⟩ : BufTy).Contents (Elt Ideal)) (x2 : (⟨S2x524288, .i32⟩ : BufTy).Contents (Elt Ideal)) (x11 : (⟨S8192x128, .f32⟩ : BufTy).Contents (Elt Ideal)) (x12 : (⟨S128, .f32⟩ : BufTy).Contents (Elt Ideal))
    (x13 : (⟨S128x128, .f32⟩ : BufTy).Contents (Elt Ideal)) (x14 : (⟨S128, .f32⟩ : BufTy).Contents (Elt Ideal)) :
    Read.val_main_v99 (F := Ideal) x1 x2 x11 x12 x13 x14 = nd (Read.val_main_v60 (F := Ideal) x1 x11 x12 x13 x14) x2 := rfl

end Cert.ReferenceIdeal.RefValue

end
-- ==== Proof.Ref.Results.lean ====
/-
  The reference program's six results as functions of its argument arrays: the four matrix results are two-layer
  networks (each reconstruction the network of its code), the two vector results the neighbour-difference aggregate of
  the two codes; every weakly fair execution ends there with the arguments unchanged.
-/
import proofs.«147646_j43310450213578_1_alg».proof.Proof.GenP.ReferenceIdeal.Read
import proofs.«147646_j43310450213578_1_alg».proof.Proof.Spec
import proofs.«147646_j43310450213578_1_alg».proof.Proof.Ref.X
import proofs.«147646_j43310450213578_1_alg».proof.Proof.Ref.S
import proofs.«147646_j43310450213578_1_alg».proof.Proof.Ref.NdEq

noncomputable section

namespace Cert.ReferenceIdeal.RefValue

open Cert.ReferenceIdeal Cert.ReferenceIdeal.Gen Idealize.ShloMosaic Idealize.ShloMosaic.TcCoe Idealize.SL.Sem

/-- Every weakly fair execution of the reference ends with its six results at the specification's functions of the
    arguments, and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21) = Cert.Spec.mlpArr (Cert.Spec.mlpArr (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v69) = Cert.Spec.mlpArr (Cert.Spec.mlpArr (m ((c.tc : Thread nD τ).loc main_arg1)) (m ((c.tc : Thread nD τ).loc main_arg11)) (m ((c.tc : Thread nD τ).loc main_arg12)) (m ((c.tc : Thread nD τ).loc main_arg13)) (m ((c.tc : Thread nD τ).loc main_arg14))) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_v12) = Cert.Spec.mlpArr (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v60) = Cert.Spec.mlpArr (m ((c.tc : Thread nD τ).loc main_arg1)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v51) = nd (Cert.Spec.mlpArr (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg2))
      ∧ r.2.mem ((c.tc : Thread nD τ).loc main_v99) = nd (Cert.Spec.mlpArr (m ((c.tc : Thread nD τ).loc main_arg1)) (m ((c.tc : Thread nD τ).loc main_arg11)) (m ((c.tc : Thread nD τ).loc main_arg12)) (m ((c.tc : Thread nD τ).loc main_arg13)) (m ((c.tc : Thread nD τ).loc main_arg14))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run _ _ _).mono (fun _ h c => by
      obtain ⟨h21, h69, h12, h60, h51, h99, hargs⟩ := h c
      refine ⟨?_, ?_, ?_, ?_, ?_, ?_, hargs⟩
      · exact h21.trans ((Read.val_main_v21_eq _ _ _ _ _ _ _ _ _).trans (xr_eq _ _ _ _ _ _ _ _ _))
      · exact h69.trans ((Read.val_main_v69_eq _ _ _ _ _ _ _ _ _).trans (sr_eq _ _ _ _ _ _ _ _ _))
      · exact h12.trans ((Read.val_main_v12_eq _ _ _ _ _).trans (ha_eq _ _ _ _ _))
      · exact h60.trans ((Read.val_main_v60_eq _ _ _ _ _).trans (hs_eq _ _ _ _ _))
      · rw [h51, Read.val_main_v51_eq, dna_eq, ha_eq]
      · rw [h99, Read.val_main_v99_eq, dns_eq, hs_eq])
    (Value.run (F := Ideal) m ρ)

end Cert.ReferenceIdeal.RefValue

end
-- ==== Proof.Ref.Frame.lean ====
/-
  The reference's frame: every weakly fair execution terminates, faults nowhere and leaves the arguments unchanged. It is
  the reference's run with the six results dropped.
-/
import proofs.«147646_j43310450213578_1_alg».proof.Defs
import proofs.«147646_j43310450213578_1_alg».proof.Proof.GenP.ReferenceIdeal.Run
import proofs.«147646_j43310450213578_1_alg».proof.Proof.Gen.Pre_finite_inputs

noncomputable section

namespace Cert.ReferenceIdeal.RefValue

open Idealize.ShloMosaic Idealize.SL.Sem

theorem frame_ri : Cert.frame_ReferenceIdeal :=
  fun m ρ _ => (θ_run Cert.ReferenceIdeal.defs _ _).mono (fun _ h c => (h c).2.2.2.2.2.2)
    (Cert.ReferenceIdeal.Value.run (F := Ideal) m ρ)

end Cert.ReferenceIdeal.RefValue

end
-- ==== Proof.lean ====
/-
  The certificate's five claims.

  Frames. The kernel program is a chain of ten items: host stretches and three kernel regions. Each region's body is
  run once per kind of grid point (the second region's three kinds: clear-and-add, add, add-and-finish); its pipeline
  stages the windows, and between items every unscoped buffer is held at a named valuation, so every weakly fair
  execution runs to the end, nothing faults, and no item writes an argument. The same text proves it for the program
  as printed (words) and for its idealization (extended reals). The reference is a straight line of host operations.

  Values. On the extended reals each matrix result of either program is the two-layer network
      relu(x · W1 + b1) · W2 + b2
  of its operands, entry by entry: the kernels tile the rows (and, for the last, the columns) of one such product, and
  the second kernel adds the 8192 contracted positions in four chunks of 2048, which is the same finite sum regrouped.
  The two vector results are one and the same chain of host operations applied to the two codes. Nothing uses
  distributivity or cancellation, so the finiteness of the inputs is never consulted. The idealization rewrote no
  operation, so nothing is to be preserved.
-/
import proofs.«147646_j43310450213578_1_alg».proof.Defs
import proofs.«147646_j43310450213578_1_alg».proof.Proof.Gen.Kernel
import proofs.«147646_j43310450213578_1_alg».proof.Proof.Gen.KernelIdeal
import proofs.«147646_j43310450213578_1_alg».proof.Proof.Gen.ReferenceIdeal
import proofs.«147646_j43310450213578_1_alg».proof.Proof.Gen.Pre_finite_inputs
import proofs.«147646_j43310450213578_1_alg».proof.Proof.KB.Frame
import proofs.«147646_j43310450213578_1_alg».proof.Proof.KI.Values
import proofs.«147646_j43310450213578_1_alg».proof.Proof.Ref.Results
import proofs.«147646_j43310450213578_1_alg».proof.Proof.Ref.Frame

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := Cert.ReferenceIdeal.RefValue.frame_ri

/-- The idealization is the program's own text read at the extended reals: no rewrite to justify. -/
theorem preserves : Cert.preserves_Kernel_KernelIdeal := trivial

/-- Both programs end with the specification's six functions of arguments that agree. -/
theorem algebraic : Cert.algebraic_KernelIdeal_ReferenceIdeal := by
  intro m ρ m' ρ' _ hagree
  refine ⟨_, _, _, _, _, _, Cert.KernelIdeal.Hand.run_values m ρ, ?_⟩
  refine (θ_run Cert.ReferenceIdeal.defs _ _).mono (fun r h c => ?_) (Cert.ReferenceIdeal.RefValue.run_spec m' ρ')
  obtain ⟨a0, a1, a2, a3, a4, a5, a6, a7, a8, a9, a10, a11, a12, a13, a14, a15, a16, a17, a18⟩ := hagree c
  obtain ⟨h21, h69, h12, h60, h51, h99, hargs⟩ := h c
  refine ⟨h21.trans ?_, h69.trans ?_, h12.trans ?_, h60.trans ?_, h51.trans ?_, h99.trans ?_, hargs⟩
  · rw [a0, a3, a4, a5, a6, a7, a8, a9, a10]
  · rw [a1, a11, a12, a13, a14, a15, a16, a17, a18]
  · rw [a0, a3, a4, a5, a6]
  · rw [a1, a11, a12, a13, a14]
  · rw [a0, a3, a4, a5, a6, a2]
  · rw [a1, a11, a12, a13, a14, a2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
